-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S65536x7x7 : Shape := ⟨3, ![65536, 7, 7]⟩
abbrev S16777216x8 : Shape := ⟨2, ![16777216, 8]⟩
abbrev S4x32 : Shape := ⟨2, ![4, 32]⟩
abbrev S200x16 : Shape := ⟨2, ![200, 16]⟩
abbrev S256x440 : Shape := ⟨2, ![256, 440]⟩
abbrev S256 : Shape := ⟨1, ![256]⟩
abbrev S64x256 : Shape := ⟨2, ![64, 256]⟩
abbrev S64 : Shape := ⟨1, ![64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S16777216x8 : S_.BroadcastsInDim S16777216x8 (![] : Fin 0 → Fin S16777216x8.rank)
  reducesTo_S16777216x8_S_d0_1 : S16777216x8.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S200x16 : S_.BroadcastsInDim S200x16 (![] : Fin 0 → Fin S200x16.rank)
  reducesTo_S200x16_S_d0_1 : S200x16.ReducesTo [0, 1] S_
  bcast_S_S256x440 : S_.BroadcastsInDim S256x440 (![] : Fin 0 → Fin S256x440.rank)
  reducesTo_S256x440_S_d0_1 : S256x440.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1x16 .f32) (main_arg15 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S1x16 .f32 := Host.absf main_arg14
  let main_cst_20 : FVec F S_ .f32 := constant S_ .f32 0x7F800000#32
  let main_v55 : FVec F S1x16 .f32 := broadcastInDim S1x16 ![] bcast_S_S1x16 main_cst_20
  let main_v56 : IVec S1x16 1 := cmpf .olt main_v54 main_v55
  let main_c_21 : IVec S_ 1 := constantI S_ 1 1#1
  let main_v57 : IVec S_ 1 := (fun x v => Host.reduce IntOp.andi x v reducesTo_S1x16_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S64x256 .f32) (main_arg11 : FVec F S64 .f32) (main_arg12 : FVec F S16x64 .f32) (main_arg13 : FVec F S16 .f32) (main_arg14 : FVec F S1x16 .f32) (main_arg15 : FVec F S1 .f32) (main_v33 : IVec S_ 1) : IVec S_ 1 :=
  let main_v34 : FVec F S64x256 .f32 := Host.absf main_arg10
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S16x64 .f32 := Host.absf main_arg12
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S16 .f32 := Host.absf main_arg13
  let main_cst_18 : FVec F S_ .f32 := constant S_ .f32 0x7F800000#32
  let main_v50 : FVec F S16 .f32 := broadcastInDim S16 ![] bcast_S_S16 main_cst_18
  fn_part3 (F := F) main_arg14 main_arg15 main_v48 main_v49 main_v50

def fn_part1 {F : FTy → Type} [FloatOps F] (main_arg7 : FVec F S256 .f32) (main_arg8 : FVec F S256 .f32) (main_arg9 : FVec F S256 .f32) (main_arg10 : FVec F S64x256 .f32) (main_arg11 : FVec F S64 .f32) (main_arg12 : FVec F S16x64 .f32) (main_arg13 : FVec F S16 .f32) (main_arg14 : FVec F S1x16 .f32) (main_arg15 : FVec F S1 .f32) (main_v13 : IVec S_ 1) (main_v16 : IVec S256x440 1) : IVec S_ 1 :=
  let main_c_5 : IVec S_ 1 := constantI S_ 1 1#1
  let main_v17 : IVec S_ 1 := (fun x v => Host.reduce IntOp.andi x v reducesTo_S256x440_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : IVec S65536 32) (main_arg1 : IVec S65536 32) (main_arg2 : IVec S65536x7x7 32) (main_arg3 : FVec F S16777216x8 .f32) (main_arg4 : FVec F S4x32 .f32) (main_arg5 : FVec F S200x16 .f32) (main_arg6 : FVec F S256x440 .f32) (main_arg7 : FVec F S256 .f32) (main_arg8 : FVec F S256 .f32) (main_arg9 : FVec F S256 .f32) (main_arg10 : FVec F S64x256 .f32) (main_arg11 : FVec F S64 .f32) (main_arg12 : FVec F S16x64 .f32) (main_arg13 : FVec F S16 .f32) (main_arg14 : FVec F S1x16 .f32) (main_arg15 : FVec F S1 .f32) : IVec S_ 1 :=
  let main_v0 : FVec F S16777216x8 .f32 := Host.absf main_arg3
  let main_cst : FVec F S_ .f32 := constant S_ .f32 0x7F800000#32
  let main_v1 : FVec F S16777216x8 .f32 := broadcastInDim S16777216x8 ![] bcast_S_S16777216x8 main_cst
  let main_v2 : IVec S16777216x8 1 := cmpf .olt main_v0 main_v1
  let main_c : IVec S_ 1 := constantI S_ 1 1#1
  let main_v3 : IVec S_ 1 := (fun x v => Host.reduce IntOp.andi x v reducesTo_S16777216x8_S_d0_1 h_S_) main_v2 main_c
  let main_v4 : FVec F S4x32 .f32 := Host.absf main_arg4
  let main_cst_0 : FVec F S_ .f32 := constant S_ .f32 0x7F800000#32
  let main_v5 : FVec F S4x32 .f32 := broadcastInDim S4x32 ![] bcast_S_S4x32 main_cst_0
  let main_v6 : IVec S4x32 1 := cmpf .olt main_v4 main_v5
  let main_c_1 : IVec S_ 1 := constantI S_ 1 1#1
  let main_v7 : IVec S_ 1 := (fun x v => Host.reduce IntOp.andi x v reducesTo_S4x32_S_d0_1 h_S_) main_v6 main_c_1
  let main_v8 : IVec S_ 1 := andi main_v3 main_v7
  let main_v9 : FVec F S200x16 .f32 := Host.absf main_arg5
  let main_cst_2 : FVec F S_ .f32 := constant S_ .f32 0x7F800000#32
  let main_v10 : FVec F S200x16 .f32 := broadcastInDim S200x16 ![] bcast_S_S200x16 main_cst_2
  let main_v11 : IVec S200x16 1 := cmpf .olt main_v9 main_v10
  let main_c_3 : IVec S_ 1 := constantI S_ 1 1#1
  let main_v12 : IVec S_ 1 := (fun x v => Host.reduce IntOp.andi x v reducesTo_S200x16_S_d0_1 h_S_) main_v11 main_c_3
  let main_v13 : IVec S_ 1 := andi main_v8 main_v12
  let main_v14 : FVec F S256x440 .f32 := Host.absf main_arg6
  let main_cst_4 : FVec F S_ .f32 := constant S_ .f32 0x7F800000#32
  let main_v15 : FVec F S256x440 .f32 := broadcastInDim S256x440 ![] bcast_S_S256x440 main_cst_4
  let main_v16 : IVec S256x440 1 := cmpf .olt main_v14 main_v15
  fn_part1 (F := F) main_arg7 main_arg8 main_arg9 main_arg10 main_arg11 main_arg12 main_arg13 main_arg14 main_arg15 main_v13 main_v16
-- ==== Kernel.lean ====
abbrev S65536 : Shape := ⟨1, ![65536]⟩
abbrev S65536x7x7 : Shape := ⟨3, ![65536, 7, 7]⟩
abbrev S16777216x8 : Shape := ⟨2, ![16777216, 8]⟩
abbrev S4x32 : Shape := ⟨2, ![4, 32]⟩
abbrev S200x16 : Shape := ⟨2, ![200, 16]⟩
abbrev S256x440 : Shape := ⟨2, ![256, 440]⟩
abbrev S256 : Shape := ⟨1, ![256]⟩
abbrev S64x256 : Shape := ⟨2, ![64, 256]⟩
abbrev S64 : Shape := ⟨1, ![64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩
abbrev S65536x7x7x1 : Shape := ⟨4, ![65536, 7, 7, 1]⟩
abbrev S65536x7x7x8 : Shape := ⟨4, ![65536, 7, 7, 8]⟩
abbrev S65536x392 : Shape := ⟨2, ![65536, 392]⟩
abbrev S65536x1 : Shape := ⟨2, ![65536, 1]⟩
abbrev S65536x32 : Shape := ⟨2, ![65536, 32]⟩
abbrev S65536x16 : Shape := ⟨2, ![65536, 16]⟩
abbrev S440x256 : Shape := ⟨2, ![440, 256]⟩
abbrev S1x256 : Shape := ⟨2, ![1, 256]⟩
abbrev S256x64 : Shape := ⟨2, ![256, 64]⟩
abbrev S1x64 : Shape := ⟨2, ![1, 64]⟩
abbrev S64x16 : Shape := ⟨2, ![64, 16]⟩
abbrev S16x1 : Shape := ⟨2, ![16, 1]⟩
abbrev S1x1 : Shape := ⟨2, ![1, 1]⟩
abbrev S65536x256 : Shape := ⟨2, ![65536, 256]⟩
abbrev S2x8x256 : Shape := ⟨3, ![2, 8, 256]⟩
abbrev S4096x32 : Shape := ⟨2, ![4096, 32]⟩
abbrev S4096x16 : Shape := ⟨2, ![4096, 16]⟩
abbrev S4096x392 : Shape := ⟨2, ![4096, 392]⟩
abbrev S4096x256 : Shape := ⟨2, ![4096, 256]⟩
abbrev S1x8x256 : Shape := ⟨3, ![1, 8, 256]⟩
abbrev S8x256 : Shape := ⟨2, ![8, 256]⟩
abbrev S32x256 : Shape := ⟨2, ![32, 256]⟩
abbrev S16x256 : Shape := ⟨2, ![16, 256]⟩
abbrev S392x256 : Shape := ⟨2, ![392, 256]⟩
abbrev S1x1x256 : Shape := ⟨3, ![1, 1, 256]⟩
abbrev S2x1x256 : Shape := ⟨3, ![2, 1, 256]⟩
abbrev S2x256 : Shape := ⟨2, ![2, 256]⟩
abbrev S4096x1 : Shape := ⟨2, ![4096, 1]⟩
abbrev S4096x64 : Shape := ⟨2, ![4096, 64]⟩

abbrev nBuf : Space → Nat
  | .hbm => 109
  | .vmem => 28
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536x7x7, .i32⟩
  | .hbm, ⟨3, _⟩ => ⟨S16777216x8, .f32⟩
  | .hbm, ⟨4, _⟩ => ⟨S4x32, .f32⟩
  | .hbm, ⟨5, _⟩ => ⟨S200x16, .f32⟩
  | .hbm, ⟨6, _⟩ => ⟨S256x440, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S64x256, .f32⟩
  | .hbm, ⟨11, _⟩ => ⟨S64, .f32⟩
  | .hbm, ⟨12, _⟩ => ⟨S16x64, .f32⟩
  | .hbm, ⟨13, _⟩ => ⟨S16, .f32⟩
  | .hbm, ⟨14, _⟩ => ⟨S1x16, .f32⟩
  | .hbm, ⟨15, _⟩ => ⟨S1, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S65536x7x7, .i32⟩
  | .hbm, ⟨23, _⟩ => ⟨S65536x7x7, .i32⟩
  | .hbm, ⟨24, _⟩ => ⟨S_, .i32⟩
  | .hbm, ⟨25, _⟩ => ⟨S65536x7x7, .i32⟩
  | .hbm, ⟨26, _⟩ => ⟨S65536x7x7, .i1⟩
  | .hbm, ⟨27, _⟩ => ⟨S_, .i32⟩
  | .hbm, ⟨28, _⟩ => ⟨S65536x7x7, .i32⟩
  | .hbm, ⟨29, _⟩ => ⟨S65536x7x7, .i1⟩
  | .hbm, ⟨30, _⟩ => ⟨S_, .i32⟩
  | .hbm, ⟨31, _⟩ => ⟨S_, .i1⟩
  | .hbm, ⟨32, _⟩ => ⟨S65536x7x7, .i1⟩
  | .hbm, ⟨33, _⟩ => ⟨S65536x7x7, .i1⟩
  | .hbm, ⟨34, _⟩ => ⟨S65536x7x7, .i1⟩
  | .hbm, ⟨35, _⟩ => ⟨S65536x7x7, .i32⟩
  | .hbm, ⟨36, _⟩ => ⟨S65536x7x7, .i32⟩
  | .hbm, ⟨37, _⟩ => ⟨S65536x7x7, .i32⟩
  | .hbm, ⟨38, _⟩ => ⟨S_, .i32⟩
  | .hbm, ⟨39, _⟩ => ⟨S65536x7x7, .i32⟩
  | .hbm, ⟨40, _⟩ => ⟨S65536x7x7, .i1⟩
  | .hbm, ⟨41, _⟩ => ⟨S_, .i32⟩
  | .hbm, ⟨42, _⟩ => ⟨S65536x7x7, .i32⟩
  | .hbm, ⟨43, _⟩ => ⟨S65536x7x7, .i32⟩
  | .hbm, ⟨44, _⟩ => ⟨S65536x7x7, .i32⟩
  | .hbm, ⟨45, _⟩ => ⟨S65536x7x7x1, .i32⟩
  | .hbm, ⟨46, _⟩ => ⟨S65536x7x7x8, .f32⟩
  | .hbm, ⟨47, _⟩ => ⟨S65536x392, .f32⟩
  | .hbm, ⟨48, _⟩ => ⟨S65536x392, .bf16⟩
  | .hbm, ⟨49, _⟩ => ⟨S_, .i32⟩
  | .hbm, ⟨50, _⟩ => ⟨S65536, .i32⟩
  | .hbm, ⟨51, _⟩ => ⟨S65536, .i1⟩
  | .hbm, ⟨52, _⟩ => ⟨S_, .i32⟩
  | .hbm, ⟨53, _⟩ => ⟨S65536, .i32⟩
  | .hbm, ⟨54, _⟩ => ⟨S65536, .i32⟩
  | .hbm, ⟨55, _⟩ => ⟨S65536, .i32⟩
  | .hbm, ⟨56, _⟩ => ⟨S65536x1, .i32⟩
  | .hbm, ⟨57, _⟩ => ⟨S65536x32, .f32⟩
  | .hbm, ⟨58, _⟩ => ⟨S65536x32, .bf16⟩
  | .hbm, ⟨59, _⟩ => ⟨S_, .i32⟩
  | .hbm, ⟨60, _⟩ => ⟨S65536, .i32⟩
  | .hbm, ⟨61, _⟩ => ⟨S65536, .i1⟩
  | .hbm, ⟨62, _⟩ => ⟨S_, .i32⟩
  | .hbm, ⟨63, _⟩ => ⟨S65536, .i32⟩
  | .hbm, ⟨64, _⟩ => ⟨S65536, .i32⟩
  | .hbm, ⟨65, _⟩ => ⟨S65536, .i32⟩
  | .hbm, ⟨66, _⟩ => ⟨S65536x1, .i32⟩
  | .hbm, ⟨67, _⟩ => ⟨S65536x16, .f32⟩
  | .hbm, ⟨68, _⟩ => ⟨S65536x16, .bf16⟩
  | .hbm, ⟨69, _⟩ => ⟨S440x256, .f32⟩
  | .hbm, ⟨70, _⟩ => ⟨S440x256, .bf16⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S256x64, .f32⟩
  | .hbm, ⟨75, _⟩ => ⟨S256x64, .bf16⟩
  | .hbm, ⟨76, _⟩ => ⟨S1x64, .f32⟩
  | .hbm, ⟨77, _⟩ => ⟨S64x16, .f32⟩
  | .hbm, ⟨78, _⟩ => ⟨S64x16, .bf16⟩
  | .hbm, ⟨79, _⟩ => ⟨S1x16, .f32⟩
  | .hbm, ⟨80, _⟩ => ⟨S16x1, .f32⟩
  | .hbm, ⟨81, _⟩ => ⟨S16x1, .bf16⟩
  | .hbm, ⟨82, _⟩ => ⟨S1x1, .f32⟩
  | .hbm, ⟨83, _⟩ => ⟨S65536x256, .bf16⟩
  | .hbm, ⟨84, _⟩ => ⟨S2x8x256, .f32⟩
  | .hbm, ⟨85, _⟩ => ⟨S2x8x256, .f32⟩
  | .hbm, ⟨86, _⟩ => ⟨S2x1x256, .f32⟩
  | .hbm, ⟨87, _⟩ => ⟨S2x256, .f32⟩
  | .hbm, ⟨88, _⟩ => ⟨S_, .f32⟩
  | .hbm, ⟨89, _⟩ => ⟨S256, .f32⟩
  | .hbm, ⟨90, _⟩ => ⟨S1x256, .f32⟩
  | .hbm, ⟨91, _⟩ => ⟨S2x1x256, .f32⟩
  | .hbm, ⟨92, _⟩ => ⟨S2x256, .f32⟩
  | .hbm, ⟨93, _⟩ => ⟨S_, .f32⟩
  | .hbm, ⟨94, _⟩ => ⟨S256, .f32⟩
  | .hbm, ⟨95, _⟩ => ⟨S1x256, .f32⟩
  | .hbm, ⟨96, _⟩ => ⟨S_, .f32⟩
  | .hbm, ⟨97, _⟩ => ⟨S1x256, .f32⟩
  | .hbm, ⟨98, _⟩ => ⟨S1x256, .f32⟩
  | .hbm, ⟨99, _⟩ => ⟨S_, .f32⟩
  | .hbm, ⟨100, _⟩ => ⟨S1x256, .f32⟩
  | .hbm, ⟨101, _⟩ => ⟨S1x256, .f32⟩
  | .hbm, ⟨102, _⟩ => ⟨S1x256, .f32⟩
  | .hbm, ⟨103, _⟩ => ⟨S1x256, .f32⟩
  | .hbm, ⟨104, _⟩ => ⟨S_, .f32⟩
  | .hbm, ⟨105, _⟩ => ⟨S1x256, .f32⟩
  | .hbm, ⟨106, _⟩ => ⟨S1x256, .f32⟩
  | .hbm, ⟨107, _⟩ => ⟨S65536x1, .f32⟩
  | .hbm, ⟨108, _⟩ => ⟨S65536, .f32⟩
  | .local _ .vmem, ⟨0, _⟩ => ⟨S4096x32, .bf16⟩
  | .local _ .vmem, ⟨1, _⟩ => ⟨S4096x32, .bf16⟩
  | .local _ .vmem, ⟨2, _⟩ => ⟨S4096x16, .bf16⟩
  | .local _ .vmem, ⟨3, _⟩ => ⟨S4096x16, .bf16⟩
  | .local _ .vmem, ⟨4, _⟩ => ⟨S4096x392, .bf16⟩
  | .local _ .vmem, ⟨5, _⟩ => ⟨S4096x392, .bf16⟩
  | .local _ .vmem, ⟨6, _⟩ => ⟨S440x256, .bf16⟩
  | .local _ .vmem, ⟨7, _⟩ => ⟨S1x256, .f32⟩
  | .local _ .vmem, ⟨8, _⟩ => ⟨S4096x256, .bf16⟩
  | .local _ .vmem, ⟨9, _⟩ => ⟨S4096x256, .bf16⟩
  | .local _ .vmem, ⟨10, _⟩ => ⟨S1x8x256, .f32⟩
  | .local _ .vmem, ⟨11, _⟩ => ⟨S1x8x256, .f32⟩
  | .local _ .vmem, ⟨12, _⟩ => ⟨S1x8x256, .f32⟩
  | .local _ .vmem, ⟨13, _⟩ => ⟨S1x8x256, .f32⟩
  | .local _ .vmem, ⟨14, _⟩ => ⟨S4096x256, .bf16⟩
  | .local _ .vmem, ⟨15, _⟩ => ⟨S4096x256, .bf16⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x64, .bf16⟩
  | .local _ .vmem, ⟨21, _⟩ => ⟨S1x64, .f32⟩
  | .local _ .vmem, ⟨22, _⟩ => ⟨S64x16, .bf16⟩
  | .local _ .vmem, ⟨23, _⟩ => ⟨S1x16, .f32⟩
  | .local _ .vmem, ⟨24, _⟩ => ⟨S16x1, .bf16⟩
  | .local _ .vmem, ⟨25, _⟩ => ⟨S1x1, .f32⟩
  | .local _ .vmem, ⟨26, _⟩ => ⟨S4096x1, .f32⟩
  | .local _ .vmem, ⟨27, _⟩ => ⟨S4096x1, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v0 : Ref sig .tc := ⟨.hbm, 37, rfl⟩
abbrev main_c_0 : Ref sig .tc := ⟨.hbm, 38, rfl⟩
abbrev main_v1 : Ref sig .tc := ⟨.hbm, 39, rfl⟩
abbrev main_v2 : Ref sig .tc := ⟨.hbm, 40, rfl⟩
abbrev main_c_1 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_c_2 : Ref sig .tc := ⟨.hbm, 49, rfl⟩
abbrev main_v10 : Ref sig .tc := ⟨.hbm, 50, rfl⟩
abbrev main_v11 : Ref sig .tc := ⟨.hbm, 51, rfl⟩
abbrev main_c_3 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_c_4 : Ref sig .tc := ⟨.hbm, 59, rfl⟩
abbrev main_v18 : Ref sig .tc := ⟨.hbm, 60, rfl⟩
abbrev main_v19 : Ref sig .tc := ⟨.hbm, 61, rfl⟩
abbrev main_c_5 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40_0 : Ref sig .tc := ⟨.hbm, 83, rfl⟩
abbrev main_v40_1 : Ref sig .tc := ⟨.hbm, 84, rfl⟩
abbrev main_v40_2 : Ref sig .tc := ⟨.hbm, 85, rfl⟩
abbrev main_v41 : Ref sig .tc := ⟨.hbm, 86, rfl⟩
abbrev main_v42 : Ref sig .tc := ⟨.hbm, 87, rfl⟩
abbrev main_cst : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_6 : Ref sig .tc := ⟨.hbm, 93, rfl⟩
abbrev main_v47 : Ref sig .tc := ⟨.hbm, 94, rfl⟩
abbrev main_v48 : Ref sig .tc := ⟨.hbm, 95, rfl⟩
abbrev main_cst_7 : Ref sig .tc := ⟨.hbm, 96, rfl⟩
abbrev main_v49 : Ref sig .tc := ⟨.hbm, 97, rfl⟩
abbrev main_v50 : Ref sig .tc := ⟨.hbm, 98, rfl⟩
abbrev main_cst_8 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_9 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x392 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S440x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x16 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x1 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4096x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S65536x7x7 : S_.BroadcastsInDim S65536x7x7 (![] : Fin 0 → Fin S65536x7x7.rank)
  bcast_S65536x7x7_S65536x7x7x1_0_1_2 : S65536x7x7.BroadcastsInDim S65536x7x7x1 (![0, 1, 2] : Fin 3 → Fin S65536x7x7x1.rank)
  shapeCasts_S65536x7x7x8_S65536x392 : S65536x7x7x8.ShapeCasts S65536x392
  bitsLt_bf16_f32 : FTy.bits .bf16 < FTy.bits .f32
  bcast_S_S65536 : S_.BroadcastsInDim S65536 (![] : Fin 0 → Fin S65536.rank)
  bcast_S65536_S65536x1_0 : S65536.BroadcastsInDim S65536x1 (![0] : Fin 1 → Fin S65536x1.rank)
  transposes_S256x440_S440x256_1_0 : S256x440.Transposes [1, 0] S440x256
  shapeCasts_S256_S1x256 : S256.ShapeCasts S1x256
  transposes_S64x256_S256x64_1_0 : S64x256.Transposes [1, 0] S256x64
  shapeCasts_S64_S1x64 : S64.ShapeCasts S1x64
  transposes_S16x64_S64x16_1_0 : S16x64.Transposes [1, 0] S64x16
  shapeCasts_S16_S1x16 : S16.ShapeCasts S1x16
  transposes_S1x16_S16x1_1_0 : S1x16.Transposes [1, 0] S16x1
  shapeCasts_S1_S1x1 : S1.ShapeCasts S1x1
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  shapeCasts_S8x256_S1x8x256 : S8x256.ShapeCasts S1x8x256
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x392_S4096x392_0_0 : ∀ a, (![0, 0] : Fin 2 → Nat) a + S4096x392.size a ≤ S4096x392.size a
  h_S4096x392 : 0 < S4096x392.numel
  shapeCasts_S4096x392_S4096x392 : S4096x392.ShapeCasts S4096x392
  inb_S440x256_S32x256_0_0 : ∀ a, (![0, 0] : Fin 2 → Nat) a + S32x256.size a ≤ S440x256.size a
  h_S32x256 : 0 < S32x256.numel
  shapeCasts_S32x256_S32x256 : S32x256.ShapeCasts S32x256
  inb_S440x256_S16x256_32_0 : ∀ a, (![32, 0] : Fin 2 → Nat) a + S16x256.size a ≤ S440x256.size a
  h_S16x256 : 0 < S16x256.numel
  shapeCasts_S16x256_S16x256 : S16x256.ShapeCasts S16x256
  inb_S440x256_S392x256_48_0 : ∀ a, (![48, 0] : Fin 2 → Nat) a + S392x256.size a ≤ S440x256.size a
  h_S392x256 : 0 < S392x256.numel
  shapeCasts_S392x256_S392x256 : S392x256.ShapeCasts S392x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S1x8x256_S1x1x256_0_0_0 : ∀ a, (![0, 0, 0] : Fin 3 → Nat) a + S1x1x256.size a ≤ S1x8x256.size a
  h_S1x1x256 : 0 < S1x1x256.numel
  shapeCasts_S1x1x256_S1x256 : S1x1x256.ShapeCasts S1x256
  reduces_S4096x256_S256 : S4096x256.Reduces [0] S256
  shapeCasts_S1x256_S1x1x256 : S1x256.ShapeCasts S1x1x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  slices_S2x8x256_S2x1x256_0_0_0 : S2x8x256.Slices ![0, 0, 0] S2x1x256
  shapeCasts_S2x1x256_S2x256 : S2x1x256.ShapeCasts S2x256
  reducesTo_S2x256_S256_d0 : S2x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  shapeCasts_S4096x256_S4096x256 : S4096x256.ShapeCasts S4096x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S65536x1_S65536 : S65536x1.ShapeCasts S65536
  gather_S16777216x8_S65536x7x7x1_S65536x7x7x8_3_0_n_n_0_3_18_wf : GatherDims.WF S16777216x8 S65536x7x7x1 S65536x7x7x8 [3] [0] [] [0] [] 3 ![1, 8]
  gather_S4x32_S65536x1_S65536x32_1_0_n_n_0_1_132_wf : GatherDims.WF S4x32 S65536x1 S65536x32 [1] [0] [] [0] [] 1 ![1, 32]
  gather_S200x16_S65536x1_S65536x16_1_0_n_n_0_1_116_wf : GatherDims.WF S200x16 S65536x1 S65536x16 [1] [0] [] [0] [] 1 ![1, 16]
  dot_S4096x32_S32x256_S4096x256_1_0_0_1_n_n_wf : DotDims.WF S4096x32 S32x256 S4096x256 [1] [0] [0] [1] [] []
  dot_S4096x16_S16x256_S4096x256_1_0_0_1_n_n_wf : DotDims.WF S4096x16 S16x256 S4096x256 [1] [0] [0] [1] [] []
  dot_S4096x392_S392x256_S4096x256_1_0_0_1_n_n_wf : DotDims.WF S4096x392 S392x256 S4096x256 [1] [0] [0] [1] [] []
  dot_S4096x256_S256x64_S4096x64_1_0_0_1_n_n_wf : DotDims.WF S4096x256 S256x64 S4096x64 [1] [0] [0] [1] [] []
  dot_S4096x64_S64x16_S4096x16_1_0_0_1_n_n_wf : DotDims.WF S4096x64 S64x16 S4096x16 [1] [0] [0] [1] [] []
  dot_S4096x16_S16x1_S4096x1_1_0_0_1_n_n_wf : DotDims.WF S4096x16 S16x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S65536x32.size a
  hwx0_0 : ∀ i : grid0.Coords, EltTy.bits .bf16 = 32 ∨ (Rect.block (s := S65536x32) S4096x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S65536x16.size a
  hwx0_1 : ∀ i : grid0.Coords, EltTy.bits .bf16 = 32 ∨ (Rect.block (s := S65536x16) S4096x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x392.size a ≤ S65536x392.size a
  hwx0_2 : ∀ i : grid0.Coords, EltTy.bits .bf16 = 32 ∨ (Rect.block (s := S65536x392) S4096x392.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S440x256.size a ≤ S440x256.size a
  hwx0_3 : ∀ i : grid0.Coords, EltTy.bits .bf16 = 32 ∨ (Rect.block (s := S440x256) S440x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S65536x256.size a
  hwx0_5 : ∀ i : grid0.Coords, EltTy.bits .bf16 = 32 ∨ (Rect.block (s := S65536x256) S4096x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x256.size a ≤ S2x8x256.size a
  hwx0_6 : ∀ i : grid0.Coords, EltTy.bits .f32 = 32 ∨ (Rect.block (s := S2x8x256) S1x8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x256.size a ≤ S2x8x256.size a
  hwx0_7 : ∀ i : grid0.Coords, EltTy.bits .f32 = 32 ∨ (Rect.block (s := S2x8x256) S1x8x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S65536x256.size a
  hwx1_0 : ∀ i : grid1.Coords, EltTy.bits .bf16 = 32 ∨ (Rect.block (s := S65536x256) S4096x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .bf16 = 32 ∨ (Rect.block (s := S256x64) S256x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x16.size a ≤ S64x16.size a
  hwx1_7 : ∀ i : grid1.Coords, EltTy.bits .bf16 = 32 ∨ (Rect.block (s := S64x16) S64x16.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S16x1.size a ≤ S16x1.size a
  hwx1_9 : ∀ i : grid1.Coords, EltTy.bits .bf16 = 32 ∨ (Rect.block (s := S16x1) S16x1.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4096x1.size a ≤ S65536x1.size a
  hwx1_11 : ∀ i : grid1.Coords, EltTy.bits .f32 = 32 ∨ (Rect.block (s := S65536x1) S4096x1.size (cc1_transform_11 i) (hinb1_11 i)).WholeWords (EltTy.packing .f32)

variable [Facts₀]

def gather_S16777216x8_S65536x7x7x1_S65536x7x7x8_3_0_n_n_0_3_18 : GatherDims S16777216x8 S65536x7x7x1 S65536x7x7x8 where
  offsetDims := [3]
  collapsedSliceDims := [0]
  operandBatchingDims := []
  startIndicesBatchingDims := []
  startIndexMap := [0]
  indexVectorDim := 3
  sliceSizes := ![1, 8]
  wf := gather_S16777216x8_S65536x7x7x1_S65536x7x7x8_3_0_n_n_0_3_18_wf
def gather_S4x32_S65536x1_S65536x32_1_0_n_n_0_1_132 : GatherDims S4x32 S65536x1 S65536x32 where
  offsetDims := [1]
  collapsedSliceDims := [0]
  operandBatchingDims := []
  startIndicesBatchingDims := []
  startIndexMap := [0]
  indexVectorDim := 1
  sliceSizes := ![1, 32]
  wf := gather_S4x32_S65536x1_S65536x32_1_0_n_n_0_1_132_wf
def gather_S200x16_S65536x1_S65536x16_1_0_n_n_0_1_116 : GatherDims S200x16 S65536x1 S65536x16 where
  offsetDims := [1]
  collapsedSliceDims := [0]
  operandBatchingDims := []
  startIndicesBatchingDims := []
  startIndexMap := [0]
  indexVectorDim := 1
  sliceSizes := ![1, 16]
  wf := gather_S200x16_S65536x1_S65536x16_1_0_n_n_0_1_116_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def dot_S4096x16_S16x256_S4096x256_1_0_0_1_n_n : DotDims S4096x16 S16x256 S4096x256 where
  lhsContracting := [1]
  rhsContracting := [0]
  lhsNonContracting := [0]
  rhsNonContracting := [1]
  lhsBatch := []
  rhsBatch := []
  wf := dot_S4096x16_S16x256_S4096x256_1_0_0_1_n_n_wf
def dot_S4096x392_S392x256_S4096x256_1_0_0_1_n_n : DotDims S4096x392 S392x256 S4096x256 where
  lhsContracting := [1]
  rhsContracting := [0]
  lhsNonContracting := [0]
  rhsNonContracting := [1]
  lhsBatch := []
  rhsBatch := []
  wf := dot_S4096x392_S392x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_v17) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4096x392.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S440x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40_0) S4096x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40_1) S1x8x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v40_2) S1x8x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40_0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S64x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S16x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v57) S4096x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S65536 : Shape := ⟨1, ![65536]⟩
abbrev S65536x7x7 : Shape := ⟨3, ![65536, 7, 7]⟩
abbrev S16777216x8 : Shape := ⟨2, ![16777216, 8]⟩
abbrev S4x32 : Shape := ⟨2, ![4, 32]⟩
abbrev S200x16 : Shape := ⟨2, ![200, 16]⟩
abbrev S256x440 : Shape := ⟨2, ![256, 440]⟩
abbrev S256 : Shape := ⟨1, ![256]⟩
abbrev S64x256 : Shape := ⟨2, ![64, 256]⟩
abbrev S64 : Shape := ⟨1, ![64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩
abbrev S65536x7x7x1 : Shape := ⟨4, ![65536, 7, 7, 1]⟩
abbrev S65536x7x7x8 : Shape := ⟨4, ![65536, 7, 7, 8]⟩
abbrev S65536x392 : Shape := ⟨2, ![65536, 392]⟩
abbrev S65536x1 : Shape := ⟨2, ![65536, 1]⟩
abbrev S65536x32 : Shape := ⟨2, ![65536, 32]⟩
abbrev S65536x16 : Shape := ⟨2, ![65536, 16]⟩
abbrev S65536x440 : Shape := ⟨2, ![65536, 440]⟩
abbrev S440x256 : Shape := ⟨2, ![440, 256]⟩
abbrev S65536x256 : Shape := ⟨2, ![65536, 256]⟩
abbrev S1x256 : Shape := ⟨2, ![1, 256]⟩
abbrev S256x64 : Shape := ⟨2, ![256, 64]⟩
abbrev S65536x64 : Shape := ⟨2, ![65536, 64]⟩
abbrev S1x64 : Shape := ⟨2, ![1, 64]⟩
abbrev S64x16 : Shape := ⟨2, ![64, 16]⟩
abbrev S16x1 : Shape := ⟨2, ![16, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536x7x7, .i32⟩
  | .hbm, ⟨3, _⟩ => ⟨S16777216x8, .f32⟩
  | .hbm, ⟨4, _⟩ => ⟨S4x32, .f32⟩
  | .hbm, ⟨5, _⟩ => ⟨S200x16, .f32⟩
  | .hbm, ⟨6, _⟩ => ⟨S256x440, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S64x256, .f32⟩
  | .hbm, ⟨11, _⟩ => ⟨S64, .f32⟩
  | .hbm, ⟨12, _⟩ => ⟨S16x64, .f32⟩
  | .hbm, ⟨13, _⟩ => ⟨S16, .f32⟩
  | .hbm, ⟨14, _⟩ => ⟨S1x16, .f32⟩
  | .hbm, ⟨15, _⟩ => ⟨S1, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S65536x7x7, .i32⟩
  | .hbm, ⟨23, _⟩ => ⟨S65536x7x7, .i32⟩
  | .hbm, ⟨24, _⟩ => ⟨S_, .i32⟩
  | .hbm, ⟨25, _⟩ => ⟨S65536x7x7, .i32⟩
  | .hbm, ⟨26, _⟩ => ⟨S65536x7x7, .i1⟩
  | .hbm, ⟨27, _⟩ => ⟨S_, .i32⟩
  | .hbm, ⟨28, _⟩ => ⟨S65536x7x7, .i32⟩
  | .hbm, ⟨29, _⟩ => ⟨S65536x7x7, .i1⟩
  | .hbm, ⟨30, _⟩ => ⟨S_, .i32⟩
  | .hbm, ⟨31, _⟩ => ⟨S_, .i1⟩
  | .hbm, ⟨32, _⟩ => ⟨S65536x7x7, .i1⟩
  | .hbm, ⟨33, _⟩ => ⟨S65536x7x7, .i1⟩
  | .hbm, ⟨34, _⟩ => ⟨S65536x7x7, .i1⟩
  | .hbm, ⟨35, _⟩ => ⟨S65536x7x7, .i32⟩
  | .hbm, ⟨36, _⟩ => ⟨S65536x7x7, .i32⟩
  | .hbm, ⟨37, _⟩ => ⟨S65536x7x7, .i32⟩
  | .hbm, ⟨38, _⟩ => ⟨S_, .i32⟩
  | .hbm, ⟨39, _⟩ => ⟨S65536x7x7, .i32⟩
  | .hbm, ⟨40, _⟩ => ⟨S65536x7x7, .i1⟩
  | .hbm, ⟨41, _⟩ => ⟨S_, .i32⟩
  | .hbm, ⟨42, _⟩ => ⟨S65536x7x7, .i32⟩
  | .hbm, ⟨43, _⟩ => ⟨S65536x7x7, .i32⟩
  | .hbm, ⟨44, _⟩ => ⟨S65536x7x7, .i32⟩
  | .hbm, ⟨45, _⟩ => ⟨S65536x7x7x1, .i32⟩
  | .hbm, ⟨46, _⟩ => ⟨S65536x7x7x8, .f32⟩
  | .hbm, ⟨47, _⟩ => ⟨S65536x392, .f32⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S65536, .i32⟩
  | .hbm, ⟨53, _⟩ => ⟨S65536, .i32⟩
  | .hbm, ⟨54, _⟩ => ⟨S65536, .i32⟩
  | .hbm, ⟨55, _⟩ => ⟨S65536x1, .i32⟩
  | .hbm, ⟨56, _⟩ => ⟨S65536x32, .f32⟩
  | .hbm, ⟨57, _⟩ => ⟨S_, .i32⟩
  | .hbm, ⟨58, _⟩ => ⟨S65536, .i32⟩
  | .hbm, ⟨59, _⟩ => ⟨S65536, .i1⟩
  | .hbm, ⟨60, _⟩ => ⟨S_, .i32⟩
  | .hbm, ⟨61, _⟩ => ⟨S65536, .i32⟩
  | .hbm, ⟨62, _⟩ => ⟨S65536, .i32⟩
  | .hbm, ⟨63, _⟩ => ⟨S65536, .i32⟩
  | .hbm, ⟨64, _⟩ => ⟨S65536x1, .i32⟩
  | .hbm, ⟨65, _⟩ => ⟨S65536x16, .f32⟩
  | .hbm, ⟨66, _⟩ => ⟨S65536x440, .f32⟩
  | .hbm, ⟨67, _⟩ => ⟨S440x256, .f32⟩
  | .hbm, ⟨68, _⟩ => ⟨S65536x256, .f32⟩
  | .hbm, ⟨69, _⟩ => ⟨S1x256, .f32⟩
  | .hbm, ⟨70, _⟩ => ⟨S65536x256, .f32⟩
  | .hbm, ⟨71, _⟩ => ⟨S65536x256, .f32⟩
  | .hbm, ⟨72, _⟩ => ⟨S_, .f32⟩
  | .hbm, ⟨73, _⟩ => ⟨S256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S65536x256, .f32⟩
  | .hbm, ⟨79, _⟩ => ⟨S65536x256, .f32⟩
  | .hbm, ⟨80, _⟩ => ⟨S65536x256, .f32⟩
  | .hbm, ⟨81, _⟩ => ⟨S_, .f32⟩
  | .hbm, ⟨82, _⟩ => ⟨S256, .f32⟩
  | .hbm, ⟨83, _⟩ => ⟨S_, .f32⟩
  | .hbm, ⟨84, _⟩ => ⟨S256, .f32⟩
  | .hbm, ⟨85, _⟩ => ⟨S256, .f32⟩
  | .hbm, ⟨86, _⟩ => ⟨S1x256, .f32⟩
  | .hbm, ⟨87, _⟩ => ⟨S65536x256, .f32⟩
  | .hbm, ⟨88, _⟩ => ⟨S65536x256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S1x256, .f32⟩
  | .hbm, ⟨94, _⟩ => ⟨S65536x256, .f32⟩
  | .hbm, ⟨95, _⟩ => ⟨S65536x256, .f32⟩
  | .hbm, ⟨96, _⟩ => ⟨S1x256, .f32⟩
  | .hbm, ⟨97, _⟩ => ⟨S65536x256, .f32⟩
  | .hbm, ⟨98, _⟩ => ⟨S65536x256, .f32⟩
  | .hbm, ⟨99, _⟩ => ⟨S1x256, .f32⟩
  | .hbm, ⟨100, _⟩ => ⟨S65536x256, .f32⟩
  | .hbm, ⟨101, _⟩ => ⟨S65536x256, .f32⟩
  | .hbm, ⟨102, _⟩ => ⟨S256x64, .f32⟩
  | .hbm, ⟨103, _⟩ => ⟨S65536x64, .f32⟩
  | .hbm, ⟨104, _⟩ => ⟨S1x64, .f32⟩
  | .hbm, ⟨105, _⟩ => ⟨S65536x64, .f32⟩
  | .hbm, ⟨106, _⟩ => ⟨S65536x64, .f32⟩
  | .hbm, ⟨107, _⟩ => ⟨S_, .f32⟩
  | .hbm, ⟨108, _⟩ => ⟨S65536x64, .f32⟩
  | .hbm, ⟨109, _⟩ => ⟨S65536x64, .f32⟩
  | .hbm, ⟨110, _⟩ => ⟨S64x16, .f32⟩
  | .hbm, ⟨111, _⟩ => ⟨S65536x16, .f32⟩
  | .hbm, ⟨112, _⟩ => ⟨S1x16, .f32⟩
  | .hbm, ⟨113, _⟩ => ⟨S65536x16, .f32⟩
  | .hbm, ⟨114, _⟩ => ⟨S65536x16, .f32⟩
  | .hbm, ⟨115, _⟩ => ⟨S_, .f32⟩
  | .hbm, ⟨116, _⟩ => ⟨S65536x16, .f32⟩
  | .hbm, ⟨117, _⟩ => ⟨S65536x16, .f32⟩
  | .hbm, ⟨118, _⟩ => ⟨S16x1, .f32⟩
  | .hbm, ⟨119, _⟩ => ⟨S65536x1, .f32⟩
  | .hbm, ⟨120, _⟩ => ⟨S1x1, .f32⟩
  | .hbm, ⟨121, _⟩ => ⟨S65536x1, .f32⟩
  | .hbm, ⟨122, _⟩ => ⟨S65536x1, .f32⟩
  | .hbm, ⟨123, _⟩ => ⟨S65536, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v0 : Ref sig .tc := ⟨.hbm, 37, rfl⟩
abbrev main_c_0 : Ref sig .tc := ⟨.hbm, 38, rfl⟩
abbrev main_v1 : Ref sig .tc := ⟨.hbm, 39, rfl⟩
abbrev main_v2 : Ref sig .tc := ⟨.hbm, 40, rfl⟩
abbrev main_c_1 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_c_2 : Ref sig .tc := ⟨.hbm, 48, rfl⟩
abbrev main_v9 : Ref sig .tc := ⟨.hbm, 49, rfl⟩
abbrev main_v10 : Ref sig .tc := ⟨.hbm, 50, rfl⟩
abbrev main_c_3 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_4 : Ref sig .tc := ⟨.hbm, 57, rfl⟩
abbrev main_v16 : Ref sig .tc := ⟨.hbm, 58, rfl⟩
abbrev main_v17 : Ref sig .tc := ⟨.hbm, 59, rfl⟩
abbrev main_c_5 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst : Ref sig .tc := ⟨.hbm, 72, rfl⟩
abbrev main_v29 : Ref sig .tc := ⟨.hbm, 73, rfl⟩
abbrev main_cst_6 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_cst_8 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_9 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_call1_cst : Ref sig .tc := ⟨.hbm, 107, rfl⟩
abbrev main_call1_v0 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_call2_cst : Ref sig .tc := ⟨.hbm, 115, rfl⟩
abbrev main_call2_v0 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩

abbrev nD : Nat := 1
abbrev τ : Topo := Topo.v7x

variable {F : FTy → Type} [FloatOps F]

class Facts₀ : Prop where
  bcast_S_S65536x7x7 : S_.BroadcastsInDim S65536x7x7 (![] : Fin 0 → Fin S65536x7x7.rank)
  bcast_S65536x7x7_S65536x7x7x1_0_1_2 : S65536x7x7.BroadcastsInDim S65536x7x7x1 (![0, 1, 2] : Fin 3 → Fin S65536x7x7x1.rank)
  shapeCasts_S65536x7x7x8_S65536x392 : S65536x7x7x8.ShapeCasts S65536x392
  bcast_S_S65536 : S_.BroadcastsInDim S65536 (![] : Fin 0 → Fin S65536.rank)
  bcast_S65536_S65536x1_0 : S65536.BroadcastsInDim S65536x1 (![0] : Fin 1 → Fin S65536x1.rank)
  concatenates_S65536x32_S65536x16_S65536x392_S65536x440_d1 : Shape.Concatenates [S65536x32, S65536x16, S65536x392] S65536x440 1
  transposes_S256x440_S440x256_1_0 : S256x440.Transposes [1, 0] S440x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S256_d0 : S65536x256.ReducesTo [0] S256
  h_S_ : 0 < S_.numel
  bcast_S_S256 : S_.BroadcastsInDim S256 (![] : Fin 0 → Fin S256.rank)
  transposes_S64x256_S256x64_1_0 : S64x256.Transposes [1, 0] S256x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  transposes_S16x64_S64x16_1_0 : S16x64.Transposes [1, 0] S64x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S65536x16 : S_.BroadcastsInDim S65536x16 (![] : Fin 0 → Fin S65536x16.rank)
  transposes_S1x16_S16x1_1_0 : S1x16.Transposes [1, 0] S16x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  gather_S16777216x8_S65536x7x7x1_S65536x7x7x8_3_0_n_n_0_3_18_wf : GatherDims.WF S16777216x8 S65536x7x7x1 S65536x7x7x8 [3] [0] [] [0] [] 3 ![1, 8]
  gather_S4x32_S65536x1_S65536x32_1_0_n_n_0_1_132_wf : GatherDims.WF S4x32 S65536x1 S65536x32 [1] [0] [] [0] [] 1 ![1, 32]
  gather_S200x16_S65536x1_S65536x16_1_0_n_n_0_1_116_wf : GatherDims.WF S200x16 S65536x1 S65536x16 [1] [0] [] [0] [] 1 ![1, 16]
  dot_S65536x440_S440x256_S65536x256_1_0_0_1_n_n_wf : DotDims.WF S65536x440 S440x256 S65536x256 [1] [0] [0] [1] [] []
  dot_S65536x256_S256x64_S65536x64_1_0_0_1_n_n_wf : DotDims.WF S65536x256 S256x64 S65536x64 [1] [0] [0] [1] [] []
  dot_S65536x64_S64x16_S65536x16_1_0_0_1_n_n_wf : DotDims.WF S65536x64 S64x16 S65536x16 [1] [0] [0] [1] [] []
  dot_S65536x16_S16x1_S65536x1_1_0_0_1_n_n_wf : DotDims.WF S65536x16 S16x1 S65536x1 [1] [0] [0] [1] [] []

variable [Facts₀]

def gather_S16777216x8_S65536x7x7x1_S65536x7x7x8_3_0_n_n_0_3_18 : GatherDims S16777216x8 S65536x7x7x1 S65536x7x7x8 where
  offsetDims := [3]
  collapsedSliceDims := [0]
  operandBatchingDims := []
  startIndicesBatchingDims := []
  startIndexMap := [0]
  indexVectorDim := 3
  sliceSizes := ![1, 8]
  wf := gather_S16777216x8_S65536x7x7x1_S65536x7x7x8_3_0_n_n_0_3_18_wf
def gather_S4x32_S65536x1_S65536x32_1_0_n_n_0_1_132 : GatherDims S4x32 S65536x1 S65536x32 where
  offsetDims := [1]
  collapsedSliceDims := [0]
  operandBatchingDims := []
  startIndicesBatchingDims := []
  startIndexMap := [0]
  indexVectorDim := 1
  sliceSizes := ![1, 32]
  wf := gather_S4x32_S65536x1_S65536x32_1_0_n_n_0_1_132_wf
def gather_S200x16_S65536x1_S65536x16_1_0_n_n_0_1_116 : GatherDims S200x16 S65536x1 S65536x16 where
  offsetDims := [1]
  collapsedSliceDims := [0]
  operandBatchingDims := []
  startIndicesBatchingDims := []
  startIndexMap := [0]
  indexVectorDim := 1
  sliceSizes := ![1, 16]
  wf := gather_S200x16_S65536x1_S65536x16_1_0_n_n_0_1_116_wf
def dot_S65536x440_S440x256_S65536x256_1_0_0_1_n_n : DotDims S65536x440 S440x256 S65536x256 where
  lhsContracting := [1]
  rhsContracting := [0]
  lhsNonContracting := [0]
  rhsNonContracting := [1]
  lhsBatch := []
  rhsBatch := []
  wf := dot_S65536x440_S440x256_S65536x256_1_0_0_1_n_n_wf
def dot_S65536x256_S256x64_S65536x64_1_0_0_1_n_n : DotDims S65536x256 S256x64 S65536x64 where
  lhsContracting := [1]
  rhsContracting := [0]
  lhsNonContracting := [0]
  rhsNonContracting := [1]
  lhsBatch := []
  rhsBatch := []
  wf := dot_S65536x256_S256x64_S65536x64_1_0_0_1_n_n_wf
def dot_S65536x64_S64x16_S65536x16_1_0_0_1_n_n : DotDims S65536x64 S64x16 S65536x16 where
  lhsContracting := [1]
  rhsContracting := [0]
  lhsNonContracting := [0]
  rhsNonContracting := [1]
  lhsBatch := []
  rhsBatch := []
  wf := dot_S65536x64_S64x16_S65536x16_1_0_0_1_n_n_wf
def dot_S65536x16_S16x1_S65536x1_1_0_0_1_n_n : DotDims S65536x16 S16x1 S65536x1 where
  lhsContracting := [1]
  rhsContracting := [0]
  lhsNonContracting := [0]
  rhsNonContracting := [1]
  lhsBatch := []
  rhsBatch := []
  wf := dot_S65536x16_S16x1_S65536x1_1_0_0_1_n_n_wf

class Facts : Prop extends Facts₀ where

variable [Facts]
-- ==== Proof.KernelRun.lean ====
/-
  The idealized kernel's run with its result named. The program is seven segments — three stretches of host
  operations, the first pallas_call, a stretch computing the batch statistics, the second pallas_call, and a final
  reshape. Every weakly fair execution terminates without a fault, and in the final state the result buffer holds what
  the last stretch leaves at it, a fold of the segments over the launch memory, while the sixteen argument arrays are
  as launched.
-/
import proofs.«107007_j80882824118683_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.RunNamed

end
-- ==== Proof.Spec.lean ====
/-
  The mathematics of the model, free of either program: an embedding front end (three gathered feature groups,
  32 + 16 + 392 = 440 columns per row), a linear layer 440 → 256, a batch normalisation over the 65536 rows (mean and
  biased variance per column), and a three-layer tail 256 → 64 → 16 → 1 with rectifiers. Everything is stated on the
  extended reals over plain coordinates.

  Two spellings of the same network are given. The tiled one contracts the three feature groups separately, sums each
  column tile by tile (16 tiles of 4096 rows, 8 per core, then the two cores) and takes the variance as
  E[h²] − E[h]², clamped at 0 twice. The plain one contracts all 440 features at once, sums each column over all rows
  at once and takes the variance as E[(h − E[h])²]. That the two agree on finite inputs is proved in Proof/SpecLaws.lean.
-/
import Idealize.ShloMosaic.PureOps.Ideal
import Idealize.ShloMosaic.Lib.ValueIdx

noncomputable section

namespace Cert.Spec

open Idealize.ShloMosaic Idealize.ShloMosaic.ValueIdx
open scoped BigOperators

/-- An extended real that is neither infinity. -/
def IsFin (a : EReal) : Prop := a ≠ ⊥ ∧ a ≠ ⊤

/-- A rank-1 array as a function of its coordinate. -/
abbrev cur1 {n : Nat} (a : (⟨1, ![n]⟩ : Shape).Idx → EReal) : Fin n → EReal := fun i => a (ix1 i)

/-- A rank-2 array as a function of its two coordinates. -/
abbrev cur2 {n0 n1 : Nat} (a : (⟨2, ![n0, n1]⟩ : Shape).Idx → EReal) : Fin n0 → Fin n1 → EReal := fun i j => a (ix2 i j)

/-- Row 0 of a one-row matrix as a function of the column. -/
abbrev row0 {n : Nat} (a : (⟨2, ![1, n]⟩ : Shape).Idx → EReal) : Fin n → EReal := fun j => a (ix2 0 j)

/-- The batch size 65536 as the float literal both programs divide by. -/
def nB : EReal := Ideal.ofBits .f32 0x47800000#32

/-- The variance offset (the float nearest 1e-5) both programs add before the reciprocal square root. -/
def eps : EReal := Ideal.ofBits .f32 0x3727C5AC#32

/-- Feature column `k` of the state group sits at column `k` of the 440. -/
abbrev colS (k : Fin 32) : Fin 440 := ⟨k.val, by omega⟩
/-- Feature column `k` of the counts group sits at column `32 + k`. -/
abbrev colC (k : Fin 16) : Fin 440 := ⟨32 + k.val, by omega⟩
/-- Feature column `k` of the embedding group sits at column `48 + k`. -/
abbrev colX (k : Fin 392) : Fin 440 := ⟨48 + k.val, by omega⟩

/-- The three feature groups side by side: row `r` of the 440-wide input. -/
def cat (fs : Fin 65536 → Fin 32 → EReal) (fc : Fin 65536 → Fin 16 → EReal) (fx : Fin 65536 → Fin 392 → EReal)
    (r : Fin 65536) (k : Fin 440) : EReal :=
  if h : k.val < 32 then fs r ⟨k.val, h⟩
  else if h' : k.val < 48 then fc r ⟨k.val - 32, by omega⟩
  else fx r ⟨k.val - 48, by omega⟩

/-- The first layer with one contraction over all 440 features. -/
def lin1 (X : Fin 65536 → Fin 440 → EReal) (W1T : Fin 440 → Fin 256 → EReal) (b1 : Fin 256 → EReal)
    (r : Fin 65536) (c : Fin 256) : EReal :=
  (∑ k : Fin 440, X r k * W1T k c) + b1 c

/-- The first layer with the three feature groups contracted separately against their rows of the weight. -/
def lin1Split (fs : Fin 65536 → Fin 32 → EReal) (fc : Fin 65536 → Fin 16 → EReal) (fx : Fin 65536 → Fin 392 → EReal)
    (W1T : Fin 440 → Fin 256 → EReal) (b1 : Fin 256 → EReal) (r : Fin 65536) (c : Fin 256) : EReal :=
  (((∑ k : Fin 32, fs r k * W1T (colS k) c) + (∑ k : Fin 16, fc r k * W1T (colC k) c))
      + (∑ k : Fin 392, fx r k * W1T (colX k) c)) + b1 c

/-- Row `p` of tile `t` (16 tiles of 4096 rows). -/
abbrev tileRow (t : Fin 16) (p : Fin 4096) : Fin 65536 := ⟨t.val * 4096 + p.val, by omega⟩

/-- Tile `j` of core `core` (two cores, eight tiles each). -/
abbrev coreTile (core : Fin 2) (j : Fin 8) : Fin 16 := ⟨core.val * 8 + j.val, by omega⟩

/-- One core's column sum: its eight tiles' column sums added up. -/
def coreSum (h : Fin 65536 → Fin 256 → EReal) (core : Fin 2) (c : Fin 256) : EReal :=
  ∑ j : Fin 8, ∑ p : Fin 4096, h (tileRow (coreTile core j) p) c

/-- A column's sum taken tile by tile within each core, the two cores added to 0 last. -/
def colSumTiled (h : Fin 65536 → Fin 256 → EReal) (c : Fin 256) : EReal :=
  0 + ∑ core : Fin 2, coreSum h core c

/-- A column's sum over all rows at once, added to 0. -/
def colSum (h : Fin 65536 → Fin 256 → EReal) (c : Fin 256) : EReal :=
  0 + ∑ r : Fin 65536, h r c

/-- The tiled mean of a column. -/
def meanK (h : Fin 65536 → Fin 256 → EReal) (c : Fin 256) : EReal := Ideal.div (colSumTiled h c) nB

/-- The tiled variance of a column before any clamp: E[h²] − E[h]². -/
def varRawK (h : Fin 65536 → Fin 256 → EReal) (c : Fin 256) : EReal :=
  Ideal.div (colSumTiled (fun r c => h r c * h r c) c) nB - meanK h c * meanK h c

/-- The tiled variance as used: clamped at 0 once outside and once more inside the second stage. -/
def varK (h : Fin 65536 → Fin 256 → EReal) (c : Fin 256) : EReal := max (max (varRawK h c) 0) 0

/-- The plain mean of a column. -/
def meanR (h : Fin 65536 → Fin 256 → EReal) (c : Fin 256) : EReal := Ideal.div (colSum h c) nB

/-- The plain biased variance of a column: E[(h − E[h])²]. -/
def varR (h : Fin 65536 → Fin 256 → EReal) (c : Fin 256) : EReal :=
  Ideal.div (colSum (fun r c => (h r c - meanR h c) * (h r c - meanR h c)) c) nB

/-- The normalisation with its affine map: ((h − mean) · rsqrt(var + eps)) · gamma + beta. -/
def normed (h : Fin 65536 → Fin 256 → EReal) (mean var gamma beta : Fin 256 → EReal) (r : Fin 65536) (c : Fin 256) : EReal :=
  ((h r c - mean c) * Ideal.rsqrt (var c + eps)) * gamma c + beta c

/-- The second layer with its rectifier, at row `r` and column `j`. -/
def layer2 (hn : Fin 65536 → Fin 256 → EReal) (W2T : Fin 256 → Fin 64 → EReal) (b2 : Fin 64 → EReal)
    (r : Fin 65536) (j : Fin 64) : EReal :=
  max ((∑ c : Fin 256, hn r c * W2T c j) + b2 j) 0

/-- The third layer with its rectifier, at row `r` and column `k`. -/
def layer3 (h2 : Fin 65536 → Fin 64 → EReal) (W3T : Fin 64 → Fin 16 → EReal) (b3 : Fin 16 → EReal)
    (r : Fin 65536) (k : Fin 16) : EReal :=
  max ((∑ j : Fin 64, h2 r j * W3T j k) + b3 k) 0

/-- The last layer, at row `r`. -/
def layer4 (h3 : Fin 65536 → Fin 16 → EReal) (W4T : Fin 16 → Fin 1 → EReal) (b4 : Fin 1 → EReal) (r : Fin 65536) : EReal :=
  (∑ k : Fin 16, h3 r k * W4T k 0) + b4 0

/-- The three layers after the normalisation. -/
def mlpTail (hn : Fin 65536 → Fin 256 → EReal) (W2T : Fin 256 → Fin 64 → EReal) (b2 : Fin 64 → EReal)
    (W3T : Fin 64 → Fin 16 → EReal) (b3 : Fin 16 → EReal) (W4T : Fin 16 → Fin 1 → EReal) (b4 : Fin 1 → EReal)
    (r : Fin 65536) : EReal :=
  layer4 (layer3 (layer2 hn W2T b2) W3T b3) W4T b4 r

/-- The whole network in the tiled spelling. -/
def outK (fs : Fin 65536 → Fin 32 → EReal) (fc : Fin 65536 → Fin 16 → EReal) (fx : Fin 65536 → Fin 392 → EReal)
    (W1T : Fin 440 → Fin 256 → EReal) (b1 gamma beta : Fin 256 → EReal)
    (W2T : Fin 256 → Fin 64 → EReal) (b2 : Fin 64 → EReal) (W3T : Fin 64 → Fin 16 → EReal) (b3 : Fin 16 → EReal)
    (W4T : Fin 16 → Fin 1 → EReal) (b4 : Fin 1 → EReal) (r : Fin 65536) : EReal :=
  mlpTail (normed (lin1Split fs fc fx W1T b1) (meanK (lin1Split fs fc fx W1T b1)) (varK (lin1Split fs fc fx W1T b1)) gamma beta)
    W2T b2 W3T b3 W4T b4 r

/-- The whole network in the plain spelling. -/
def outR (fs : Fin 65536 → Fin 32 → EReal) (fc : Fin 65536 → Fin 16 → EReal) (fx : Fin 65536 → Fin 392 → EReal)
    (W1T : Fin 440 → Fin 256 → EReal) (b1 gamma beta : Fin 256 → EReal)
    (W2T : Fin 256 → Fin 64 → EReal) (b2 : Fin 64 → EReal) (W3T : Fin 64 → Fin 16 → EReal) (b3 : Fin 16 → EReal)
    (W4T : Fin 16 → Fin 1 → EReal) (b4 : Fin 1 → EReal) (r : Fin 65536) : EReal :=
  mlpTail (normed (lin1 (cat fs fc fx) W1T b1) (meanR (lin1 (cat fs fc fx) W1T b1)) (varR (lin1 (cat fs fc fx) W1T b1)) gamma beta)
    W2T b2 W3T b3 W4T b4 r

end Cert.Spec

end
-- ==== Proof.KBody0.lean ====
/-
  The first pallas_call's arithmetic read at an index, at the ideal instance. A tile's block of the first linear
  layer is three matrix products into a zero accumulator, one per feature group against that group's rows of the
  transposed weight, added together, plus the bias row broadcast down the tile. At row `p` and column `j` that is the
  three contractions' sums plus the bias at `j`.
-/
import proofs.«107007_j80882824118683_2_alg».proof.Proof.Gen.KernelIdeal.Frame
import proofs.«107007_j80882824118683_2_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- A product of a 4096×32 block with a 32×256 block into the zero accumulator, at row `p` and column `j`: the
    contraction over the 32 shared coordinates. -/
theorem mm32_apply (a : FVec Ideal S4096x32 .bf16) (b : FVec Ideal S32x256 .bf16) (p : Fin 4096) (j : Fin 256) :
    (matmul dot_S4096x32_S32x256_S4096x256_1_0_0_1_n_n none a b (constant S4096x256 .f32 0x00000000#32) : S4096x256.Idx → EReal) (ix2 p j)
      = ∑ k : Fin 32, a (ix2 p k) * b (ix2 k j) := by
  refine (Ideal.matmul_constant_zero_apply dot_S4096x32_S32x256_S4096x256_1_0_0_1_n_n none a b (ix2 p j)).trans ?_
  rw [← Equiv.sum_comp (contrEquiv1 dot_S4096x32_S32x256_S4096x256_1_0_0_1_n_n 32 rfl rfl).symm]
  refine Finset.sum_congr rfl fun k _ => ?_
  have hk := contrEquiv1_symm_val dot_S4096x32_S32x256_S4096x256_1_0_0_1_n_n 32 rfl rfl k
  have el : dot_S4096x32_S32x256_S4096x256_1_0_0_1_n_n.lhsIdx (ix2 p j) ((contrEquiv1 dot_S4096x32_S32x256_S4096x256_1_0_0_1_n_n 32 rfl rfl).symm k) = ix2 p k :=
    funext fun ax => Fin.ext (by
      match ax with
      | ⟨0, _⟩ =>
        show (dot_S4096x32_S32x256_S4096x256_1_0_0_1_n_n.lhsIdx (ix2 p j) ((contrEquiv1 dot_S4096x32_S32x256_S4096x256_1_0_0_1_n_n 32 rfl rfl).symm k) (0 : Fin S4096x32.rank)).val = p.val
        unfold DotDims.lhsIdx
        rw [dif_neg (show ¬(0 : Fin S4096x32.rank) ∈ dot_S4096x32_S32x256_S4096x256_1_0_0_1_n_n.lhsBatch by decide),
          dif_pos (show (0 : Fin S4096x32.rank) ∈ dot_S4096x32_S32x256_S4096x256_1_0_0_1_n_n.lhsNonContracting by decide)]
        rfl
      | ⟨1, _⟩ =>
        exact (DotDims.lhsIdx_val_of_single (d := dot_S4096x32_S32x256_S4096x256_1_0_0_1_n_n) (cl := (1 : Fin S4096x32.rank)) rfl (ix2 p j) _).trans hk)
  have er : dot_S4096x32_S32x256_S4096x256_1_0_0_1_n_n.rhsIdx (ix2 p j) ((contrEquiv1 dot_S4096x32_S32x256_S4096x256_1_0_0_1_n_n 32 rfl rfl).symm k) = ix2 k j :=
    funext fun ax => Fin.ext (by
      match ax with
      | ⟨0, _⟩ =>
        exact (DotDims.rhsIdx_val_of_single (d := dot_S4096x32_S32x256_S4096x256_1_0_0_1_n_n) (cr := (0 : Fin S32x256.rank)) rfl (ix2 p j) _).trans hk
      | ⟨1, _⟩ =>
        show (dot_S4096x32_S32x256_S4096x256_1_0_0_1_n_n.rhsIdx (ix2 p j) ((contrEquiv1 dot_S4096x32_S32x256_S4096x256_1_0_0_1_n_n 32 rfl rfl).symm k) (1 : Fin S32x256.rank)).val = j.val
        unfold DotDims.rhsIdx
        rw [dif_neg (show ¬(1 : Fin S32x256.rank) ∈ dot_S4096x32_S32x256_S4096x256_1_0_0_1_n_n.rhsBatch by decide),
          dif_pos (show (1 : Fin S32x256.rank) ∈ dot_S4096x32_S32x256_S4096x256_1_0_0_1_n_n.rhsNonContracting by decide)]
        rfl)
  rw [el, er]

/-- A product of a 4096×16 block with a 16×256 block into the zero accumulator, at row `p` and column `j`: the
    contraction over the 16 shared coordinates. -/
theorem mm16_apply (a : FVec Ideal S4096x16 .bf16) (b : FVec Ideal S16x256 .bf16) (p : Fin 4096) (j : Fin 256) :
    (matmul dot_S4096x16_S16x256_S4096x256_1_0_0_1_n_n none a b (constant S4096x256 .f32 0x00000000#32) : S4096x256.Idx → EReal) (ix2 p j)
      = ∑ k : Fin 16, a (ix2 p k) * b (ix2 k j) := by
  refine (Ideal.matmul_constant_zero_apply dot_S4096x16_S16x256_S4096x256_1_0_0_1_n_n none a b (ix2 p j)).trans ?_
  rw [← Equiv.sum_comp (contrEquiv1 dot_S4096x16_S16x256_S4096x256_1_0_0_1_n_n 16 rfl rfl).symm]
  refine Finset.sum_congr rfl fun k _ => ?_
  have hk := contrEquiv1_symm_val dot_S4096x16_S16x256_S4096x256_1_0_0_1_n_n 16 rfl rfl k
  have el : dot_S4096x16_S16x256_S4096x256_1_0_0_1_n_n.lhsIdx (ix2 p j) ((contrEquiv1 dot_S4096x16_S16x256_S4096x256_1_0_0_1_n_n 16 rfl rfl).symm k) = ix2 p k :=
    funext fun ax => Fin.ext (by
      match ax with
      | ⟨0, _⟩ =>
        show (dot_S4096x16_S16x256_S4096x256_1_0_0_1_n_n.lhsIdx (ix2 p j) ((contrEquiv1 dot_S4096x16_S16x256_S4096x256_1_0_0_1_n_n 16 rfl rfl).symm k) (0 : Fin S4096x16.rank)).val = p.val
        unfold DotDims.lhsIdx
        rw [dif_neg (show ¬(0 : Fin S4096x16.rank) ∈ dot_S4096x16_S16x256_S4096x256_1_0_0_1_n_n.lhsBatch by decide),
          dif_pos (show (0 : Fin S4096x16.rank) ∈ dot_S4096x16_S16x256_S4096x256_1_0_0_1_n_n.lhsNonContracting by decide)]
        rfl
      | ⟨1, _⟩ =>
        exact (DotDims.lhsIdx_val_of_single (d := dot_S4096x16_S16x256_S4096x256_1_0_0_1_n_n) (cl := (1 : Fin S4096x16.rank)) rfl (ix2 p j) _).trans hk)
  have er : dot_S4096x16_S16x256_S4096x256_1_0_0_1_n_n.rhsIdx (ix2 p j) ((contrEquiv1 dot_S4096x16_S16x256_S4096x256_1_0_0_1_n_n 16 rfl rfl).symm k) = ix2 k j :=
    funext fun ax => Fin.ext (by
      match ax with
      | ⟨0, _⟩ =>
        exact (DotDims.rhsIdx_val_of_single (d := dot_S4096x16_S16x256_S4096x256_1_0_0_1_n_n) (cr := (0 : Fin S16x256.rank)) rfl (ix2 p j) _).trans hk
      | ⟨1, _⟩ =>
        show (dot_S4096x16_S16x256_S4096x256_1_0_0_1_n_n.rhsIdx (ix2 p j) ((contrEquiv1 dot_S4096x16_S16x256_S4096x256_1_0_0_1_n_n 16 rfl rfl).symm k) (1 : Fin S16x256.rank)).val = j.val
        unfold DotDims.rhsIdx
        rw [dif_neg (show ¬(1 : Fin S16x256.rank) ∈ dot_S4096x16_S16x256_S4096x256_1_0_0_1_n_n.rhsBatch by decide),
          dif_pos (show (1 : Fin S16x256.rank) ∈ dot_S4096x16_S16x256_S4096x256_1_0_0_1_n_n.rhsNonContracting by decide)]
        rfl)
  rw [el, er]

/-- A product of a 4096×392 block with a 392×256 block into the zero accumulator, at row `p` and column `j`: the
    contraction over the 392 shared coordinates. -/
theorem mm392_apply (a : FVec Ideal S4096x392 .bf16) (b : FVec Ideal S392x256 .bf16) (p : Fin 4096) (j : Fin 256) :
    (matmul dot_S4096x392_S392x256_S4096x256_1_0_0_1_n_n none a b (constant S4096x256 .f32 0x00000000#32) : S4096x256.Idx → EReal) (ix2 p j)
      = ∑ k : Fin 392, a (ix2 p k) * b (ix2 k j) := by
  refine (Ideal.matmul_constant_zero_apply dot_S4096x392_S392x256_S4096x256_1_0_0_1_n_n none a b (ix2 p j)).trans ?_
  rw [← Equiv.sum_comp (contrEquiv1 dot_S4096x392_S392x256_S4096x256_1_0_0_1_n_n 392 rfl rfl).symm]
  refine Finset.sum_congr rfl fun k _ => ?_
  have hk := contrEquiv1_symm_val dot_S4096x392_S392x256_S4096x256_1_0_0_1_n_n 392 rfl rfl k
  have el : dot_S4096x392_S392x256_S4096x256_1_0_0_1_n_n.lhsIdx (ix2 p j) ((contrEquiv1 dot_S4096x392_S392x256_S4096x256_1_0_0_1_n_n 392 rfl rfl).symm k) = ix2 p k :=
    funext fun ax => Fin.ext (by
      match ax with
      | ⟨0, _⟩ =>
        show (dot_S4096x392_S392x256_S4096x256_1_0_0_1_n_n.lhsIdx (ix2 p j) ((contrEquiv1 dot_S4096x392_S392x256_S4096x256_1_0_0_1_n_n 392 rfl rfl).symm k) (0 : Fin S4096x392.rank)).val = p.val
        unfold DotDims.lhsIdx
        rw [dif_neg (show ¬(0 : Fin S4096x392.rank) ∈ dot_S4096x392_S392x256_S4096x256_1_0_0_1_n_n.lhsBatch by decide),
          dif_pos (show (0 : Fin S4096x392.rank) ∈ dot_S4096x392_S392x256_S4096x256_1_0_0_1_n_n.lhsNonContracting by decide)]
        rfl
      | ⟨1, _⟩ =>
        exact (DotDims.lhsIdx_val_of_single (d := dot_S4096x392_S392x256_S4096x256_1_0_0_1_n_n) (cl := (1 : Fin S4096x392.rank)) rfl (ix2 p j) _).trans hk)
  have er : dot_S4096x392_S392x256_S4096x256_1_0_0_1_n_n.rhsIdx (ix2 p j) ((contrEquiv1 dot_S4096x392_S392x256_S4096x256_1_0_0_1_n_n 392 rfl rfl).symm k) = ix2 k j :=
    funext fun ax => Fin.ext (by
      match ax with
      | ⟨0, _⟩ =>
        exact (DotDims.rhsIdx_val_of_single (d := dot_S4096x392_S392x256_S4096x256_1_0_0_1_n_n) (cr := (0 : Fin S392x256.rank)) rfl (ix2 p j) _).trans hk
      | ⟨1, _⟩ =>
        show (dot_S4096x392_S392x256_S4096x256_1_0_0_1_n_n.rhsIdx (ix2 p j) ((contrEquiv1 dot_S4096x392_S392x256_S4096x256_1_0_0_1_n_n 392 rfl rfl).symm k) (1 : Fin S392x256.rank)).val = j.val
        unfold DotDims.rhsIdx
        rw [dif_neg (show ¬(1 : Fin S392x256.rank) ∈ dot_S4096x392_S392x256_S4096x256_1_0_0_1_n_n.rhsBatch by decide),
          dif_pos (show (1 : Fin S392x256.rank) ∈ dot_S4096x392_S392x256_S4096x256_1_0_0_1_n_n.rhsNonContracting by decide)]
        rfl)
  rw [el, er]

/-- The first layer's output as the region computes it from its entry arrays `V`: the three feature groups, the
    transposed weight and the bias row. -/
def h1 (V : (c : Dev nD) → (b : Ref sig .tc) → Buf (Elt Ideal) ((c : Thread nD τ).loc b)) (c : Dev nD) : Fin 65536 → Fin 256 → EReal :=
  Spec.lin1Split (Spec.cur2 (n0 := 65536) (n1 := 32) (V c main_v17)) (Spec.cur2 (n0 := 65536) (n1 := 16) (V c main_v25))
    (Spec.cur2 (n0 := 65536) (n1 := 392) (V c main_v9)) (Spec.cur2 (n0 := 440) (n1 := 256) (V c main_v27))
    (Spec.row0 (n := 256) (V c main_v28))

/-- A tile's block of the first layer at row `p`, column `j`: the three groups' contractions and the bias. -/
theorem pay6_apply (v3 : S4096x32.Idx → EReal) (v5 : S4096x16.Idx → EReal) (v7 : S4096x392.Idx → EReal)
    (v9 : S32x256.Idx → EReal) (v11 : S16x256.Idx → EReal) (v13 : S392x256.Idx → EReal) (v20 : S1x256.Idx → EReal)
    (p : Fin 4096) (j : Fin 256) :
    (k0_pay6 (F := Ideal) v3 v5 v7 v9 v11 v13 v20 : S4096x256.Idx → EReal) (ix2 p j)
      = (((∑ k : Fin 32, v3 (ix2 p k) * v9 (ix2 k j)) + (∑ k : Fin 16, v5 (ix2 p k) * v11 (ix2 k j)))
          + (∑ k : Fin 392, v7 (ix2 p k) * v13 (ix2 k j))) + v20 (ix2 0 j) := by
  unfold k0_pay6
  simp only [shapeCast_self]
  -- the four sums are pointwise: read each summand at (p, j)
  refine (addf_apply _ _ (ix2 p j)).trans ?_
  refine congrArg₂ (· + ·) ?_ (broadcastTo_1b_ab_apply v20 broadcasts_S1x256_S4096x256 p j)
  refine (addf_apply _ _ (ix2 p j)).trans ?_
  refine congrArg₂ (· + ·) ?_ (mm392_apply v7 v13 p j)
  refine (addf_apply _ _ (ix2 p j)).trans ?_
  exact congrArg₂ (· + ·) (mm32_apply v3 v9 p j) (mm16_apply v5 v11 p j)

end Cert.KernelIdeal.Region0

end
-- ==== Proof.KRegion0Out.lean ====
/-
  The first pallas_call's first output array read as a value, at the ideal instance, from ANY contents `V` of the
  TensorCore's buffers at the region's entry. Grid point t (core t / 8, tile t % 8 of that core) computes its tile of
  the first linear layer from rows 4096·t … 4096·t + 4095 of the three feature arrays, the whole transposed weight
  and the bias row, and writes it back as block t of the output array; the 16 blocks tile the array. So after the
  region the array is the first layer's output, row by row.
-/
import proofs.«107007_j80882824118683_2_alg».proof.Proof.Gen.KernelIdeal.Frame
import proofs.«107007_j80882824118683_2_alg».proof.Proof.Spec
import proofs.«107007_j80882824118683_2_alg».proof.Proof.KBody0
import Idealize.ShloMosaic.Lib.Pipeline.Value
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

namespace Out5

variable (V : (c : Dev nD) → (b : Ref sig .tc) → Buf (Elt Ideal) ((c : Thread nD τ).loc b))

/-- A whole block sits at offset zero on both axes. -/
theorem hz : (![0, 0] : Fin 2 → Nat) = fun _ => 0 := funext fun a => by fin_cases a <;> rfl

/-! ## What the body leaves in the output block

Whichever control case a grid point is in (the first tile of a core also zeroes the two statistics accumulators), the
body stores ONE thing into the first output's block: the first layer's tile, computed from the three feature blocks,
three row bands of the weight block (rows 0–31, 32–47, 48–439) and the bias block, then narrowed. -/

/-- Rows 0–31 of the weight block: the band the state group contracts against. -/
abbrev bandS : Rect S440x256 := Rect.unit (s := S440x256) ![0, 0] S32x256.size inb_S440x256_S32x256_0_0
/-- Rows 32–47 of the weight block: the band the counts group contracts against. -/
abbrev bandC : Rect S440x256 := Rect.unit (s := S440x256) ![32, 0] S16x256.size inb_S440x256_S16x256_32_0
/-- Rows 48–439 of the weight block: the band the embedding group contracts against. -/
abbrev bandX : Rect S440x256 := Rect.unit (s := S440x256) ![48, 0] S392x256.size inb_S440x256_S392x256_48_0

/-- The tile the body stores, as a function of the five input blocks. -/
def tileOf {F : FTy → Type} [FloatOps F] (x0 : Vec F S4096x32 .bf16) (x1 : Vec F S4096x16 .bf16) (x2 : Vec F S4096x392 .bf16)
    (x3 : Vec F S440x256 .bf16) (x4 : Vec F S1x256 .f32) : Vec F S4096x256 .bf16 :=
  k0_pay3 (k0_pay6 x0 x1 x2 (View.ld x3 bandS) (View.ld x3 bandC) (View.ld x3 bandX) x4)

/-- At a core's first tile the output block is left at that tile. -/
theorem out0_A_5_eq {F : FTy → Type} [FloatOps F] (c : Dev nD) (i : grid0.Coords) (arg2 : Memref sig .tc .vmem S4096x32 .bf16) (harg2 : arg2.IsWhole) (arg3 : Memref sig .tc .vmem S4096x16 .bf16) (harg3 : arg3.IsWhole) (arg4 : Memref sig .tc .vmem S4096x392 .bf16) (harg4 : arg4.IsWhole) (arg5 : Memref sig .tc .vmem S440x256 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x8x256 .f32) (harg8 : arg8.IsWhole) (arg9 : Memref sig .tc .vmem S1x8x256 .f32) (harg9 : arg9.IsWhole) (hc0 : cond0_0 i)
    (x0 : Vec F S4096x32 .bf16) (x1 : Vec F S4096x16 .bf16) (x2 : Vec F S4096x392 .bf16) (x3 : Vec F S440x256 .bf16) (x4 : Vec F S1x256 .f32) :
    out0_A_5 c i arg2 harg2 arg3 harg3 arg4 harg4 arg5 harg5 arg6 harg6 arg7 harg7 arg8 harg8 arg9 harg9 hc0 x0 x1 x2 x3 x4 = tileOf x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    View.ld_unit_zero (S := S4096x32) hz, View.ld_unit_zero (S := S4096x16) hz, View.ld_unit_zero (S := S4096x392) hz,
    View.ld_unit_zero (S := S1x256) hz]
  rfl

/-- At every other tile too, whatever the statistics accumulators held. -/
theorem out0_B_5_eq {F : FTy → Type} [FloatOps F] (c : Dev nD) (i : grid0.Coords) (arg2 : Memref sig .tc .vmem S4096x32 .bf16) (harg2 : arg2.IsWhole) (arg3 : Memref sig .tc .vmem S4096x16 .bf16) (harg3 : arg3.IsWhole) (arg4 : Memref sig .tc .vmem S4096x392 .bf16) (harg4 : arg4.IsWhole) (arg5 : Memref sig .tc .vmem S440x256 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x8x256 .f32) (harg8 : arg8.IsWhole) (arg9 : Memref sig .tc .vmem S1x8x256 .f32) (harg9 : arg9.IsWhole) (hc0 : ¬cond0_0 i)
    (x0 : Vec F S4096x32 .bf16) (x1 : Vec F S4096x16 .bf16) (x2 : Vec F S4096x392 .bf16) (x3 : Vec F S440x256 .bf16) (x4 : Vec F S1x256 .f32) (xo6 : Vec F S1x8x256 .f32) (xo7 : Vec F S1x8x256 .f32) :
    out0_B_5 c i arg2 harg2 arg3 harg3 arg4 harg4 arg5 harg5 arg6 harg6 arg7 harg7 arg8 harg8 arg9 harg9 hc0 x0 x1 x2 x3 x4 xo6 xo7 = tileOf x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz]
  simp only [View.readAt_eq_ld, harg2.read_unread, harg3.read_unread, harg4.read_unread, harg5.read_unread, harg6.read_unread,
    View.ld_unit_zero (S := S4096x32) hz, View.ld_unit_zero (S := S4096x16) hz, View.ld_unit_zero (S := S4096x392) hz,
    View.ld_unit_zero (S := S1x256) hz]
  rfl

/-- Row `k` of the first band is row `k` of the weight block. -/
theorem bandS_apply {α : Type} (x3 : S440x256.Idx → α) (k : Fin 32) (j : Fin 256) :
    View.ld (Val := fun _ => α) (e' := .bf16) x3 bandS (ix2 k j) = x3 (ix2 (Spec.colS k) j) :=
  congrArg x3 (funext fun a => Fin.ext (by
    match a with
    | ⟨0, _⟩ => show 0 + 1 * k.val = k.val; omega
    | ⟨1, _⟩ => show 0 + 1 * j.val = j.val; omega))

/-- Row `k` of the second band is row `32 + k` of the weight block. -/
theorem bandC_apply {α : Type} (x3 : S440x256.Idx → α) (k : Fin 16) (j : Fin 256) :
    View.ld (Val := fun _ => α) (e' := .bf16) x3 bandC (ix2 k j) = x3 (ix2 (Spec.colC k) j) :=
  congrArg x3 (funext fun a => Fin.ext (by
    match a with
    | ⟨0, _⟩ => show 32 + 1 * k.val = 32 + k.val; omega
    | ⟨1, _⟩ => show 0 + 1 * j.val = j.val; omega))

/-- Row `k` of the third band is row `48 + k` of the weight block. -/
theorem bandX_apply {α : Type} (x3 : S440x256.Idx → α) (k : Fin 392) (j : Fin 256) :
    View.ld (Val := fun _ => α) (e' := .bf16) x3 bandX (ix2 k j) = x3 (ix2 (Spec.colX k) j) :=
  congrArg x3 (funext fun a => Fin.ext (by
    match a with
    | ⟨0, _⟩ => show 48 + 1 * k.val = 48 + k.val; omega
    | ⟨1, _⟩ => show 0 + 1 * j.val = j.val; omega))

/-- The tile at row `p`, column `j`, at the ideal instance: the three groups' contractions against their bands of
    the weight block, and the bias (narrowing the format changes nothing on the extended reals). -/
theorem tileOf_apply (x0 : S4096x32.Idx → EReal) (x1 : S4096x16.Idx → EReal) (x2 : S4096x392.Idx → EReal)
    (x3 : S440x256.Idx → EReal) (x4 : S1x256.Idx → EReal) (p : Fin 4096) (j : Fin 256) :
    (tileOf (F := Ideal) x0 x1 x2 x3 x4 : S4096x256.Idx → EReal) (ix2 p j)
      = (((∑ k : Fin 32, x0 (ix2 p k) * x3 (ix2 (Spec.colS k) j)) + (∑ k : Fin 16, x1 (ix2 p k) * x3 (ix2 (Spec.colC k) j)))
          + (∑ k : Fin 392, x2 (ix2 p k) * x3 (ix2 (Spec.colX k) j))) + x4 (ix2 0 j) := by
  unfold tileOf k0_pay3
  refine (truncf_apply _ bitsLt_bf16_f32 (ix2 p j)).trans ?_
  refine (pay6_apply x0 x1 x2 _ _ _ x4 p j).trans ?_
  refine congrArg₂ (· + ·) (congrArg₂ (· + ·) (congrArg₂ (· + ·) ?_ ?_) ?_) rfl
  · exact Finset.sum_congr rfl fun k _ => congrArg (x0 (ix2 p k) * ·) (bandS_apply x3 k j)
  · exact Finset.sum_congr rfl fun k _ => congrArg (x1 (ix2 p k) * ·) (bandC_apply x3 k j)
  · exact Finset.sum_congr rfl fun k _ => congrArg (x2 (ix2 p k) * ·) (bandX_apply x3 k j)

/-! ## The blocks the pipeline hands the body

Grid point `t` is core `t / 8`, tile `t % 8`; the three feature windows and the output window all sit at block row
`core · 8 + tile = t`, and the weight and bias windows at their one block. -/

/-- The printed index maps, decided once over the sixteen grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The state group's block at point `t`: rows `4096·t …` of the array. -/
theorem iblk0_0_apply (c : Dev nD) (t : Fin cfg0.N) (p : Fin 4096) (k : Fin 32) (r : Fin 65536)
    (hr : r.val = t.val * 4096 + p.val) :
    (iblk0 V c 0 t : S4096x32.Idx → EReal) (ix2 p k) = (V c main_v17 : S65536x32.Idx → EReal) (ix2 r k) := by
  obtain ⟨e0, e1, -⟩ := idx_facts t
  unfold iblk0
  rw [View.read_apply]
  show V c main_v17 (((cfg0.win 0).blk t).view.emb (ix2 p k)) = V c main_v17 (ix2 r k)
  refine congrArg (V c main_v17) (funext fun a => Fin.ext ?_)
  match a with
  | ⟨0, _⟩ => show win0_0.index t (0 : Fin 2) * 4096 + 1 * p.val = r.val; rw [e0, hr]; omega
  | ⟨1, _⟩ => show win0_0.index t (1 : Fin 2) * 32 + 1 * k.val = k.val; rw [e1]; omega

/-- The counts group's block at point `t`: rows `4096·t …` of the array. -/
theorem iblk0_1_apply (c : Dev nD) (t : Fin cfg0.N) (p : Fin 4096) (k : Fin 16) (r : Fin 65536)
    (hr : r.val = t.val * 4096 + p.val) :
    (iblk0 V c 1 t : S4096x16.Idx → EReal) (ix2 p k) = (V c main_v25 : S65536x16.Idx → EReal) (ix2 r k) := by
  obtain ⟨-, -, e0, e1, -⟩ := idx_facts t
  unfold iblk0
  rw [View.read_apply]
  show V c main_v25 (((cfg0.win 1).blk t).view.emb (ix2 p k)) = V c main_v25 (ix2 r k)
  refine congrArg (V c main_v25) (funext fun a => Fin.ext ?_)
  match a with
  | ⟨0, _⟩ => show win0_1.index t (0 : Fin 2) * 4096 + 1 * p.val = r.val; rw [e0, hr]; omega
  | ⟨1, _⟩ => show win0_1.index t (1 : Fin 2) * 16 + 1 * k.val = k.val; rw [e1]; omega

/-- The embedding group's block at point `t`: rows `4096·t …` of the array. -/
theorem iblk0_2_apply (c : Dev nD) (t : Fin cfg0.N) (p : Fin 4096) (k : Fin 392) (r : Fin 65536)
    (hr : r.val = t.val * 4096 + p.val) :
    (iblk0 V c 2 t : S4096x392.Idx → EReal) (ix2 p k) = (V c main_v9 : S65536x392.Idx → EReal) (ix2 r k) := by
  obtain ⟨-, -, -, -, e0, e1, -⟩ := idx_facts t
  unfold iblk0
  rw [View.read_apply]
  show V c main_v9 (((cfg0.win 2).blk t).view.emb (ix2 p k)) = V c main_v9 (ix2 r k)
  refine congrArg (V c main_v9) (funext fun a => Fin.ext ?_)
  match a with
  | ⟨0, _⟩ => show win0_2.index t (0 : Fin 2) * 4096 + 1 * p.val = r.val; rw [e0, hr]; omega
  | ⟨1, _⟩ => show win0_2.index t (1 : Fin 2) * 392 + 1 * k.val = k.val; rw [e1]; omega

/-- The weight window's block is the whole transposed weight at every point. -/
theorem iblk0_3_apply (c : Dev nD) (t : Fin cfg0.N) (k : Fin 440) (j : Fin 256) :
    (iblk0 V c 3 t : S440x256.Idx → EReal) (ix2 k j) = (V c main_v27 : S440x256.Idx → EReal) (ix2 k j) := by
  obtain ⟨-, -, -, -, -, -, e0, e1, -⟩ := idx_facts t
  unfold iblk0
  rw [View.read_apply]
  show V c main_v27 (((cfg0.win 3).blk t).view.emb (ix2 k j)) = V c main_v27 (ix2 k j)
  refine congrArg (V c main_v27) (funext fun a => Fin.ext ?_)
  match a with
  | ⟨0, _⟩ => show win0_3.index t (0 : Fin 2) * 440 + 1 * k.val = k.val; rw [e0]; omega
  | ⟨1, _⟩ => show win0_3.index t (1 : Fin 2) * 256 + 1 * j.val = j.val; rw [e1]; omega

/-- The bias window's block is the whole bias row at every point. -/
theorem iblk0_4_apply (c : Dev nD) (t : Fin cfg0.N) (u : Fin 1) (j : Fin 256) :
    (iblk0 V c 4 t : S1x256.Idx → EReal) (ix2 u j) = (V c main_v28 : S1x256.Idx → EReal) (ix2 u j) := by
  obtain ⟨-, -, -, -, -, -, -, -, e0, e1, -⟩ := idx_facts t
  unfold iblk0
  rw [View.read_apply]
  show V c main_v28 (((cfg0.win 4).blk t).view.emb (ix2 u j)) = V c main_v28 (ix2 u j)
  refine congrArg (V c main_v28) (funext fun a => Fin.ext ?_)
  match a with
  | ⟨0, _⟩ => show win0_4.index t (0 : Fin 2) * 1 + 1 * u.val = u.val; rw [e0]; omega
  | ⟨1, _⟩ => show win0_4.index t (1 : Fin 2) * 256 + 1 * j.val = j.val; rw [e1]; omega

/-! ## What a point writes back -/

/-- After the body at point `t` the output's staging buffer holds the tile of that point's input blocks, in either
    control case. -/
theorem after5 (c : Dev nD) (t : Fin cfg0.N) :
    (dat0 (F := Ideal) V c).after 5 t
      = tileOf (F := Ideal) (iblk0 V c 0 t) (iblk0 V c 1 t) (iblk0 V c 2 t) (iblk0 V c 3 t) (iblk0 V c 4 t) := by
  rw [after0_5]
  by_cases h0 : t.val % 8 = 0
  · rw [outsAt0_A V c t h0]
    dsimp only
    exact out0_A_5_eq (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) ((hcond0_0 t).mpr h0)
      (iblk0 V c 0 t) (iblk0 V c 1 t) (iblk0 V c 2 t) (iblk0 V c 3 t) (iblk0 V c 4 t)
  · rw [outsAt0_B V c t h0]
    dsimp only
    exact out0_B_5_eq (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (fun h => h0 ((hcond0_0 t).mp h))
      (iblk0 V c 0 t) (iblk0 V c 1 t) (iblk0 V c 2 t) (iblk0 V c 3 t) (iblk0 V c 4 t)
      (outsAt0 V c (t.val - 1) (Nat.lt_of_le_of_lt (Nat.sub_le _ _) t.isLt)).2.1
      (outsAt0 V c (t.val - 1) (Nat.lt_of_le_of_lt (Nat.sub_le _ _) t.isLt)).2.2

/-- Row `p` of point `t`'s tile is row `4096·t + p` of the first layer's output. -/
theorem tile_eq_h1 (c : Dev nD) (t : Fin cfg0.N) (p : Fin 4096) (j : Fin 256) (r : Fin 65536)
    (hr : r.val = t.val * 4096 + p.val) :
    (tileOf (F := Ideal) (iblk0 V c 0 t) (iblk0 V c 1 t) (iblk0 V c 2 t) (iblk0 V c 3 t) (iblk0 V c 4 t) : S4096x256.Idx → EReal) (ix2 p j)
      = h1 V c r j := by
  refine (tileOf_apply (iblk0 V c 0 t) (iblk0 V c 1 t) (iblk0 V c 2 t) (iblk0 V c 3 t) (iblk0 V c 4 t) p j).trans ?_
  unfold h1 Spec.lin1Split
  refine congrArg₂ (· + ·) (congrArg₂ (· + ·) (congrArg₂ (· + ·) ?_ ?_) ?_) (iblk0_4_apply V c t 0 j)
  · exact Finset.sum_congr rfl fun k _ => congrArg₂ (· * ·) (iblk0_0_apply V c t p k r hr) (iblk0_3_apply V c t (Spec.colS k) j)
  · exact Finset.sum_congr rfl fun k _ => congrArg₂ (· * ·) (iblk0_1_apply V c t p k r hr) (iblk0_3_apply V c t (Spec.colC k) j)
  · exact Finset.sum_congr rfl fun k _ => congrArg₂ (· * ·) (iblk0_2_apply V c t p k r hr) (iblk0_3_apply V c t (Spec.colX k) j)

/-- The first layer's output as contents of the output array. -/
abbrev G5 (c : Dev nD) : S65536x256.Idx → EReal := fun i => h1 V c (i 0) (i 1)

/-- WHAT POINT `t` WRITES BACK is block `t` of the first layer's output. -/
theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after5]
  obtain ⟨-, -, -, -, -, -, -, -, -, -, e0, e1⟩ := idx_facts t
  have hN : grid0.N = 16 := N_0
  funext y
  have hy0 : (y 0).val < 4096 := (y 0).isLt
  have hy1 : (y 1).val < 256 := (y 1).isLt
  have ht : t.val < 16 := by have h : t.val < grid0.N := t.isLt; omega
  have hr : t.val * 4096 + (y 0).val < 65536 := by omega
  rw [View.read_apply]
  have hx : (cfg0.win 5).xinj (grid0.coords t) y = ix2 (⟨(y 0).val, hy0⟩ : Fin 4096) (⟨(y 1).val, hy1⟩ : Fin 256) :=
    funext fun a => Fin.ext (by match a with | ⟨0, _⟩ => rfl | ⟨1, _⟩ => rfl)
  have he : ((cfg0.win 5).blk t).view.emb y
      = ix2 (⟨t.val * 4096 + (y 0).val, hr⟩ : Fin 65536) (⟨(y 1).val, hy1⟩ : Fin 256) :=
    funext fun a => Fin.ext (by
      match a with
      | ⟨0, _⟩ => show win0_5.index t (0 : Fin 2) * 4096 + 1 * (y 0).val = t.val * 4096 + (y 0).val; rw [e0]; omega
      | ⟨1, _⟩ => show win0_5.index t (1 : Fin 2) * 256 + 1 * (y 1).val = (y 1).val; rw [e1]; omega)
  refine (congrArg (tileOf (F := Ideal) (iblk0 V c 0 t) (iblk0 V c 1 t) (iblk0 V c 2 t) (iblk0 V c 3 t) (iblk0 V c 4 t)) hx).trans ?_
  refine (tile_eq_h1 V c t (⟨(y 0).val, hy0⟩ : Fin 4096) (⟨(y 1).val, hy1⟩ : Fin 256) (⟨t.val * 4096 + (y 0).val, hr⟩ : Fin 65536) rfl).trans ?_
  exact (congrArg (G5 V c) he).symm

/-- An index of the array is in point `t`'s block iff each coordinate is in the block's range on its axis. -/
theorem mem_blk5 (t : Fin cfg0.N) (i : S65536x256.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v40_0).slice (win0_5.rect t)).set ↔ _
  rw [View.set_slice_whole, Rect.mem_set_unit]
  exact Iff.rfl

/-- Row `r` of the array lies in the block of point `r / 4096`: the sixteen blocks tile it. -/
theorem cover5 (i : S65536x256.Idx) :
    ∃ t : Fin cfg0.N, (cfg0.win 5).flush t = true ∧ i ∈ ((cfg0.win 5).blk t).view.set := by
  have hN : grid0.N = 16 := N_0
  have hi0 : (i 0).val < 65536 := (i 0).isLt
  have hi1 : (i 1).val < 256 := (i 1).isLt
  obtain ⟨t, ht⟩ : ∃ t : Fin cfg0.N, t.val = (i 0).val / 4096 :=
    ⟨⟨(i 0).val / 4096, by show (i 0).val / 4096 < grid0.N; omega⟩, rfl⟩
  obtain ⟨-, -, -, -, -, -, -, -, -, -, e0, e1⟩ := idx_facts t
  refine ⟨t, flush0_5 t, ?_⟩
  rw [mem_blk5]
  intro a
  match a with
  | ⟨0, _⟩ =>
    show win0_5.index t (0 : Fin 2) * 4096 ≤ (i 0).val ∧ (i 0).val < win0_5.index t (0 : Fin 2) * 4096 + 4096
    rw [e0]; omega
  | ⟨1, _⟩ =>
    show win0_5.index t (1 : Fin 2) * 256 ≤ (i 1).val ∧ (i 1).val < win0_5.index t (1 : Fin 2) * 256 + 256
    rw [e1]; omega

end Out5

variable (V : (c : Dev nD) → (b : Ref sig .tc) → Buf (Elt Ideal) ((c : Thread nD τ).loc b))

/-- The output array after the region: the first layer's output. -/
theorem arr5 (c : Dev nD) (r : Fin 65536) (j : Fin 256) :
    ((dat0 (F := Ideal) V c).arrAt 5 cfg0.N : S65536x256.Idx → EReal) (ix2 r j) = h1 V c r j := by
  exact congrFun ((dat0 (F := Ideal) V c).arrAt_eq_of_cover 5 (Out5.G5 V c) (fun t _ => Out5.flushed5_eq V c t) Out5.cover5) (ix2 r j)

end Cert.KernelIdeal.Region0

end
-- ==== Proof.KRegion0AccAux1.lean ====
/-
  What one run of the first kernel's body leaves on row 0 of the two per-core accumulator blocks, read at the ideal
  instance as plain formulas. The body stores, at a core's first tile, a zero block; then, at every tile, it reads row 0,
  adds the column sums of the tile's first-layer block (for the second accumulator: of its squares) and stores row 0
  back. So row 0 at column j ends as (0, or what was there) + Σ_p block(p, j), and block(p, j) is the three feature
  groups' contractions against their rows of the weight plus the bias (`blkLin`).
-/
import proofs.«107007_j80882824118683_2_alg».proof.Proof.Gen.KernelIdeal.Frame
import proofs.«107007_j80882824118683_2_alg».proof.Proof.Spec
import proofs.«107007_j80882824118683_2_alg».proof.Proof.KBody0
import Idealize.ShloMosaic.PureOps.Ideal.Laws
import Idealize.ShloMosaic.Lib.Pipeline.Value
import Idealize.ShloMosaic.Lib.ValueLayout
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.Tactic
open scoped BigOperators

/-! ## Reading the body's stored blocks at an index -/

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of a tile's first-layer block at column `j`, from the tile's three feature blocks, the whole transposed
    weight and the bias row: the three groups contracted against their rows of the weight, plus the bias. -/
def blkLin (x0 : S4096x32.Idx → EReal) (x1 : S4096x16.Idx → EReal) (x2 : S4096x392.Idx → EReal) (x3 : S440x256.Idx → EReal)
    (x4 : S1x256.Idx → EReal) (p : Fin 4096) (j : Fin 256) : EReal :=
  (((∑ k : Fin 32, x0 (ix2 p k) * x3 (ix2 (Spec.colS k) j)) + (∑ k : Fin 16, x1 (ix2 p k) * x3 (ix2 (Spec.colC k) j)))
      + (∑ k : Fin 392, x2 (ix2 p k) * x3 (ix2 (Spec.colX k) j))) + x4 (ix2 0 j)

/-- The store to row 0, made last, leaves its payload on row 0 whatever was stored before. -/
theorem canon_row0 {Val : EltTy → Type} [∀ e, Nonempty (Val e)]
    (inb : ∀ a, (![0, 0, 0] : Fin 3 → Nat) a + S1x1x256.size a ≤ S1x8x256.size a)
    (w : S1x1x256.Idx → Val .f32) (L : List (View.Piece Val S1x8x256 .f32)) (j : Fin 256) :
    View.canon ((⟨Rect.unit (s := S1x8x256) ![0, 0, 0] S1x1x256.size inb, w⟩ : View.Piece Val S1x8x256 .f32) :: L) (ix3 0 0 j)
      = w (ix3 0 0 j) := by
  have e := View.canon_cons_emb (Val := Val) (Rect.unit (s := S1x8x256) ![0, 0, 0] S1x1x256.size inb) w L (ix3 0 0 j)
  have hi : (Rect.unit (s := S1x8x256) ![0, 0, 0] S1x1x256.size inb).emb (ix3 0 0 j) = ix3 0 0 j :=
    funext fun a => Fin.ext (by
      match a with
      | ⟨0, _⟩ => rfl
      | ⟨1, _⟩ => rfl
      | ⟨2, _⟩ => show 0 + 1 * j.val = j.val; omega)
  rw [hi] at e
  exact e

/-- A load of row 0 reads the contents on row 0. -/
theorem ld_row0 {Val : EltTy → Type} (inb : ∀ a, (![0, 0, 0] : Fin 3 → Nat) a + S1x1x256.size a ≤ S1x8x256.size a)
    (X : S1x8x256.Idx → Val .f32) (j : Fin 256) :
    View.ld X (Rect.unit (s := S1x8x256) ![0, 0, 0] S1x1x256.size inb) (ix3 0 0 j) = X (ix3 0 0 j) :=
  congrArg X (funext fun a => Fin.ext (by
    match a with
    | ⟨0, _⟩ => rfl
    | ⟨1, _⟩ => rfl
    | ⟨2, _⟩ => show 0 + 1 * j.val = j.val; omega))

/-- The column sums of a tile's block: the sum down the 4096 rows. -/
theorem colsum_apply (src : FVec Ideal S4096x256 .f32) (h : S4096x256.Reduces [0] S256) (hφ : FKind.Formats .f32)
    (hacc : (0x00000000#32 : BitVec 32) = 0x00000000#32) (j : Fin 256) :
    (multiReduction .add [0] S256 src 0x00000000#32 h hφ hacc : S256.Idx → EReal) (ix1 j) = ∑ p : Fin 4096, src (ix2 p j) := by
  refine (Ideal.multiReduction_add_single src 0x00000000#32 h hφ hacc (ix1 j)).trans ?_
  refine Finset.sum_congr rfl fun p _ => congrArg src (funext fun a => Fin.ext ?_)
  match a with
  | ⟨0, _⟩ => rfl
  | ⟨1, _⟩ => rfl

/-- The zero block stored at a core's first tile is 0 everywhere. -/
theorem pay4_apply (y : S1x8x256.Idx) : (k0_pay4 (F := Ideal) : S1x8x256.Idx → EReal) y = 0 := Ideal.ofBits_zero_f32
theorem pay5_apply (y : S1x8x256.Idx) : (k0_pay5 (F := Ideal) : S1x8x256.Idx → EReal) y = 0 := Ideal.ofBits_zero_f32

/-- The value stored to row 0 of the first accumulator block: row 0 as it was plus the column sums of the tile's block. -/
theorem pay17_apply (v3 : Vec Ideal S4096x32 .bf16) (v5 : Vec Ideal S4096x16 .bf16) (v7 : Vec Ideal S4096x392 .bf16)
    (v9 : Vec Ideal S32x256 .bf16) (v11 : Vec Ideal S16x256 .bf16) (v13 : Vec Ideal S392x256 .bf16) (v20 : Vec Ideal S1x256 .f32)
    (v24 : Vec Ideal S1x1x256 .f32) (j : Fin 256) :
    (k0_pay1 (F := Ideal) (k0_pay7 v3 v5 v7 v9 v11 v13 v20 v24) : S1x1x256.Idx → EReal) (ix3 0 0 j)
      = v24 (ix3 0 0 j) + ∑ p : Fin 4096, (k0_pay6 (F := Ideal) v3 v5 v7 v9 v11 v13 v20 : S4096x256.Idx → EReal) (ix2 p j) := by
  unfold k0_pay1
  refine (shapeCast_ab_1ab_apply _ _ 0 0 j).trans ?_
  unfold k0_pay7
  refine congrArg₂ (· + ·) (shapeCast_1ab_ab_apply v24 _ 0 j) ?_
  refine (shapeCast_a_1a_apply _ _ 0 j).trans ?_
  exact colsum_apply _ _ _ _ j

/-- The value stored to row 0 of the second accumulator block: row 0 as it was plus the column sums of the squares. -/
theorem pay2_apply (v23 : FVec Ideal S4096x256 .f32) (v32 : Vec Ideal S1x1x256 .f32) (j : Fin 256) :
    (k0_pay2 (F := Ideal) v23 v32 : S1x1x256.Idx → EReal) (ix3 0 0 j)
      = v32 (ix3 0 0 j) + ∑ p : Fin 4096, v23 (ix2 p j) * v23 (ix2 p j) := by
  unfold k0_pay2
  refine (shapeCast_ab_1ab_apply _ _ 0 0 j).trans ?_
  refine congrArg₂ (· + ·) (shapeCast_1ab_ab_apply v32 _ 0 j) ?_
  refine (shapeCast_a_1a_apply _ _ 0 j).trans ?_
  exact colsum_apply _ _ _ _ j

/-- Row 0's rectangle places column `j` at (0, 0, j). -/
theorem row0_emb (inb : ∀ a, (![0, 0, 0] : Fin 3 → Nat) a + S1x1x256.size a ≤ S1x8x256.size a) (j : Fin 256) :
    (Rect.unit (s := S1x8x256) ![0, 0, 0] S1x1x256.size inb).emb (ix3 0 0 j) = ix3 0 0 j :=
  funext fun a => Fin.ext (by
    match a with
    | ⟨0, _⟩ => rfl
    | ⟨1, _⟩ => rfl
    | ⟨2, _⟩ => show 0 + 1 * j.val = j.val; omega)

/-- One store to row 0 over any contents leaves its payload on row 0. -/
theorem read_row0 {κ : Kind} {sp : Space} (v : View sig κ sp S1x8x256 .f32) (f : v.ty.Contents (Elt Ideal))
    (inb : ∀ a, (![0, 0, 0] : Fin 3 → Nat) a + S1x1x256.size a ≤ S1x8x256.size a)
    (w : S1x1x256.Idx → Elt Ideal .f32) (j : Fin 256) :
    v.read (Elt Ideal) (v.writes (Elt Ideal) f [(⟨Rect.unit (s := S1x8x256) ![0, 0, 0] S1x1x256.size inb, w⟩ : View.Piece (Elt Ideal) S1x8x256 .f32)]) (ix3 0 0 j)
      = w (ix3 0 0 j) := by
  have e := View.read_writes_cons_emb v f (Rect.unit (s := S1x8x256) ![0, 0, 0] S1x1x256.size inb) w [] (ix3 0 0 j)
  rw [row0_emb inb j] at e
  exact e

/-- A load of a rectangle of a whole rank-2 buffer holding `X` reads `X` at the rectangle's offsets plus the coordinates. -/
theorem readAt_unread2 {n0 n1 m0 m1 : Nat} {e : EltTy} (m : Memref sig .tc .vmem ⟨2, ![n0, n1]⟩ e) (hm : m.IsWhole)
    (X : (⟨2, ![n0, n1]⟩ : Shape).Idx → Elt Ideal e) (o0 o1 : Nat)
    (inb : ∀ a, (![o0, o1] : Fin 2 → Nat) a + (⟨2, ![m0, m1]⟩ : Shape).size a ≤ (⟨2, ![n0, n1]⟩ : Shape).size a)
    (p : Fin m0) (k : Fin m1) (p' : Fin n0) (k' : Fin n1) (h0 : p'.val = o0 + p.val) (h1 : k'.val = o1 + k.val) :
    View.readAt (Elt Ideal) m.view (Rect.unit (s := ⟨2, ![n0, n1]⟩) ![o0, o1] (⟨2, ![m0, m1]⟩ : Shape).size inb).toLoadRect (hm.unread X) (ix2 p k)
      = X (ix2 p' k') :=
  (congrFun (hm.read_unread X) _).trans (congrArg X (funext fun a => Fin.ext (by
    match a with
    | ⟨0, _⟩ => show o0 + 1 * p.val = p'.val; omega
    | ⟨1, _⟩ => show o1 + 1 * k.val = k'.val; omega)))

/-- The tile's first-layer block, computed from the loads of the whole staging buffers, at row `p` and column `j`. -/
theorem pay6_reads (arg2 : Memref sig .tc .vmem S4096x32 .bf16) (harg2 : arg2.IsWhole) (arg3 : Memref sig .tc .vmem S4096x16 .bf16) (harg3 : arg3.IsWhole) (arg4 : Memref sig .tc .vmem S4096x392 .bf16) (harg4 : arg4.IsWhole) (arg5 : Memref sig .tc .vmem S440x256 .bf16) (harg5 : arg5.IsWhole) (arg6 : Memref sig .tc .vmem S1x256 .f32) (harg6 : arg6.IsWhole)
    (i2 : ∀ a, (![0, 0] : Fin 2 → Nat) a + S4096x32.size a ≤ S4096x32.size a) (i3 : ∀ a, (![0, 0] : Fin 2 → Nat) a + S4096x16.size a ≤ S4096x16.size a)
    (i4 : ∀ a, (![0, 0] : Fin 2 → Nat) a + S4096x392.size a ≤ S4096x392.size a) (i50 : ∀ a, (![0, 0] : Fin 2 → Nat) a + S32x256.size a ≤ S440x256.size a)
    (i532 : ∀ a, (![32, 0] : Fin 2 → Nat) a + S16x256.size a ≤ S440x256.size a) (i548 : ∀ a, (![48, 0] : Fin 2 → Nat) a + S392x256.size a ≤ S440x256.size a)
    (i6 : ∀ a, (![0, 0] : Fin 2 → Nat) a + S1x256.size a ≤ S1x256.size a)
    (x0 : Vec Ideal S4096x32 .bf16) (x1 : Vec Ideal S4096x16 .bf16) (x2 : Vec Ideal S4096x392 .bf16) (x3 : Vec Ideal S440x256 .bf16) (x4 : Vec Ideal S1x256 .f32) (p : Fin 4096) (j : Fin 256) :
    (k0_pay6 (F := Ideal)
        (View.readAt (Elt Ideal) arg2.view (Rect.unit (s := S4096x32) ![0, 0] S4096x32.size i2).toLoadRect (harg2.unread x0))
        (View.readAt (Elt Ideal) arg3.view (Rect.unit (s := S4096x16) ![0, 0] S4096x16.size i3).toLoadRect (harg3.unread x1))
        (View.readAt (Elt Ideal) arg4.view (Rect.unit (s := S4096x392) ![0, 0] S4096x392.size i4).toLoadRect (harg4.unread x2))
        (View.readAt (Elt Ideal) arg5.view (Rect.unit (s := S440x256) ![0, 0] S32x256.size i50).toLoadRect (harg5.unread x3))
        (View.readAt (Elt Ideal) arg5.view (Rect.unit (s := S440x256) ![32, 0] S16x256.size i532).toLoadRect (harg5.unread x3))
        (View.readAt (Elt Ideal) arg5.view (Rect.unit (s := S440x256) ![48, 0] S392x256.size i548).toLoadRect (harg5.unread x3))
        (View.readAt (Elt Ideal) arg6.view (Rect.unit (s := S1x256) ![0, 0] S1x256.size i6).toLoadRect (harg6.unread x4))
        : S4096x256.Idx → EReal) (ix2 p j) = blkLin x0 x1 x2 x3 x4 p j := by
  refine (pay6_apply _ _ _ _ _ _ _ p j).trans ?_
  unfold blkLin
  have e0 : ∀ k : Fin 32, View.readAt (Elt Ideal) arg2.view (Rect.unit (s := S4096x32) ![0, 0] S4096x32.size i2).toLoadRect (harg2.unread x0) (ix2 p k) = x0 (ix2 p k) :=
    fun k => readAt_unread2 arg2 harg2 x0 0 0 i2 p k p k (by omega) (by omega)
  have e1 : ∀ k : Fin 16, View.readAt (Elt Ideal) arg3.view (Rect.unit (s := S4096x16) ![0, 0] S4096x16.size i3).toLoadRect (harg3.unread x1) (ix2 p k) = x1 (ix2 p k) :=
    fun k => readAt_unread2 arg3 harg3 x1 0 0 i3 p k p k (by omega) (by omega)
  have e2 : ∀ k : Fin 392, View.readAt (Elt Ideal) arg4.view (Rect.unit (s := S4096x392) ![0, 0] S4096x392.size i4).toLoadRect (harg4.unread x2) (ix2 p k) = x2 (ix2 p k) :=
    fun k => readAt_unread2 arg4 harg4 x2 0 0 i4 p k p k (by omega) (by omega)
  have w0 : ∀ k : Fin 32, View.readAt (Elt Ideal) arg5.view (Rect.unit (s := S440x256) ![0, 0] S32x256.size i50).toLoadRect (harg5.unread x3) (ix2 k j) = x3 (ix2 (Spec.colS k) j) :=
    fun k => readAt_unread2 arg5 harg5 x3 0 0 i50 k j (Spec.colS k) j (by show k.val = 0 + k.val; omega) (by omega)
  have w1 : ∀ k : Fin 16, View.readAt (Elt Ideal) arg5.view (Rect.unit (s := S440x256) ![32, 0] S16x256.size i532).toLoadRect (harg5.unread x3) (ix2 k j) = x3 (ix2 (Spec.colC k) j) :=
    fun k => readAt_unread2 arg5 harg5 x3 32 0 i532 k j (Spec.colC k) j (by show 32 + k.val = 32 + k.val; rfl) (by omega)
  have w2 : ∀ k : Fin 392, View.readAt (Elt Ideal) arg5.view (Rect.unit (s := S440x256) ![48, 0] S392x256.size i548).toLoadRect (harg5.unread x3) (ix2 k j) = x3 (ix2 (Spec.colX k) j) :=
    fun k => readAt_unread2 arg5 harg5 x3 48 0 i548 k j (Spec.colX k) j (by show 48 + k.val = 48 + k.val; rfl) (by omega)
  have b0 : View.readAt (Elt Ideal) arg6.view (Rect.unit (s := S1x256) ![0, 0] S1x256.size i6).toLoadRect (harg6.unread x4) (ix2 0 j) = x4 (ix2 0 j) :=
    readAt_unread2 arg6 harg6 x4 0 0 i6 0 j 0 j (by omega) (by omega)
  refine congrArg₂ (· + ·) (congrArg₂ (· + ·) (congrArg₂ (· + ·) ?_ ?_) ?_) b0
  · exact Finset.sum_congr rfl fun k _ => congrArg₂ (· * ·) (e0 k) (w0 k)
  · exact Finset.sum_congr rfl fun k _ => congrArg₂ (· * ·) (e1 k) (w1 k)
  · exact Finset.sum_congr rfl fun k _ => congrArg₂ (· * ·) (e2 k) (w2 k)

/-! ## What each control case leaves on row 0 of the two accumulator blocks -/

/-- A core's first tile, first accumulator: the zero block, then row 0 overwritten with 0 plus the tile's column sums. -/
theorem out_A_6_apply (c : Dev nD) (i : grid0.Coords) (arg2 : Memref sig .tc .vmem S4096x32 .bf16) (harg2 : arg2.IsWhole) (arg3 : Memref sig .tc .vmem S4096x16 .bf16) (harg3 : arg3.IsWhole) (arg4 : Memref sig .tc .vmem S4096x392 .bf16) (harg4 : arg4.IsWhole) (arg5 : Memref sig .tc .vmem S440x256 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x8x256 .f32) (harg8 : arg8.IsWhole) (arg9 : Memref sig .tc .vmem S1x8x256 .f32) (harg9 : arg9.IsWhole) (hc0 : cond0_0 i) (x0 : Vec Ideal S4096x32 .bf16) (x1 : Vec Ideal S4096x16 .bf16) (x2 : Vec Ideal S4096x392 .bf16) (x3 : Vec Ideal S440x256 .bf16) (x4 : Vec Ideal S1x256 .f32) (j : Fin 256) :
    (out0_A_6 (F := Ideal) c i arg2 harg2 arg3 harg3 arg4 harg4 arg5 harg5 arg6 harg6 arg7 harg7 arg8 harg8 arg9 harg9 hc0 x0 x1 x2 x3 x4 : S1x8x256.Idx → EReal) (ix3 0 0 j)
      = 0 + ∑ p : Fin 4096, blkLin x0 x1 x2 x3 x4 p j := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  refine (canon_row0 _ _ _ j).trans ?_
  refine (pay17_apply _ _ _ _ _ _ _ _ j).trans ?_
  refine congrArg₂ (· + ·) ?_ (Finset.sum_congr rfl fun p _ => pay6_reads arg2 harg2 arg3 harg3 arg4 harg4 arg5 harg5 arg6 harg6 _ _ _ _ _ _ _ x0 x1 x2 x3 x4 p j)
  refine (congrFun (View.readCov_eq_canon' _ _ _) _).trans ?_
  refine (congrFun (View.canon_unit_zero hz3 _ _) _).trans ?_
  exact pay4_apply _

/-- A core's later tiles, first accumulator: row 0 as the tile before left it plus the tile's column sums. -/
theorem out_B_6_apply (c : Dev nD) (i : grid0.Coords) (arg2 : Memref sig .tc .vmem S4096x32 .bf16) (harg2 : arg2.IsWhole) (arg3 : Memref sig .tc .vmem S4096x16 .bf16) (harg3 : arg3.IsWhole) (arg4 : Memref sig .tc .vmem S4096x392 .bf16) (harg4 : arg4.IsWhole) (arg5 : Memref sig .tc .vmem S440x256 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x8x256 .f32) (harg8 : arg8.IsWhole) (arg9 : Memref sig .tc .vmem S1x8x256 .f32) (harg9 : arg9.IsWhole) (hc0 : ¬cond0_0 i) (x0 : Vec Ideal S4096x32 .bf16) (x1 : Vec Ideal S4096x16 .bf16) (x2 : Vec Ideal S4096x392 .bf16) (x3 : Vec Ideal S440x256 .bf16) (x4 : Vec Ideal S1x256 .f32) (xo6 : Vec Ideal S1x8x256 .f32) (xo7 : Vec Ideal S1x8x256 .f32) (j : Fin 256) :
    (out0_B_6 (F := Ideal) c i arg2 harg2 arg3 harg3 arg4 harg4 arg5 harg5 arg6 harg6 arg7 harg7 arg8 harg8 arg9 harg9 hc0 x0 x1 x2 x3 x4 xo6 xo7 : S1x8x256.Idx → EReal) (ix3 0 0 j)
      = xo6 (ix3 0 0 j) + ∑ p : Fin 4096, blkLin x0 x1 x2 x3 x4 p j := by
  unfold out0_B_6
  unfold kernelRun0_B
  dsimp only
  sl_unfold_words
  refine (read_row0 _ _ _ _ j).trans ?_
  refine (pay17_apply _ _ _ _ _ _ _ _ j).trans ?_
  refine congrArg₂ (· + ·) ?_ (Finset.sum_congr rfl fun p _ => pay6_reads arg2 harg2 arg3 harg3 arg4 harg4 arg5 harg5 arg6 harg6 _ _ _ _ _ _ _ x0 x1 x2 x3 x4 p j)
  exact (congrFun (harg8.read_unread xo6) _).trans (ld_row0 _ xo6 j)

/-- A core's first tile, second accumulator: the zero block, then row 0 overwritten with 0 plus the column sums of the squares. -/
theorem out_A_7_apply (c : Dev nD) (i : grid0.Coords) (arg2 : Memref sig .tc .vmem S4096x32 .bf16) (harg2 : arg2.IsWhole) (arg3 : Memref sig .tc .vmem S4096x16 .bf16) (harg3 : arg3.IsWhole) (arg4 : Memref sig .tc .vmem S4096x392 .bf16) (harg4 : arg4.IsWhole) (arg5 : Memref sig .tc .vmem S440x256 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x8x256 .f32) (harg8 : arg8.IsWhole) (arg9 : Memref sig .tc .vmem S1x8x256 .f32) (harg9 : arg9.IsWhole) (hc0 : cond0_0 i) (x0 : Vec Ideal S4096x32 .bf16) (x1 : Vec Ideal S4096x16 .bf16) (x2 : Vec Ideal S4096x392 .bf16) (x3 : Vec Ideal S440x256 .bf16) (x4 : Vec Ideal S1x256 .f32) (j : Fin 256) :
    (out0_A_7 (F := Ideal) c i arg2 harg2 arg3 harg3 arg4 harg4 arg5 harg5 arg6 harg6 arg7 harg7 arg8 harg8 arg9 harg9 hc0 x0 x1 x2 x3 x4 : S1x8x256.Idx → EReal) (ix3 0 0 j)
      = 0 + ∑ p : Fin 4096, blkLin x0 x1 x2 x3 x4 p j * blkLin x0 x1 x2 x3 x4 p j := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  refine (canon_row0 _ _ _ j).trans ?_
  refine (pay2_apply _ _ j).trans ?_
  refine congrArg₂ (· + ·) ?_ (Finset.sum_congr rfl fun p _ => congrArg₂ (· * ·)
    (pay6_reads arg2 harg2 arg3 harg3 arg4 harg4 arg5 harg5 arg6 harg6 _ _ _ _ _ _ _ x0 x1 x2 x3 x4 p j)
    (pay6_reads arg2 harg2 arg3 harg3 arg4 harg4 arg5 harg5 arg6 harg6 _ _ _ _ _ _ _ x0 x1 x2 x3 x4 p j))
  refine (congrFun (View.readCov_eq_canon' _ _ _) _).trans ?_
  refine (congrFun (View.canon_unit_zero hz3 _ _) _).trans ?_
  exact pay5_apply _

/-- A core's later tiles, second accumulator: row 0 as the tile before left it plus the column sums of the squares. -/
theorem out_B_7_apply (c : Dev nD) (i : grid0.Coords) (arg2 : Memref sig .tc .vmem S4096x32 .bf16) (harg2 : arg2.IsWhole) (arg3 : Memref sig .tc .vmem S4096x16 .bf16) (harg3 : arg3.IsWhole) (arg4 : Memref sig .tc .vmem S4096x392 .bf16) (harg4 : arg4.IsWhole) (arg5 : Memref sig .tc .vmem S440x256 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x8x256 .f32) (harg8 : arg8.IsWhole) (arg9 : Memref sig .tc .vmem S1x8x256 .f32) (harg9 : arg9.IsWhole) (hc0 : ¬cond0_0 i) (x0 : Vec Ideal S4096x32 .bf16) (x1 : Vec Ideal S4096x16 .bf16) (x2 : Vec Ideal S4096x392 .bf16) (x3 : Vec Ideal S440x256 .bf16) (x4 : Vec Ideal S1x256 .f32) (xo6 : Vec Ideal S1x8x256 .f32) (xo7 : Vec Ideal S1x8x256 .f32) (j : Fin 256) :
    (out0_B_7 (F := Ideal) c i arg2 harg2 arg3 harg3 arg4 harg4 arg5 harg5 arg6 harg6 arg7 harg7 arg8 harg8 arg9 harg9 hc0 x0 x1 x2 x3 x4 xo6 xo7 : S1x8x256.Idx → EReal) (ix3 0 0 j)
      = xo7 (ix3 0 0 j) + ∑ p : Fin 4096, blkLin x0 x1 x2 x3 x4 p j * blkLin x0 x1 x2 x3 x4 p j := by
  unfold out0_B_7
  unfold kernelRun0_B
  dsimp only
  sl_unfold_words
  refine (read_row0 _ _ _ _ j).trans ?_
  refine (pay2_apply _ _ j).trans ?_
  refine congrArg₂ (· + ·) ?_ (Finset.sum_congr rfl fun p _ => congrArg₂ (· * ·)
    (pay6_reads arg2 harg2 arg3 harg3 arg4 harg4 arg5 harg5 arg6 harg6 _ _ _ _ _ _ _ x0 x1 x2 x3 x4 p j)
    (pay6_reads arg2 harg2 arg3 harg3 arg4 harg4 arg5 harg5 arg6 harg6 _ _ _ _ _ _ _ x0 x1 x2 x3 x4 p j))
  exact (congrFun (harg9.read_unread xo7) _).trans (ld_row0 _ xo7 j)

end Cert.KernelIdeal.Region0

end
-- ==== Proof.KRegion0AccAux2.lean ====
/-
  The first kernel's input blocks at a grid point, read where they sit in the arrays the region finds: tile t's three
  feature blocks are rows 4096·t … 4096·t + 4095 of the feature arrays (a block's coordinate is the block index times
  the block size plus the coordinate inside), the weight and the bias are whole at every tile. Hence row p of tile t's
  first-layer block is the first layer's output at row 4096·t + p.
-/
import proofs.«107007_j80882824118683_2_alg».proof.Proof.KRegion0AccAux1

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.Tactic
open scoped BigOperators

variable (V : (c : Dev nD) → (b : Ref sig .tc) → Buf (Elt Ideal) ((c : Thread nD τ).loc b))

/-! ## The tile's input blocks, read where they sit in the arrays -/

/-- The printed index maps, decided once over the sixteen grid points: tile `t` reads row block `t` of the three
    feature arrays, the whole weight and bias; cores' accumulator blocks are indexed by `t / 8`. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0)
    ∧ (win0_6.index t 0 = t.val / 8 ∧ win0_6.index t 1 = 0 ∧ win0_6.index t 2 = 0)
    ∧ (win0_7.index t 0 = t.val / 8 ∧ win0_7.index t 1 = 0 ∧ win0_7.index t 2 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0)
    ∧ (win0_6.index t 0 = t.val / 8 ∧ win0_6.index t 1 = 0 ∧ win0_6.index t 2 = 0)
    ∧ (win0_7.index t 0 = t.val / 8 ∧ win0_7.index t 1 = 0 ∧ win0_7.index t 2 = 0))

theorem lt16 (t : Fin cfg0.N) : t.val < 16 := lt_of_lt_of_eq t.isLt (show cfg0.N = 16 from N_0)

/-- Tile `t`'s block of the first feature group is rows 4096·t … of the array. -/
theorem iblk_0_apply (c : Dev nD) (t : Fin cfg0.N) (p : Fin 4096) (k : Fin 32) :
    (iblk0 (F := Ideal) V c 0 t : S4096x32.Idx → EReal) (ix2 p k)
      = (V c main_v17 : S65536x32.Idx → EReal) (ix2 (Spec.tileRow ⟨t.val, lt16 t⟩ p) k) := by
  have hi := (idx_facts t).1
  unfold iblk0
  rw [View.read_apply]
  show V c main_v17 _ = V c main_v17 _
  refine congrArg (V c main_v17) (funext fun a => Fin.ext ?_)
  match a with
  | ⟨0, _⟩ => show win0_0.index t 0 * 4096 + 1 * p.val = t.val * 4096 + p.val; rw [hi.1]; omega
  | ⟨1, _⟩ => show win0_0.index t 1 * 32 + 1 * k.val = k.val; rw [hi.2]; omega

theorem iblk_1_apply (c : Dev nD) (t : Fin cfg0.N) (p : Fin 4096) (k : Fin 16) :
    (iblk0 (F := Ideal) V c 1 t : S4096x16.Idx → EReal) (ix2 p k)
      = (V c main_v25 : S65536x16.Idx → EReal) (ix2 (Spec.tileRow ⟨t.val, lt16 t⟩ p) k) := by
  have hi := (idx_facts t).2.1
  unfold iblk0
  rw [View.read_apply]
  show V c main_v25 _ = V c main_v25 _
  refine congrArg (V c main_v25) (funext fun a => Fin.ext ?_)
  match a with
  | ⟨0, _⟩ => show win0_1.index t 0 * 4096 + 1 * p.val = t.val * 4096 + p.val; rw [hi.1]; omega
  | ⟨1, _⟩ => show win0_1.index t 1 * 16 + 1 * k.val = k.val; rw [hi.2]; omega

theorem iblk_2_apply (c : Dev nD) (t : Fin cfg0.N) (p : Fin 4096) (k : Fin 392) :
    (iblk0 (F := Ideal) V c 2 t : S4096x392.Idx → EReal) (ix2 p k)
      = (V c main_v9 : S65536x392.Idx → EReal) (ix2 (Spec.tileRow ⟨t.val, lt16 t⟩ p) k) := by
  have hi := (idx_facts t).2.2.1
  unfold iblk0
  rw [View.read_apply]
  show V c main_v9 _ = V c main_v9 _
  refine congrArg (V c main_v9) (funext fun a => Fin.ext ?_)
  match a with
  | ⟨0, _⟩ => show win0_2.index t 0 * 4096 + 1 * p.val = t.val * 4096 + p.val; rw [hi.1]; omega
  | ⟨1, _⟩ => show win0_2.index t 1 * 392 + 1 * k.val = k.val; rw [hi.2]; omega

/-- The weight's block is the whole transposed weight at every tile. -/
theorem iblk_3_apply (c : Dev nD) (t : Fin cfg0.N) (k : Fin 440) (j : Fin 256) :
    (iblk0 (F := Ideal) V c 3 t : S440x256.Idx → EReal) (ix2 k j) = (V c main_v27 : S440x256.Idx → EReal) (ix2 k j) := by
  have hi := (idx_facts t).2.2.2.1
  unfold iblk0
  rw [View.read_apply]
  show V c main_v27 _ = V c main_v27 _
  refine congrArg (V c main_v27) (funext fun a => Fin.ext ?_)
  match a with
  | ⟨0, _⟩ => show win0_3.index t 0 * 440 + 1 * k.val = k.val; rw [hi.1]; omega
  | ⟨1, _⟩ => show win0_3.index t 1 * 256 + 1 * j.val = j.val; rw [hi.2]; omega

/-- The bias's block is the whole bias row at every tile. -/
theorem iblk_4_apply (c : Dev nD) (t : Fin cfg0.N) (j : Fin 256) :
    (iblk0 (F := Ideal) V c 4 t : S1x256.Idx → EReal) (ix2 0 j) = (V c main_v28 : S1x256.Idx → EReal) (ix2 0 j) := by
  have hi := (idx_facts t).2.2.2.2.1
  unfold iblk0
  rw [View.read_apply]
  show V c main_v28 _ = V c main_v28 _
  refine congrArg (V c main_v28) (funext fun a => Fin.ext ?_)
  match a with
  | ⟨0, _⟩ => show win0_4.index t 0 * 1 + 1 * 0 = 0; rw [hi.1]
  | ⟨1, _⟩ => show win0_4.index t 1 * 256 + 1 * j.val = j.val; rw [hi.2]; omega

/-- So row `p` of tile `t`'s first-layer block is the first layer's output at row 4096·t + p. -/
theorem tile_lin (c : Dev nD) (t : Fin cfg0.N) (p : Fin 4096) (j : Fin 256) :
    blkLin (iblk0 (F := Ideal) V c 0 t) (iblk0 (F := Ideal) V c 1 t) (iblk0 (F := Ideal) V c 2 t) (iblk0 (F := Ideal) V c 3 t)
        (iblk0 (F := Ideal) V c 4 t) p j
      = h1 V c (Spec.tileRow ⟨t.val, lt16 t⟩ p) j := by
  unfold blkLin h1 Spec.lin1Split
  refine congrArg₂ (· + ·) (congrArg₂ (· + ·) (congrArg₂ (· + ·) ?_ ?_) ?_) (iblk_4_apply V c t j)
  · exact Finset.sum_congr rfl fun k _ => congrArg₂ (· * ·) (iblk_0_apply V c t p k) (iblk_3_apply V c t (Spec.colS k) j)
  · exact Finset.sum_congr rfl fun k _ => congrArg₂ (· * ·) (iblk_1_apply V c t p k) (iblk_3_apply V c t (Spec.colC k) j)
  · exact Finset.sum_congr rfl fun k _ => congrArg₂ (· * ·) (iblk_2_apply V c t p k) (iblk_3_apply V c t (Spec.colX k) j)

end Cert.KernelIdeal.Region0

end
-- ==== Proof.KRegion0Acc.lean ====
/-
  The first pallas_call's two accumulator arrays read as values, at the ideal instance, from ANY contents `V` of the
  TensorCore's buffers at the region's entry. Each core owns one [8, 256] block of each accumulator array; the block
  stays in its staging buffer over the core's eight grid points and is written back when the core changes. At a
  core's first tile the block is zeroed; at every tile row 0 is read, the tile's column sums (of the first layer's
  block, respectively of its squares) are added, and row 0 is stored back. So after the region row 0 of core c's
  block holds the sum over that core's eight tiles of the tile's column sums.
-/
import proofs.«107007_j80882824118683_2_alg».proof.Proof.Gen.KernelIdeal.Frame
import proofs.«107007_j80882824118683_2_alg».proof.Proof.Spec
import proofs.«107007_j80882824118683_2_alg».proof.Proof.KBody0
import proofs.«107007_j80882824118683_2_alg».proof.Proof.KRegion0AccAux2

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The accumulation over a core's eight tiles -/

/-- Tile `n`'s column sums of the first layer's output (0 past the grid's sixteen tiles, never used). -/
def tileSum (c : Dev nD) (n : Nat) (j : Fin 256) : EReal :=
  if h : n < 16 then ∑ p : Fin 4096, h1 V c (Spec.tileRow ⟨n, h⟩ p) j else 0

/-- Tile `n`'s column sums of the squares. -/
def tileSumSq (c : Dev nD) (n : Nat) (j : Fin 256) : EReal :=
  if h : n < 16 then ∑ p : Fin 4096, h1 V c (Spec.tileRow ⟨n, h⟩ p) j * h1 V c (Spec.tileRow ⟨n, h⟩ p) j else 0

theorem tile_sum (c : Dev nD) (t : Fin cfg0.N) (j : Fin 256) :
    ∑ p : Fin 4096, blkLin (iblk0 (F := Ideal) V c 0 t) (iblk0 (F := Ideal) V c 1 t) (iblk0 (F := Ideal) V c 2 t) (iblk0 (F := Ideal) V c 3 t) (iblk0 (F := Ideal) V c 4 t) p j = tileSum V c t.val j := by
  unfold tileSum
  rw [dif_pos (lt16 t)]
  exact Finset.sum_congr rfl fun p _ => tile_lin V c t p j

theorem tile_sum_sq (c : Dev nD) (t : Fin cfg0.N) (j : Fin 256) :
    ∑ p : Fin 4096, blkLin (iblk0 (F := Ideal) V c 0 t) (iblk0 (F := Ideal) V c 1 t) (iblk0 (F := Ideal) V c 2 t) (iblk0 (F := Ideal) V c 3 t) (iblk0 (F := Ideal) V c 4 t) p j * blkLin (iblk0 (F := Ideal) V c 0 t) (iblk0 (F := Ideal) V c 1 t) (iblk0 (F := Ideal) V c 2 t) (iblk0 (F := Ideal) V c 3 t) (iblk0 (F := Ideal) V c 4 t) p j = tileSumSq V c t.val j := by
  unfold tileSumSq
  rw [dif_pos (lt16 t)]
  exact Finset.sum_congr rfl fun p _ => congrArg₂ (· * ·) (tile_lin V c t p j) (tile_lin V c t p j)

/- After a core's tile `s` (the point `t` = 8·core + s) row 0 of its first accumulator block holds the column sums of
   the core's tiles 0 … s: the first tile stores 0 plus its sums, each later one adds its own to what is there. -/
theorem acc6 (c : Dev nD) (core : Fin 2) : ∀ (s : Nat) (hs : s < 8) (t : Fin cfg0.N) (ht : t.val = core.val * 8 + s) (j : Fin 256),
    ((outsAt0 (F := Ideal) V c t.val t.isLt).2.1 : S1x8x256.Idx → EReal) (ix3 0 0 j)
      = 0 + ∑ u ∈ Finset.range (s + 1), tileSum V c (core.val * 8 + u) j
  | 0, hs, t, ht, j => by
    have h0 : t.val % 8 = 0 := by omega
    refine (congrArg (fun o : Vec Ideal S4096x256 .bf16 × Vec Ideal S1x8x256 .f32 × Vec Ideal S1x8x256 .f32 => (o.2.1 : S1x8x256.Idx → EReal) (ix3 0 0 j)) (outsAt0_A V c t h0)).trans ?_
    dsimp only
    refine (out_A_6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 (F := Ideal) V c 0 t) (iblk0 (F := Ideal) V c 1 t) (iblk0 (F := Ideal) V c 2 t) (iblk0 (F := Ideal) V c 3 t) (iblk0 (F := Ideal) V c 4 t) j).trans ?_
    rw [Finset.sum_range_one, ← ht]
    exact congrArg (0 + ·) (tile_sum V c t j)
  | s + 1, hs, t, ht, j => by
    have hB : ¬t.val % 8 = 0 := by omega
    have hN : t.val < 16 := lt16 t
    have ht' : (⟨t.val - 1, Nat.lt_of_le_of_lt (Nat.sub_le _ _) t.isLt⟩ : Fin cfg0.N).val = core.val * 8 + s := by
      show t.val - 1 = core.val * 8 + s; omega
    refine (congrArg (fun o : Vec Ideal S4096x256 .bf16 × Vec Ideal S1x8x256 .f32 × Vec Ideal S1x8x256 .f32 => (o.2.1 : S1x8x256.Idx → EReal) (ix3 0 0 j)) (outsAt0_B V c t hB)).trans ?_
    dsimp only
    refine (out_B_6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => hB ((hcond0_0 t).mp h)) (iblk0 (F := Ideal) V c 0 t) (iblk0 (F := Ideal) V c 1 t) (iblk0 (F := Ideal) V c 2 t) (iblk0 (F := Ideal) V c 3 t) (iblk0 (F := Ideal) V c 4 t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2 j).trans ?_
    rw [Finset.sum_range_succ _ (s + 1), ← add_assoc, ← ht]
    exact congrArg₂ (· + ·) (acc6 c core s (Nat.lt_of_succ_lt hs) ⟨t.val - 1, Nat.lt_of_le_of_lt (Nat.sub_le _ _) t.isLt⟩ ht' j) (tile_sum V c t j)

/- The same for the second accumulator block and the squares. -/
theorem acc7 (c : Dev nD) (core : Fin 2) : ∀ (s : Nat) (hs : s < 8) (t : Fin cfg0.N) (ht : t.val = core.val * 8 + s) (j : Fin 256),
    ((outsAt0 (F := Ideal) V c t.val t.isLt).2.2 : S1x8x256.Idx → EReal) (ix3 0 0 j)
      = 0 + ∑ u ∈ Finset.range (s + 1), tileSumSq V c (core.val * 8 + u) j
  | 0, hs, t, ht, j => by
    have h0 : t.val % 8 = 0 := by omega
    refine (congrArg (fun o : Vec Ideal S4096x256 .bf16 × Vec Ideal S1x8x256 .f32 × Vec Ideal S1x8x256 .f32 => (o.2.2 : S1x8x256.Idx → EReal) (ix3 0 0 j)) (outsAt0_A V c t h0)).trans ?_
    dsimp only
    refine (out_A_7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 (F := Ideal) V c 0 t) (iblk0 (F := Ideal) V c 1 t) (iblk0 (F := Ideal) V c 2 t) (iblk0 (F := Ideal) V c 3 t) (iblk0 (F := Ideal) V c 4 t) j).trans ?_
    rw [Finset.sum_range_one, ← ht]
    exact congrArg (0 + ·) (tile_sum_sq V c t j)
  | s + 1, hs, t, ht, j => by
    have hB : ¬t.val % 8 = 0 := by omega
    have hN : t.val < 16 := lt16 t
    have ht' : (⟨t.val - 1, Nat.lt_of_le_of_lt (Nat.sub_le _ _) t.isLt⟩ : Fin cfg0.N).val = core.val * 8 + s := by
      show t.val - 1 = core.val * 8 + s; omega
    refine (congrArg (fun o : Vec Ideal S4096x256 .bf16 × Vec Ideal S1x8x256 .f32 × Vec Ideal S1x8x256 .f32 => (o.2.2 : S1x8x256.Idx → EReal) (ix3 0 0 j)) (outsAt0_B V c t hB)).trans ?_
    dsimp only
    refine (out_B_7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => hB ((hcond0_0 t).mp h)) (iblk0 (F := Ideal) V c 0 t) (iblk0 (F := Ideal) V c 1 t) (iblk0 (F := Ideal) V c 2 t) (iblk0 (F := Ideal) V c 3 t) (iblk0 (F := Ideal) V c 4 t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2 j).trans ?_
    rw [Finset.sum_range_succ _ (s + 1), ← add_assoc, ← ht]
    exact congrArg₂ (· + ·) (acc7 c core s (Nat.lt_of_succ_lt hs) ⟨t.val - 1, Nat.lt_of_le_of_lt (Nat.sub_le _ _) t.isLt⟩ ht' j) (tile_sum_sq V c t j)

/-! ## The two arrays after the region -/

theorem last_lt (q : Nat) (hq : q < 2) : q * 8 + 7 < cfg0.N := by rw [show cfg0.N = 16 from N_0]; omega

theorem outs_congr_6 (c : Dev nD) {n n' : Nat} (e : n = n') (h : n < cfg0.N) (h' : n' < cfg0.N) (i i' : S1x8x256.Idx) (ei : i = i') :
    ((outsAt0 (F := Ideal) V c n h).2.1 : S1x8x256.Idx → EReal) i = ((outsAt0 (F := Ideal) V c n' h').2.1 : S1x8x256.Idx → EReal) i' := by
  subst e; subst ei; rfl

theorem outs_congr_7 (c : Dev nD) {n n' : Nat} (e : n = n') (h : n < cfg0.N) (h' : n' < cfg0.N) (i i' : S1x8x256.Idx) (ei : i = i') :
    ((outsAt0 (F := Ideal) V c n h).2.2 : S1x8x256.Idx → EReal) i = ((outsAt0 (F := Ideal) V c n' h').2.2 : S1x8x256.Idx → EReal) i' := by
  subst e; subst ei; rfl

/-- The first accumulator array as the region leaves it: core q's block is what the staging buffer holds after the core's last tile (point 8·q + 7), the only point of the core that writes the block back. -/
def G6 (c : Dev nD) : S2x8x256.Idx → EReal := fun i =>
  ((outsAt0 (F := Ideal) V c ((i 0).val * 8 + 7) (last_lt (i 0).val (i 0).isLt)).2.1 : S1x8x256.Idx → EReal)
    (ix3 (0 : Fin 1) (⟨(i 1).val, (i 1).isLt⟩ : Fin 8) (⟨(i 2).val, (i 2).isLt⟩ : Fin 256))

/-- What a core's last tile writes back is that core's block of it. -/
theorem flushed6 (c : Dev nD) (t : Fin cfg0.N) (hf : (cfg0.win 6).flush t = true) :
    (dat0 (F := Ideal) V c).flushed 6 t = ((cfg0.win 6).blk t).view.read (Elt Ideal) (G6 V c) := by
  have h7 : t.val % 8 = 7 := (flush0_6 t).mp hf
  have hi := (idx_facts t).2.2.2.2.2.1
  show (cfg0.win 6).cut (grid0.coords t) ((dat0 (F := Ideal) V c).after 6 t) = _
  rw [after0_6]
  funext y
  rw [View.read_apply]
  show ((outsAt0 (F := Ideal) V c t.val t.isLt).2.1 : S1x8x256.Idx → EReal) _ = G6 V c _
  unfold G6
  have hy0 : (y 0).val = 0 := by have h : (y 0).val < 1 := (y 0).isLt; omega
  have e0 : t.val = ((((cfg0.win 6).blk t).view.emb y) 0).val * 8 + 7 := by
    show t.val = (win0_6.index t 0 * 1 + 1 * (y 0).val) * 8 + 7
    rw [hi.1, hy0]; omega
  refine outs_congr_6 V c e0 _ _ _ _ (funext fun a => Fin.ext ?_)
  match a with
  | ⟨0, _⟩ => exact hy0
  | ⟨1, _⟩ => show (y 1).val = win0_6.index t 1 * 8 + 1 * (y 1).val; rw [hi.2.1]; omega
  | ⟨2, _⟩ => show (y 2).val = win0_6.index t 2 * 256 + 1 * (y 2).val; rw [hi.2.2]; omega

/-- The second accumulator array as the region leaves it, likewise. -/
def G7 (c : Dev nD) : S2x8x256.Idx → EReal := fun i =>
  ((outsAt0 (F := Ideal) V c ((i 0).val * 8 + 7) (last_lt (i 0).val (i 0).isLt)).2.2 : S1x8x256.Idx → EReal)
    (ix3 (0 : Fin 1) (⟨(i 1).val, (i 1).isLt⟩ : Fin 8) (⟨(i 2).val, (i 2).isLt⟩ : Fin 256))

/-- What a core's last tile writes back is that core's block of it. -/
theorem flushed7 (c : Dev nD) (t : Fin cfg0.N) (hf : (cfg0.win 7).flush t = true) :
    (dat0 (F := Ideal) V c).flushed 7 t = ((cfg0.win 7).blk t).view.read (Elt Ideal) (G7 V c) := by
  have h7 : t.val % 8 = 7 := (flush0_7 t).mp hf
  have hi := (idx_facts t).2.2.2.2.2.2
  show (cfg0.win 7).cut (grid0.coords t) ((dat0 (F := Ideal) V c).after 7 t) = _
  rw [after0_7]
  funext y
  rw [View.read_apply]
  show ((outsAt0 (F := Ideal) V c t.val t.isLt).2.2 : S1x8x256.Idx → EReal) _ = G7 V c _
  unfold G7
  have hy0 : (y 0).val = 0 := by have h : (y 0).val < 1 := (y 0).isLt; omega
  have e0 : t.val = ((((cfg0.win 7).blk t).view.emb y) 0).val * 8 + 7 := by
    show t.val = (win0_7.index t 0 * 1 + 1 * (y 0).val) * 8 + 7
    rw [hi.1, hy0]; omega
  refine outs_congr_7 V c e0 _ _ _ _ (funext fun a => Fin.ext ?_)
  match a with
  | ⟨0, _⟩ => exact hy0
  | ⟨1, _⟩ => show (y 1).val = win0_7.index t 1 * 8 + 1 * (y 1).val; rw [hi.2.1]; omega
  | ⟨2, _⟩ => show (y 2).val = win0_7.index t 2 * 256 + 1 * (y 2).val; rw [hi.2.2]; omega

/-- Row 0 of a core's first accumulator block after the region: that core's column sums of the first layer's output. -/
theorem arr6 (c : Dev nD) (core : Fin 2) (j : Fin 256) :
    ((dat0 (F := Ideal) V c).arrAt 6 cfg0.N : S2x8x256.Idx → EReal) (ix3 core 0 j) = Spec.coreSum (h1 V c) core j := by
  obtain ⟨T, hT⟩ : ∃ T : Fin cfg0.N, T.val = core.val * 8 + 7 := ⟨⟨core.val * 8 + 7, last_lt core.val core.isLt⟩, rfl⟩
  have hcore : core.val < 2 := core.isLt
  have hf : (cfg0.win 6).flush T = true := (flush0_6 T).mpr (by omega)
  have hi := (idx_facts T).2.2.2.2.2.1
  have hd : T.val / 8 = core.val := by omega
  have hmem : (ix3 core 0 j : S2x8x256.Idx) ∈ ((cfg0.win 6).blk T).view.set := by
    show (ix3 core 0 j : S2x8x256.Idx) ∈ ((View.whole main_v40_1).slice (win0_6.rect T)).set
    rw [View.set_slice_whole, Rect.mem_set_unit]
    intro a
    match a with
    | ⟨0, _⟩ => show win0_6.index T 0 * 1 ≤ core.val ∧ core.val < win0_6.index T 0 * 1 + 1
                rw [hi.1, hd]; omega
    | ⟨1, _⟩ => show win0_6.index T 1 * 8 ≤ 0 ∧ 0 < win0_6.index T 1 * 8 + 8
                rw [hi.2.1]; omega
    | ⟨2, _⟩ => show win0_6.index T 2 * 256 ≤ j.val ∧ j.val < win0_6.index T 2 * 256 + 256
                rw [hi.2.2]; omega
  refine ((dat0 (F := Ideal) V c).arrAt_apply_of_mem 6 (G6 V c) (flushed6 V c) cfg0.N T (ix3 core 0 j) T.isLt hf hmem).trans ?_
  refine (outs_congr_6 V c hT.symm (last_lt core.val core.isLt) T.isLt _ (ix3 0 0 j) rfl).trans ?_
  refine (acc6 V c core 7 (by omega) T hT j).trans ?_
  rw [zero_add]
  unfold Spec.coreSum
  rw [Finset.sum_range]
  refine Finset.sum_congr rfl fun u _ => ?_
  unfold tileSum
  rw [dif_pos (by have := u.isLt; omega)]

/-- Row 0 of a core's second accumulator block after the region: that core's column sums of the squares. -/
theorem arr7 (c : Dev nD) (core : Fin 2) (j : Fin 256) :
    ((dat0 (F := Ideal) V c).arrAt 7 cfg0.N : S2x8x256.Idx → EReal) (ix3 core 0 j)
      = Spec.coreSum (fun r j => h1 V c r j * h1 V c r j) core j := by
  obtain ⟨T, hT⟩ : ∃ T : Fin cfg0.N, T.val = core.val * 8 + 7 := ⟨⟨core.val * 8 + 7, last_lt core.val core.isLt⟩, rfl⟩
  have hcore : core.val < 2 := core.isLt
  have hf : (cfg0.win 7).flush T = true := (flush0_7 T).mpr (by omega)
  have hi := (idx_facts T).2.2.2.2.2.2
  have hd : T.val / 8 = core.val := by omega
  have hmem : (ix3 core 0 j : S2x8x256.Idx) ∈ ((cfg0.win 7).blk T).view.set := by
    show (ix3 core 0 j : S2x8x256.Idx) ∈ ((View.whole main_v40_2).slice (win0_7.rect T)).set
    rw [View.set_slice_whole, Rect.mem_set_unit]
    intro a
    match a with
    | ⟨0, _⟩ => show win0_7.index T 0 * 1 ≤ core.val ∧ core.val < win0_7.index T 0 * 1 + 1
                rw [hi.1, hd]; omega
    | ⟨1, _⟩ => show win0_7.index T 1 * 8 ≤ 0 ∧ 0 < win0_7.index T 1 * 8 + 8
                rw [hi.2.1]; omega
    | ⟨2, _⟩ => show win0_7.index T 2 * 256 ≤ j.val ∧ j.val < win0_7.index T 2 * 256 + 256
                rw [hi.2.2]; omega
  refine ((dat0 (F := Ideal) V c).arrAt_apply_of_mem 7 (G7 V c) (flushed7 V c) cfg0.N T (ix3 core 0 j) T.isLt hf hmem).trans ?_
  refine (outs_congr_7 V c hT.symm (last_lt core.val core.isLt) T.isLt _ (ix3 0 0 j) rfl).trans ?_
  refine (acc7 V c core 7 (by omega) T hT j).trans ?_
  rw [zero_add]
  unfold Spec.coreSum
  rw [Finset.sum_range]
  refine Finset.sum_congr rfl fun u _ => ?_
  unfold tileSumSq
  rw [dif_pos (by have := u.isLt; omega)]

end Cert.KernelIdeal.Region0

end
-- ==== Proof.KRegion1.lean ====
/-
  The second pallas_call read as values, at the ideal instance, from ANY contents `V` of the TensorCore's buffers at the
  region's entry. Its grid is 16 tiles of 4096 rows, fully independent. Each point normalises its tile of the first
  layer's output with the given mean and variance rows (the variance clamped at 0 once more, the offset added, the
  reciprocal square root taken), applies the affine map, runs the two rectified layers and the last layer, and writes
  its 4096 results back as that tile of the one-column output array. So after the region the output array is the
  network's tail of the normalised first-layer output, row by row.

  The proof has three steps. First the body's arithmetic is read at an index over arbitrary loaded blocks: each of the
  three products into a zero accumulator is the sum over the contracted coordinate, a one-row block broadcast over the
  tile reads that row, the format changes are the identity, so row p of the stored tile is the tail of the network at
  the normalised row p of the first block. Then each window's block at a point is read off its array: the first
  layer's output at rows 4096·t … 4096·t + 4095, every other input whole; so what point t writes back is rows
  4096·t … 4096·t + 4095 of one whole-array function. Last, row r lies in the block of point r / 4096, so the blocks
  cover the output array and it ends holding that function.
-/
import proofs.«107007_j80882824118683_2_alg».proof.Proof.Gen.KernelIdeal.Frame
import proofs.«107007_j80882824118683_2_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The body's arithmetic at an index -/

/-- A product of a [4096, 256] tile and a [256, 64] matrix into a zero accumulator, at (p, j): the sum over the
    contracted coordinate of the operands' products. -/
theorem mm2 (a : FVec Ideal S4096x256 .bf16) (b : FVec Ideal S256x64 .bf16) (p : Fin 4096) (j : Fin 64) :
    matmul dot_S4096x256_S256x64_S4096x64_1_0_0_1_n_n none a b (constant (F := Ideal) S4096x64 .f32 0x00000000#32) (ix2 p j)
      = ∑ k : Fin 256, a (ix2 p k) * b (ix2 k j) := by
  simp only [matmul]
  rw [Ideal.matmul_constant_zero_apply,
    ← Equiv.sum_comp (contrEquiv1 dot_S4096x256_S256x64_S4096x64_1_0_0_1_n_n 256 rfl rfl).symm]
  refine Finset.sum_congr rfl fun k _ => ?_
  have hl : dot_S4096x256_S256x64_S4096x64_1_0_0_1_n_n.lhsIdx (ix2 p j) ((contrEquiv1 dot_S4096x256_S256x64_S4096x64_1_0_0_1_n_n 256 rfl rfl).symm k) = ix2 p k := by
    funext ax; apply Fin.ext
    match ax with
    | ⟨0, _⟩ => rfl
    | ⟨1, _⟩ =>
      exact (DotDims.lhsIdx_val_of_single (d := dot_S4096x256_S256x64_S4096x64_1_0_0_1_n_n) (cl := (1 : Fin 2)) rfl _ _).trans (contrEquiv1_symm_val _ _ _ _ k)
  have hr : dot_S4096x256_S256x64_S4096x64_1_0_0_1_n_n.rhsIdx (ix2 p j) ((contrEquiv1 dot_S4096x256_S256x64_S4096x64_1_0_0_1_n_n 256 rfl rfl).symm k) = ix2 k j := by
    funext ax; apply Fin.ext
    match ax with
    | ⟨0, _⟩ =>
      exact (DotDims.rhsIdx_val_of_single (d := dot_S4096x256_S256x64_S4096x64_1_0_0_1_n_n) (cr := (0 : Fin 2)) rfl _ _).trans (contrEquiv1_symm_val _ _ _ _ k)
    | ⟨1, _⟩ => rfl
  rw [hl, hr]

/-- A product of a [4096, 64] tile and a [64, 16] matrix into a zero accumulator, at (p, j): the sum over the
    contracted coordinate of the operands' products. -/
theorem mm3 (a : FVec Ideal S4096x64 .bf16) (b : FVec Ideal S64x16 .bf16) (p : Fin 4096) (j : Fin 16) :
    matmul dot_S4096x64_S64x16_S4096x16_1_0_0_1_n_n none a b (constant (F := Ideal) S4096x16 .f32 0x00000000#32) (ix2 p j)
      = ∑ k : Fin 64, a (ix2 p k) * b (ix2 k j) := by
  simp only [matmul]
  rw [Ideal.matmul_constant_zero_apply,
    ← Equiv.sum_comp (contrEquiv1 dot_S4096x64_S64x16_S4096x16_1_0_0_1_n_n 64 rfl rfl).symm]
  refine Finset.sum_congr rfl fun k _ => ?_
  have hl : dot_S4096x64_S64x16_S4096x16_1_0_0_1_n_n.lhsIdx (ix2 p j) ((contrEquiv1 dot_S4096x64_S64x16_S4096x16_1_0_0_1_n_n 64 rfl rfl).symm k) = ix2 p k := by
    funext ax; apply Fin.ext
    match ax with
    | ⟨0, _⟩ => rfl
    | ⟨1, _⟩ =>
      exact (DotDims.lhsIdx_val_of_single (d := dot_S4096x64_S64x16_S4096x16_1_0_0_1_n_n) (cl := (1 : Fin 2)) rfl _ _).trans (contrEquiv1_symm_val _ _ _ _ k)
  have hr : dot_S4096x64_S64x16_S4096x16_1_0_0_1_n_n.rhsIdx (ix2 p j) ((contrEquiv1 dot_S4096x64_S64x16_S4096x16_1_0_0_1_n_n 64 rfl rfl).symm k) = ix2 k j := by
    funext ax; apply Fin.ext
    match ax with
    | ⟨0, _⟩ =>
      exact (DotDims.rhsIdx_val_of_single (d := dot_S4096x64_S64x16_S4096x16_1_0_0_1_n_n) (cr := (0 : Fin 2)) rfl _ _).trans (contrEquiv1_symm_val _ _ _ _ k)
    | ⟨1, _⟩ => rfl
  rw [hl, hr]

/-- A product of a [4096, 16] tile and a [16, 1] matrix into a zero accumulator, at (p, j): the sum over the
    contracted coordinate of the operands' products. -/
theorem mm4 (a : FVec Ideal S4096x16 .bf16) (b : FVec Ideal S16x1 .bf16) (p : Fin 4096) (j : Fin 1) :
    matmul dot_S4096x16_S16x1_S4096x1_1_0_0_1_n_n none a b (constant (F := Ideal) S4096x1 .f32 0x00000000#32) (ix2 p j)
      = ∑ k : Fin 16, a (ix2 p k) * b (ix2 k j) := by
  simp only [matmul]
  rw [Ideal.matmul_constant_zero_apply,
    ← Equiv.sum_comp (contrEquiv1 dot_S4096x16_S16x1_S4096x1_1_0_0_1_n_n 16 rfl rfl).symm]
  refine Finset.sum_congr rfl fun k _ => ?_
  have hl : dot_S4096x16_S16x1_S4096x1_1_0_0_1_n_n.lhsIdx (ix2 p j) ((contrEquiv1 dot_S4096x16_S16x1_S4096x1_1_0_0_1_n_n 16 rfl rfl).symm k) = ix2 p k := by
    funext ax; apply Fin.ext
    match ax with
    | ⟨0, _⟩ => rfl
    | ⟨1, _⟩ =>
      exact (DotDims.lhsIdx_val_of_single (d := dot_S4096x16_S16x1_S4096x1_1_0_0_1_n_n) (cl := (1 : Fin 2)) rfl _ _).trans (contrEquiv1_symm_val _ _ _ _ k)
  have hr : dot_S4096x16_S16x1_S4096x1_1_0_0_1_n_n.rhsIdx (ix2 p j) ((contrEquiv1 dot_S4096x16_S16x1_S4096x1_1_0_0_1_n_n 16 rfl rfl).symm k) = ix2 k j := by
    funext ax; apply Fin.ext
    match ax with
    | ⟨0, _⟩ =>
      exact (DotDims.rhsIdx_val_of_single (d := dot_S4096x16_S16x1_S4096x1_1_0_0_1_n_n) (cr := (0 : Fin 2)) rfl _ _).trans (contrEquiv1_symm_val _ _ _ _ k)
    | ⟨1, _⟩ => rfl
  rw [hl, hr]

/-- The zero word is the real 0. -/
theorem splat0 : (FloatOps.ofBits .f32 0x00000000#32 : Ideal .f32) = (0 : EReal) := Ideal.ofBits_zero_f32

/-- The offset word is the specification's offset. -/
theorem splatEps : (FloatOps.ofBits .f32 0x3727C5AC#32 : Ideal .f32) = Spec.eps := rfl

/-- A reciprocal square root of a vector, at an index, is that of the element. -/
theorem rsqrt_apply {s : Shape} {φ : FTy} (x : FVec Ideal s φ) (i : s.Idx) : (rsqrt x : FVec Ideal s φ) i = Ideal.rsqrt (x i) := rfl

/-- The first part of the body at (p, k): the normalisation and affine map, the first rectified layer, and the second
    product. -/
theorem pay2_apply (x0 : Vec Ideal S4096x256 .bf16) (x1 x2 x3 x4 : Vec Ideal S1x256 .f32) (x5 : Vec Ideal S256x64 .bf16)
    (x6 : Vec Ideal S1x64 .f32) (x7 : Vec Ideal S64x16 .bf16) (p : Fin 4096) (k : Fin 16) :
    (k1_pay2 (F := Ideal) x0 x1 x2 x3 x4 x5 x6 x7 : S4096x16.Idx → EReal) (ix2 p k)
      = ∑ j : Fin 64, max ((∑ c : Fin 256,
            (((x0 (ix2 p c) - x1 (ix2 0 c)) * Ideal.rsqrt (max (x2 (ix2 0 c)) 0 + Spec.eps)) * x3 (ix2 0 c) + x4 (ix2 0 c))
              * x5 (ix2 c j)) + x6 (ix2 0 j)) 0 * x7 (ix2 j k) := by
  unfold k1_pay2
  refine (mm3 _ _ p k).trans (Finset.sum_congr rfl fun j _ => ?_)
  simp only [truncf_apply, extf_apply, maximumf_apply, addf_apply, mulf_apply, subf_apply, broadcast_apply, shapeCast_self,
    broadcastTo_1b_ab_apply, mm2, splat0, splatEps, rsqrt_apply]

/-- The second part of the body at row p: the bias and rectifier of the second layer, the last product, its bias. -/
theorem pay1_apply (y : FVec Ideal S4096x16 .f32) (x8 : Vec Ideal S1x16 .f32) (x9 : Vec Ideal S16x1 .bf16)
    (x10 : Vec Ideal S1x1 .f32) (p : Fin 4096) :
    (k1_pay1 (F := Ideal) y x8 x9 x10 : S4096x1.Idx → EReal) (ix2 p 0)
      = (∑ k : Fin 16, max (y (ix2 p k) + x8 (ix2 0 k)) 0 * x9 (ix2 k 0)) + x10 (ix2 0 0) := by
  unfold k1_pay1
  simp only [truncf_apply, maximumf_apply, addf_apply, broadcast_apply, shapeCast_self,
    broadcastTo_1b_ab_apply, mm4, splat0]

/-- The whole body at row p of a tile: the network's tail of the normalised row, for ANY reading of the eleven loaded
    blocks as rows and matrices (row p of the first block as row r of h; the one-row blocks as rows; the weights as
    matrices). The variance row is clamped at 0 before the offset is added. -/
theorem pay_tail (x0 : Vec Ideal S4096x256 .bf16) (x1 x2 x3 x4 : Vec Ideal S1x256 .f32) (x5 : Vec Ideal S256x64 .bf16)
    (x6 : Vec Ideal S1x64 .f32) (x7 : Vec Ideal S64x16 .bf16) (x8 : Vec Ideal S1x16 .f32) (x9 : Vec Ideal S16x1 .bf16)
    (x10 : Vec Ideal S1x1 .f32) (p : Fin 4096)
    (h : Fin 65536 → Fin 256 → EReal) (mean var gamma beta : Fin 256 → EReal) (W2T : Fin 256 → Fin 64 → EReal)
    (b2 : Fin 64 → EReal) (W3T : Fin 64 → Fin 16 → EReal) (b3 : Fin 16 → EReal) (W4T : Fin 16 → Fin 1 → EReal)
    (b4 : Fin 1 → EReal) (r : Fin 65536)
    (h0 : ∀ cc, x0 (ix2 p cc) = h r cc) (h1 : ∀ cc, x1 (ix2 0 cc) = mean cc) (h2 : ∀ cc, x2 (ix2 0 cc) = var cc)
    (h3 : ∀ cc, x3 (ix2 0 cc) = gamma cc) (h4 : ∀ cc, x4 (ix2 0 cc) = beta cc) (h5 : ∀ cc j, x5 (ix2 cc j) = W2T cc j)
    (h6 : ∀ j, x6 (ix2 0 j) = b2 j) (h7 : ∀ j k, x7 (ix2 j k) = W3T j k) (h8 : ∀ k, x8 (ix2 0 k) = b3 k)
    (h9 : ∀ k, x9 (ix2 k 0) = W4T k 0) (h10 : x10 (ix2 0 0) = b4 0) :
    (k1_pay1 (F := Ideal) (k1_pay2 x0 x1 x2 x3 x4 x5 x6 x7) x8 x9 x10 : S4096x1.Idx → EReal) (ix2 p 0)
      = Spec.mlpTail (Spec.normed h mean (fun j => max (var j) 0) gamma beta) W2T b2 W3T b3 W4T b4 r := by
  rw [pay1_apply]
  simp only [pay2_apply, h0, h1, h2, h3, h4, h5, h6, h7, h8, h9, h10]
  rfl

/-! ## Each window's block at a point, read off its array -/

theorem hz : (![0, 0] : Fin 2 → Nat) = fun _ => 0 := funext fun a => by fin_cases a <;> rfl

/-- The printed index maps, decided once over the grid: the row-tiled windows (the first layer's output and the result)
    sit at block (t, 0) at point t; every other window is its whole array at every point. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

/-- Window 0's block at point t is rows 4096·t … 4096·t + 4095 of the first layer's output. -/
theorem blk0 (c : Dev nD) (t : Fin cfg1.N) (p : Fin 4096) (j : Fin 256) :
    (iblk1 (F := Ideal) V c 0 t : S4096x256.Idx → EReal) (ix2 p j)
      = (V c main_v40_0 : S65536x256.Idx → EReal) (ix2 (Spec.tileRow (t.cast N_1) p) j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v40_0 _ = V c main_v40_0 _
  congr 1
  funext ax; apply Fin.ext
  match ax with
  | ⟨0, _⟩ => show win1_0.index t (0 : Fin 2) * 4096 + 1 * p.val = t.val * 4096 + p.val; omega
  | ⟨1, _⟩ => show win1_0.index t (1 : Fin 2) * 256 + 1 * j.val = j.val; omega

/-- Window 1's block at any point is its whole array. -/
theorem blk1 (c : Dev nD) (t : Fin cfg1.N) (i : Fin 1) (j : Fin 256) :
    (iblk1 (F := Ideal) V c 1 t : S1x256.Idx → EReal) (ix2 i j) = (V c main_v50 : S1x256.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v50 _ = V c main_v50 _
  congr 1
  funext ax; apply Fin.ext
  match ax with
  | ⟨0, _⟩ => show win1_1.index t (0 : Fin 2) * 1 + 1 * i.val = i.val; omega
  | ⟨1, _⟩ => show win1_1.index t (1 : Fin 2) * 256 + 1 * j.val = j.val; omega

/-- Window 2's block at any point is its whole array. -/
theorem blk2 (c : Dev nD) (t : Fin cfg1.N) (i : Fin 1) (j : Fin 256) :
    (iblk1 (F := Ideal) V c 2 t : S1x256.Idx → EReal) (ix2 i j) = (V c main_v56 : S1x256.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v56 _ = V c main_v56 _
  congr 1
  funext ax; apply Fin.ext
  match ax with
  | ⟨0, _⟩ => show win1_2.index t (0 : Fin 2) * 1 + 1 * i.val = i.val; omega
  | ⟨1, _⟩ => show win1_2.index t (1 : Fin 2) * 256 + 1 * j.val = j.val; omega

/-- Window 3's block at any point is its whole array. -/
theorem blk3 (c : Dev nD) (t : Fin cfg1.N) (i : Fin 1) (j : Fin 256) :
    (iblk1 (F := Ideal) V c 3 t : S1x256.Idx → EReal) (ix2 i j) = (V c main_v29 : S1x256.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v29 _ = V c main_v29 _
  congr 1
  funext ax; apply Fin.ext
  match ax with
  | ⟨0, _⟩ => show win1_3.index t (0 : Fin 2) * 1 + 1 * i.val = i.val; omega
  | ⟨1, _⟩ => show win1_3.index t (1 : Fin 2) * 256 + 1 * j.val = j.val; omega

/-- Window 4's block at any point is its whole array. -/
theorem blk4 (c : Dev nD) (t : Fin cfg1.N) (i : Fin 1) (j : Fin 256) :
    (iblk1 (F := Ideal) V c 4 t : S1x256.Idx → EReal) (ix2 i j) = (V c main_v30 : S1x256.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v30 _ = V c main_v30 _
  congr 1
  funext ax; apply Fin.ext
  match ax with
  | ⟨0, _⟩ => show win1_4.index t (0 : Fin 2) * 1 + 1 * i.val = i.val; omega
  | ⟨1, _⟩ => show win1_4.index t (1 : Fin 2) * 256 + 1 * j.val = j.val; omega

/-- Window 5's block at any point is its whole array. -/
theorem blk5 (c : Dev nD) (t : Fin cfg1.N) (i : Fin 256) (j : Fin 64) :
    (iblk1 (F := Ideal) V c 5 t : S256x64.Idx → EReal) (ix2 i j) = (V c main_v32 : S256x64.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v32 _ = V c main_v32 _
  congr 1
  funext ax; apply Fin.ext
  match ax with
  | ⟨0, _⟩ => show win1_5.index t (0 : Fin 2) * 256 + 1 * i.val = i.val; omega
  | ⟨1, _⟩ => show win1_5.index t (1 : Fin 2) * 64 + 1 * j.val = j.val; omega

/-- Window 6's block at any point is its whole array. -/
theorem blk6 (c : Dev nD) (t : Fin cfg1.N) (i : Fin 1) (j : Fin 64) :
    (iblk1 (F := Ideal) V c 6 t : S1x64.Idx → EReal) (ix2 i j) = (V c main_v33 : S1x64.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v33 _ = V c main_v33 _
  congr 1
  funext ax; apply Fin.ext
  match ax with
  | ⟨0, _⟩ => show win1_6.index t (0 : Fin 2) * 1 + 1 * i.val = i.val; omega
  | ⟨1, _⟩ => show win1_6.index t (1 : Fin 2) * 64 + 1 * j.val = j.val; omega

/-- Window 7's block at any point is its whole array. -/
theorem blk7 (c : Dev nD) (t : Fin cfg1.N) (i : Fin 64) (j : Fin 16) :
    (iblk1 (F := Ideal) V c 7 t : S64x16.Idx → EReal) (ix2 i j) = (V c main_v35 : S64x16.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v35 _ = V c main_v35 _
  congr 1
  funext ax; apply Fin.ext
  match ax with
  | ⟨0, _⟩ => show win1_7.index t (0 : Fin 2) * 64 + 1 * i.val = i.val; omega
  | ⟨1, _⟩ => show win1_7.index t (1 : Fin 2) * 16 + 1 * j.val = j.val; omega

/-- Window 8's block at any point is its whole array. -/
theorem blk8 (c : Dev nD) (t : Fin cfg1.N) (i : Fin 1) (j : Fin 16) :
    (iblk1 (F := Ideal) V c 8 t : S1x16.Idx → EReal) (ix2 i j) = (V c main_v36 : S1x16.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v36 _ = V c main_v36 _
  congr 1
  funext ax; apply Fin.ext
  match ax with
  | ⟨0, _⟩ => show win1_8.index t (0 : Fin 2) * 1 + 1 * i.val = i.val; omega
  | ⟨1, _⟩ => show win1_8.index t (1 : Fin 2) * 16 + 1 * j.val = j.val; omega

/-- Window 9's block at any point is its whole array. -/
theorem blk9 (c : Dev nD) (t : Fin cfg1.N) (i : Fin 16) (j : Fin 1) :
    (iblk1 (F := Ideal) V c 9 t : S16x1.Idx → EReal) (ix2 i j) = (V c main_v38 : S16x1.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v38 _ = V c main_v38 _
  congr 1
  funext ax; apply Fin.ext
  match ax with
  | ⟨0, _⟩ => show win1_9.index t (0 : Fin 2) * 16 + 1 * i.val = i.val; omega
  | ⟨1, _⟩ => show win1_9.index t (1 : Fin 2) * 1 + 1 * j.val = j.val; omega

/-- Window 10's block at any point is its whole array. -/
theorem blk10 (c : Dev nD) (t : Fin cfg1.N) (i : Fin 1) (j : Fin 1) :
    (iblk1 (F := Ideal) V c 10 t : S1x1.Idx → EReal) (ix2 i j) = (V c main_v39 : S1x1.Idx → EReal) (ix2 i j) := by
  obtain ⟨e0a, e0b, e1a, e1b, e2a, e2b, e3a, e3b, e4a, e4b, e5a, e5b, e6a, e6b, e7a, e7b, e8a, e8b, e9a, e9b, e10a, e10b, e11a, e11b⟩ := idx_facts t
  unfold iblk1
  rw [View.read_apply]
  show V c main_v39 _ = V c main_v39 _
  congr 1
  funext ax; apply Fin.ext
  match ax with
  | ⟨0, _⟩ => show win1_10.index t (0 : Fin 2) * 1 + 1 * i.val = i.val; omega
  | ⟨1, _⟩ => show win1_10.index t (1 : Fin 2) * 1 + 1 * j.val = j.val; omega

/-! ## What a point writes back, and the array after the region -/

/-- The network's tail of the normalised first-layer output, row by row, from the arrays as the region finds them. -/
def tail (c : Dev nD) (r : Fin 65536) : EReal :=
  Spec.mlpTail
      (Spec.normed (Spec.cur2 (n0 := 65536) (n1 := 256) (V c main_v40_0)) (Spec.row0 (n := 256) (V c main_v50))
        (fun j => max (Spec.row0 (n := 256) (V c main_v56) j) 0) (Spec.row0 (n := 256) (V c main_v29)) (Spec.row0 (n := 256) (V c main_v30)))
      (Spec.cur2 (n0 := 256) (n1 := 64) (V c main_v32)) (Spec.row0 (n := 64) (V c main_v33))
      (Spec.cur2 (n0 := 64) (n1 := 16) (V c main_v35)) (Spec.row0 (n := 16) (V c main_v36))
      (Spec.cur2 (n0 := 16) (n1 := 1) (V c main_v38)) (Spec.row0 (n := 1) (V c main_v39)) r

/-- The output array the region leaves: row r holds the tail at r. -/
def G (c : Dev nD) : S65536x1.Idx → EReal := fun i => tail V c (i 0)

/-- What point t writes back is block t of G: row p of its tile is the tail at row 4096·t + p. -/
theorem flushed_eq (c : Dev nD) (t : Fin cfg1.N) :
    (dat1 (F := Ideal) V c).flushed 11 t = ((cfg1.win 11).blk t).view.read (Elt Ideal) (G V c) := by
  show (cfg1.win 11).cut (grid1.coords t) ((dat1 (F := Ideal) V c).after 11 t) = _
  rw [after1_11]
  unfold out1_11
  rw [View.canon_unit_zero hz]
  simp only [View.ld_unit_zero (S := S4096x256) hz, View.ld_unit_zero (S := S1x256) hz, View.ld_unit_zero (S := S256x64) hz, View.ld_unit_zero (S := S1x64) hz, View.ld_unit_zero (S := S64x16) hz, View.ld_unit_zero (S := S1x16) hz, View.ld_unit_zero (S := S16x1) hz, View.ld_unit_zero (S := S1x1) hz]
  funext y
  obtain ⟨p, q, rfl⟩ : ∃ (p : Fin 4096) (q : Fin 1), y = ix2 p q := ⟨y 0, y 1, eq_ix2 y⟩
  obtain rfl : q = 0 := Subsingleton.elim _ _
  rw [View.read_apply]
  obtain ⟨e0a, e0b, e1a, e1b, e2a, e2b, e3a, e3b, e4a, e4b, e5a, e5b, e6a, e6b, e7a, e7b, e8a, e8b, e9a, e9b, e10a, e10b, e11a, e11b⟩ := idx_facts t
  have hrow : (((cfg1.win 11).blk t).view.emb (ix2 p (0 : Fin 1)) : S65536x1.Idx) (0 : Fin 2) = Spec.tileRow (t.cast N_1) p := by
    apply Fin.ext
    show win1_11.index t (0 : Fin 2) * 4096 + 1 * p.val = t.val * 4096 + p.val
    omega
  show (k1_pay1 (F := Ideal) (k1_pay2 (iblk1 V c 0 t) (iblk1 V c 1 t) (iblk1 V c 2 t) (iblk1 V c 3 t) (iblk1 V c 4 t) (iblk1 V c 5 t)
      (iblk1 V c 6 t) (iblk1 V c 7 t)) (iblk1 V c 8 t) (iblk1 V c 9 t) (iblk1 V c 10 t) : S4096x1.Idx → EReal) (ix2 p 0)
    = tail V c ((((cfg1.win 11).blk t).view.emb (ix2 p (0 : Fin 1)) : S65536x1.Idx) (0 : Fin 2))
  rw [hrow]
  exact pay_tail (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) p _ _ _ _ _ _ _ _ _ _ _ _
    (fun cc => blk0 V c t p cc) (fun cc => blk1 V c t 0 cc) (fun cc => blk2 V c t 0 cc) (fun cc => blk3 V c t 0 cc)
    (fun cc => blk4 V c t 0 cc) (fun cc j => blk5 V c t cc j) (fun j => blk6 V c t 0 j) (fun j k => blk7 V c t j k)
    (fun k => blk8 V c t 0 k) (fun k => blk9 V c t k 0) (blk10 V c t 0 0)

/-- An index of the output array is in point t's block iff each coordinate is in the block's range on its axis. -/
theorem mem_blk (t : Fin cfg1.N) (i : S65536x1.Idx) :
    i ∈ ((cfg1.win 11).blk t).view.set ↔ ∀ a : Fin 2, win1_11.index t a * S4096x1.size a ≤ (i a).val ∧ (i a).val < win1_11.index t a * S4096x1.size a + S4096x1.size a := by
  show i ∈ ((View.whole main_v57).slice (win1_11.rect t)).set ↔ _
  rw [View.set_slice_whole, Rect.mem_set_unit]
  exact Iff.rfl

/-- Row r of the output array is in the block of point r / 4096. -/
theorem cover (i : S65536x1.Idx) : ∃ t : Fin cfg1.N, (cfg1.win 11).flush t = true ∧ i ∈ ((cfg1.win 11).blk t).view.set := by
  have hi0 : (i 0).val < 65536 := (i 0).isLt
  have hi1 : (i 1).val < 1 := (i 1).isLt
  have hN : grid1.N = 16 := N_1
  let t : Fin cfg1.N := ⟨(i 0).val / 4096, by show (i 0).val / 4096 < grid1.N; omega⟩
  obtain ⟨e0a, e0b, e1a, e1b, e2a, e2b, e3a, e3b, e4a, e4b, e5a, e5b, e6a, e6b, e7a, e7b, e8a, e8b, e9a, e9b, e10a, e10b, e11a, e11b⟩ := idx_facts t
  have ht : t.val = (i 0).val / 4096 := rfl
  refine ⟨t, flush1_11 t, ?_⟩
  rw [mem_blk]
  intro a
  match a with
  | ⟨0, _⟩ => show win1_11.index t (0 : Fin 2) * 4096 ≤ (i 0).val ∧ (i 0).val < win1_11.index t (0 : Fin 2) * 4096 + 4096; omega
  | ⟨1, _⟩ => show win1_11.index t (1 : Fin 2) * 1 ≤ (i 1).val ∧ (i 1).val < win1_11.index t (1 : Fin 2) * 1 + 1; omega

/-- The output array after the region, at row `r`: the tail of the network applied to the normalised input row. -/
theorem arr11 (c : Dev nD) (r : Fin 65536) :
    ((dat1 (F := Ideal) V c).arrAt 11 cfg1.N : S65536x1.Idx → EReal) (ix2 r 0)
      = Spec.mlpTail
          (Spec.normed (Spec.cur2 (n0 := 65536) (n1 := 256) (V c main_v40_0)) (Spec.row0 (n := 256) (V c main_v50))
            (fun j => max (Spec.row0 (n := 256) (V c main_v56) j) 0) (Spec.row0 (n := 256) (V c main_v29)) (Spec.row0 (n := 256) (V c main_v30)))
          (Spec.cur2 (n0 := 256) (n1 := 64) (V c main_v32)) (Spec.row0 (n := 64) (V c main_v33))
          (Spec.cur2 (n0 := 64) (n1 := 16) (V c main_v35)) (Spec.row0 (n := 16) (V c main_v36))
          (Spec.cur2 (n0 := 16) (n1 := 1) (V c main_v38)) (Spec.row0 (n := 1) (V c main_v39)) r := by
  have hG : (dat1 (F := Ideal) V c).arrAt 11 cfg1.N = G V c :=
    (dat1 (F := Ideal) V c).arrAt_eq_of_cover 11 (G V c) (fun t _ => flushed_eq V c t) cover
  exact congrFun hG (ix2 r 0)

end Cert.KernelIdeal.Region1

end
-- ==== Proof.KHostPre.lean ====
/-
  The host stretches before the first pallas_call of the idealized kernel's program read as values, at the ideal
  instance: the three gathered feature groups (state, counts and embedding rows, the indices wrapped when negative,
  the embedding indices first reduced modulo the vocabulary), the four transposed weights and the reshaped bias and
  affine rows, each as a function of the argument arrays; changing the float format is the identity on the extended
  reals. The arrays the second pallas_call reads besides the first one's outputs are among these and reach it
  untouched.
-/
import proofs.«107007_j80882824118683_2_alg».proof.Proof.Gen.KernelIdeal.Frame
import proofs.«107007_j80882824118683_2_alg».proof.Proof.Spec
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The arrays the first region is entered with, as functions of the arguments -/

/-- The divisor of the floored remainder: the vocabulary size 16777216, replaced by 1 were it 0 (it is not). -/
def remDiv : S_.Idx → BitVec 32 :=
  select (cmpi .eq (id (constantI S_ 32 16777216#32)) (constantI S_ 32 0#32)) (constantI S_ 32 1#32) (id (constantI S_ 32 16777216#32))

/-- The truncated remainder of each embedding index by the divisor (its sign is the index's). -/
def remRaw (a2 : S65536x7x7.Idx → BitVec 32) : S65536x7x7.Idx → BitVec 32 :=
  Host.remsi a2 (broadcastInDim S65536x7x7 ![] bcast_S_S65536x7x7 remDiv)

/-- The floored remainder: the truncated one, the divisor added where it is nonzero and its sign differs from the
    divisor's. -/
def remIdx (a2 : S65536x7x7.Idx → BitVec 32) : S65536x7x7.Idx → BitVec 32 :=
  select
    (andi
      (cmpi .ne
        (cmpi .slt (remRaw a2) (broadcastInDim S65536x7x7 ![] bcast_S_S65536x7x7 (constantI S_ 32 0#32)))
        (broadcastInDim S65536x7x7 ![] bcast_S_S65536x7x7 (cmpi .slt remDiv (constantI S_ 32 0#32))))
      (cmpi .ne (remRaw a2) (broadcastInDim S65536x7x7 ![] bcast_S_S65536x7x7 (constantI S_ 32 0#32))))
    (addi (remRaw a2) (broadcastInDim S65536x7x7 ![] bcast_S_S65536x7x7 remDiv))
    (remRaw a2)

/-- The state features: rows of the state table at the state indices (a negative index wrapped by the table's height). -/
def featS (a0 : S65536.Idx → BitVec 32) (t : S4x32.Idx → EReal) : S65536x32.Idx → EReal :=
  Host.gather gather_S4x32_S65536x1_S65536x32_1_0_n_n_0_1_132 t
    (broadcastInDim S65536x1 ![0] bcast_S65536_S65536x1_0
      (select (cmpi .slt a0 (broadcastInDim S65536 ![] bcast_S_S65536 (constantI S_ 32 0#32)))
        (addi a0 (broadcastInDim S65536 ![] bcast_S_S65536 (constantI S_ 32 4#32))) a0))

/-- The counts features: rows of the counts table at the counts indices (a negative index wrapped). -/
def featC (a1 : S65536.Idx → BitVec 32) (t : S200x16.Idx → EReal) : S65536x16.Idx → EReal :=
  Host.gather gather_S200x16_S65536x1_S65536x16_1_0_n_n_0_1_116 t
    (broadcastInDim S65536x1 ![0] bcast_S65536_S65536x1_0
      (select (cmpi .slt a1 (broadcastInDim S65536 ![] bcast_S_S65536 (constantI S_ 32 0#32)))
        (addi a1 (broadcastInDim S65536 ![] bcast_S_S65536 (constantI S_ 32 200#32))) a1))

/-- The embedding features: for each of a row's 49 indices, reduced modulo the vocabulary, that row of the embedding
    table, the 49 rows of 8 laid side by side. -/
def featX (a2 : S65536x7x7.Idx → BitVec 32) (t : S16777216x8.Idx → EReal) : S65536x392.Idx → EReal :=
  shapeCast S65536x392
    (Host.gather gather_S16777216x8_S65536x7x7x1_S65536x7x7x8_3_0_n_n_0_3_18 t
      (broadcastInDim S65536x7x7x1 ![0, 1, 2] bcast_S65536x7x7_S65536x7x7x1_0_1_2
        (select (cmpi .slt (remIdx a2) (broadcastInDim S65536x7x7 ![] bcast_S_S65536x7x7 (constantI S_ 32 0#32)))
          (addi (remIdx a2) (broadcastInDim S65536x7x7 ![] bcast_S_S65536x7x7 (constantI S_ 32 16777216#32)))
          (remIdx a2))))
    shapeCasts_S65536x7x7x8_S65536x392

/-- The first weight transposed to [440, 256]. -/
def wT1 (w : S256x440.Idx → EReal) : S440x256.Idx → EReal := transpose S440x256 [1, 0] w transposes_S256x440_S440x256_1_0
/-- The second weight transposed to [256, 64]. -/
def wT2 (w : S64x256.Idx → EReal) : S256x64.Idx → EReal := transpose S256x64 [1, 0] w transposes_S64x256_S256x64_1_0
/-- The third weight transposed to [64, 16]. -/
def wT3 (w : S16x64.Idx → EReal) : S64x16.Idx → EReal := transpose S64x16 [1, 0] w transposes_S16x64_S64x16_1_0
/-- The fourth weight transposed to [16, 1]. -/
def wT4 (w : S1x16.Idx → EReal) : S16x1.Idx → EReal := transpose S16x1 [1, 0] w transposes_S1x16_S16x1_1_0

/-- Gathered features are entries of the table: finite when the table is. -/
theorem featS_fin (a0 : S65536.Idx → BitVec 32) (t : S4x32.Idx → EReal) (ht : ∀ i, Spec.IsFin (t i)) (i : S65536x32.Idx) :
    Spec.IsFin (featS a0 t i) := ht _
theorem featC_fin (a1 : S65536.Idx → BitVec 32) (t : S200x16.Idx → EReal) (ht : ∀ i, Spec.IsFin (t i)) (i : S65536x16.Idx) :
    Spec.IsFin (featC a1 t i) := ht _
theorem featX_fin (a2 : S65536x7x7.Idx → BitVec 32) (t : S16777216x8.Idx → EReal) (ht : ∀ i, Spec.IsFin (t i)) (i : S65536x392.Idx) :
    Spec.IsFin (featX a2 t i) := ht _
/-- A transposed matrix's entries are the matrix's entries: finite when they are. -/
theorem wT1_fin (w : S256x440.Idx → EReal) (hw : ∀ i, Spec.IsFin (w i)) (i : S440x256.Idx) : Spec.IsFin (wT1 w i) := hw _

/-! ## What the host operations before the first region leave, from any contents `W` -/

section Pre
variable (W : Valuation τ sig (Elt Ideal))

/-- The contents when the first region is entered, from the contents `W` at launch. -/
abbrev atEntry : Valuation τ sig (Elt Ideal) :=
  StableHlo.after hostOps0_2 (StableHlo.after hostOps0_1 (StableHlo.after hostOps0 W))

theorem pre_v17 : (atEntry W (Proc.devRef .tc main_v17) : S65536x32.Idx → EReal)
    = featS (W (Proc.devRef .tc main_arg0)) (W (Proc.devRef .tc main_arg4)) := by
  after_results_simp
  rfl
theorem pre_v25 : (atEntry W (Proc.devRef .tc main_v25) : S65536x16.Idx → EReal)
    = featC (W (Proc.devRef .tc main_arg1)) (W (Proc.devRef .tc main_arg5)) := by
  after_results_simp
  rfl
theorem pre_v9 : (atEntry W (Proc.devRef .tc main_v9) : S65536x392.Idx → EReal)
    = featX (W (Proc.devRef .tc main_arg2)) (W (Proc.devRef .tc main_arg3)) := by
  after_results_simp
  rfl
end Pre

section Pre2
variable (W : Valuation τ sig (Elt Ideal))

theorem pre_v27 : (atEntry W (Proc.devRef .tc main_v27) : S440x256.Idx → EReal) = wT1 (W (Proc.devRef .tc main_arg6)) := by
  after_results_simp
  rfl
theorem pre_v32 : (atEntry W (Proc.devRef .tc main_v32) : S256x64.Idx → EReal) = wT2 (W (Proc.devRef .tc main_arg10)) := by
  after_results_simp
  rfl
theorem pre_v35 : (atEntry W (Proc.devRef .tc main_v35) : S64x16.Idx → EReal) = wT3 (W (Proc.devRef .tc main_arg12)) := by
  after_results_simp
  rfl
theorem pre_v38 : (atEntry W (Proc.devRef .tc main_v38) : S16x1.Idx → EReal) = wT4 (W (Proc.devRef .tc main_arg14)) := by
  after_results_simp
  rfl

theorem pre_v28 : (atEntry W (Proc.devRef .tc main_v28) : S1x256.Idx → EReal)
    = shapeCast S1x256 (W (Proc.devRef .tc main_arg7) : S256.Idx → EReal) shapeCasts_S256_S1x256 := by
  after_results_simp
  rfl
theorem pre_v29 : (atEntry W (Proc.devRef .tc main_v29) : S1x256.Idx → EReal)
    = shapeCast S1x256 (W (Proc.devRef .tc main_arg8) : S256.Idx → EReal) shapeCasts_S256_S1x256 := by
  after_results_simp
  rfl
theorem pre_v30 : (atEntry W (Proc.devRef .tc main_v30) : S1x256.Idx → EReal)
    = shapeCast S1x256 (W (Proc.devRef .tc main_arg9) : S256.Idx → EReal) shapeCasts_S256_S1x256 := by
  after_results_simp
  rfl
theorem pre_v33 : (atEntry W (Proc.devRef .tc main_v33) : S1x64.Idx → EReal)
    = shapeCast S1x64 (W (Proc.devRef .tc main_arg11) : S64.Idx → EReal) shapeCasts_S64_S1x64 := by
  after_results_simp
  rfl
theorem pre_v36 : (atEntry W (Proc.devRef .tc main_v36) : S1x16.Idx → EReal)
    = shapeCast S1x16 (W (Proc.devRef .tc main_arg13) : S16.Idx → EReal) shapeCasts_S16_S1x16 := by
  after_results_simp
  rfl
theorem pre_v39 : (atEntry W (Proc.devRef .tc main_v39) : S1x1.Idx → EReal)
    = shapeCast S1x1 (W (Proc.devRef .tc main_arg15) : S1.Idx → EReal) shapeCasts_S1_S1x1 := by
  after_results_simp
  rfl

/-- A vector reshaped to one row, read along that row, is the vector. -/
theorem row0_of_reshape {n : Nat} (x : (⟨1, ![n]⟩ : Shape).Idx → EReal) (h : (⟨1, ![n]⟩ : Shape).ShapeCasts ⟨2, ![1, n]⟩)
    (y : (⟨2, ![1, n]⟩ : Shape).Idx → EReal) (e : y = shapeCast ⟨2, ![1, n]⟩ x h) : Spec.row0 y = Spec.cur1 x := by
  subst e
  funext j
  refine shapeCast_apply x h (ix2 0 j) (ix1 j) ?_
  rw [Shape.rowMajor_val_two, Shape.rowMajor_val_one]
  show j.val = 0 * n + j.val
  rw [Nat.zero_mul, Nat.zero_add]

/-- The host operations between the two regions write none of the second region's other operands. -/
theorem mid_keeps (V : Valuation τ sig (Elt Ideal)) :
    StableHlo.after hostOps1 V (Proc.devRef .tc main_v29) = V (Proc.devRef .tc main_v29)
    ∧ StableHlo.after hostOps1 V (Proc.devRef .tc main_v30) = V (Proc.devRef .tc main_v30)
    ∧ StableHlo.after hostOps1 V (Proc.devRef .tc main_v32) = V (Proc.devRef .tc main_v32)
    ∧ StableHlo.after hostOps1 V (Proc.devRef .tc main_v33) = V (Proc.devRef .tc main_v33)
    ∧ StableHlo.after hostOps1 V (Proc.devRef .tc main_v35) = V (Proc.devRef .tc main_v35)
    ∧ StableHlo.after hostOps1 V (Proc.devRef .tc main_v36) = V (Proc.devRef .tc main_v36)
    ∧ StableHlo.after hostOps1 V (Proc.devRef .tc main_v38) = V (Proc.devRef .tc main_v38)
    ∧ StableHlo.after hostOps1 V (Proc.devRef .tc main_v39) = V (Proc.devRef .tc main_v39) := by
  refine ⟨?_, ?_, ?_, ?_, ?_, ?_, ?_, ?_⟩ <;> after_results_simp
end Pre2

theorem v17_eq (c : Dev nD) : (V3 m ρ c main_v17 : S65536x32.Idx → EReal)
    = featS (m ((c.tc : Thread nD τ).loc main_arg0)) (m ((c.tc : Thread nD τ).loc main_arg4)) := pre_v17 (W0 m ρ c)
theorem v25_eq (c : Dev nD) : (V3 m ρ c main_v25 : S65536x16.Idx → EReal)
    = featC (m ((c.tc : Thread nD τ).loc main_arg1)) (m ((c.tc : Thread nD τ).loc main_arg5)) := pre_v25 (W0 m ρ c)
theorem v9_eq (c : Dev nD) : (V3 m ρ c main_v9 : S65536x392.Idx → EReal)
    = featX (m ((c.tc : Thread nD τ).loc main_arg2)) (m ((c.tc : Thread nD τ).loc main_arg3)) := pre_v9 (W0 m ρ c)
theorem v27_eq (c : Dev nD) : (V3 m ρ c main_v27 : S440x256.Idx → EReal) = wT1 (m ((c.tc : Thread nD τ).loc main_arg6)) :=
  pre_v27 (W0 m ρ c)
theorem v28_row (c : Dev nD) : Spec.row0 (n := 256) (V3 m ρ c main_v28) = Spec.cur1 (n := 256) (m ((c.tc : Thread nD τ).loc main_arg7)) :=
  row0_of_reshape _ _ _ (pre_v28 (W0 m ρ c))

/-! ## The second region's other operands, untouched since they were computed -/

/-- A buffer that is no array of the first region and that the host operations between the regions do not write holds,
    when the second region is entered, what it held when the first was. -/
theorem V5_eq_V3 (c : Dev nD) (b : Ref sig .tc) (hb : ∀ w, Pipeline.arrRef spec0 w ≠ b)
    (hk : ∀ V : Valuation τ sig (Elt Ideal), StableHlo.after hostOps1 V (Proc.devRef .tc b) = V (Proc.devRef .tc b)) :
    V5 m ρ c b = V3 m ρ c b :=
  (hk (W4 m ρ c)).trans (W4_of_ne m ρ c b hb)

theorem v29_row (c : Dev nD) : Spec.row0 (n := 256) (V5 m ρ c main_v29) = Spec.cur1 (n := 256) (m ((c.tc : Thread nD τ).loc main_arg8)) :=
  row0_of_reshape _ _ _ ((V5_eq_V3 m ρ c main_v29 (by decide) fun V => (mid_keeps V).1).trans (pre_v29 (W0 m ρ c)))
theorem v30_row (c : Dev nD) : Spec.row0 (n := 256) (V5 m ρ c main_v30) = Spec.cur1 (n := 256) (m ((c.tc : Thread nD τ).loc main_arg9)) :=
  row0_of_reshape _ _ _ ((V5_eq_V3 m ρ c main_v30 (by decide) fun V => (mid_keeps V).2.1).trans (pre_v30 (W0 m ρ c)))
theorem v32_eq (c : Dev nD) : (V5 m ρ c main_v32 : S256x64.Idx → EReal) = wT2 (m ((c.tc : Thread nD τ).loc main_arg10)) :=
  (V5_eq_V3 m ρ c main_v32 (by decide) fun V => (mid_keeps V).2.2.1).trans (pre_v32 (W0 m ρ c))
theorem v33_row (c : Dev nD) : Spec.row0 (n := 64) (V5 m ρ c main_v33) = Spec.cur1 (n := 64) (m ((c.tc : Thread nD τ).loc main_arg11)) :=
  row0_of_reshape _ _ _ ((V5_eq_V3 m ρ c main_v33 (by decide) fun V => (mid_keeps V).2.2.2.1).trans (pre_v33 (W0 m ρ c)))
theorem v35_eq (c : Dev nD) : (V5 m ρ c main_v35 : S64x16.Idx → EReal) = wT3 (m ((c.tc : Thread nD τ).loc main_arg12)) :=
  (V5_eq_V3 m ρ c main_v35 (by decide) fun V => (mid_keeps V).2.2.2.2.1).trans (pre_v35 (W0 m ρ c))
theorem v36_row (c : Dev nD) : Spec.row0 (n := 16) (V5 m ρ c main_v36) = Spec.cur1 (n := 16) (m ((c.tc : Thread nD τ).loc main_arg13)) :=
  row0_of_reshape _ _ _ ((V5_eq_V3 m ρ c main_v36 (by decide) fun V => (mid_keeps V).2.2.2.2.2.1).trans (pre_v36 (W0 m ρ c)))
theorem v38_eq (c : Dev nD) : (V5 m ρ c main_v38 : S16x1.Idx → EReal) = wT4 (m ((c.tc : Thread nD τ).loc main_arg14)) :=
  (V5_eq_V3 m ρ c main_v38 (by decide) fun V => (mid_keeps V).2.2.2.2.2.2.1).trans (pre_v38 (W0 m ρ c))
theorem v39_row (c : Dev nD) : Spec.row0 (n := 1) (V5 m ρ c main_v39) = Spec.cur1 (n := 1) (m ((c.tc : Thread nD τ).loc main_arg15)) :=
  row0_of_reshape _ _ _ ((V5_eq_V3 m ρ c main_v39 (by decide) fun V => (mid_keeps V).2.2.2.2.2.2.2).trans (pre_v39 (W0 m ρ c)))

end Cert.KernelIdeal.Host

end
-- ==== Proof.KHostMid.lean ====
/-
  The host stretch between the two pallas_calls of the idealized kernel's program, and the one after the second, read
  as values at the ideal instance: the two cores' accumulator rows are added to 0 and divided by the batch size (the
  mean row, and likewise the mean of squares), the variance row is the mean of squares minus the squared mean clamped
  at 0, the first layer's output passes through untouched, and the result is the second call's one-column output with
  the unit column dropped.
-/
import proofs.«107007_j80882824118683_2_alg».proof.Proof.Gen.KernelIdeal.Frame
import proofs.«107007_j80882824118683_2_alg».proof.Proof.Spec
import Idealize.ShloMosaic.Lib.IdealHost
import Idealize.ShloMosaic.Lib.Pipeline.Value

set_option maxRecDepth 16384

noncomputable section

namespace Cert.KernelIdeal.HostMid

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The host operations as functions of the accumulator arrays

The stretch between the two regions computes two one-row matrices from the two accumulator arrays of shape
[2, 8, 256] (core, sublane row, column). Only sublane row 0 of each core's block is read. -/

/-- Row 0 of each core's block, the two cores added to 0 column by column, as a one-row matrix. -/
def sumRow (x : FVec Ideal S2x8x256 .f32) : FVec Ideal S1x256 .f32 :=
  broadcastInDim S1x256 ![1] bcast_S256_S1x256_1
    (Host.reduceAdd (F := Ideal)
      (shapeCast S2x256 (extractStridedSlice S2x1x256 ![0, 0, 0] x slices_S2x8x256_S2x1x256_0_0_0) shapeCasts_S2x1x256_S2x256)
      (constant (F := Ideal) S_ .f32 0x00000000#32) reducesTo_S2x256_S256_d0 h_S_)

/-- The batch size in every column of a one-row matrix. -/
def batchRow : FVec Ideal S1x256 .f32 :=
  broadcastInDim S1x256 ![] bcast_S_S1x256 (constant (F := Ideal) S_ .f32 0x47800000#32)

/-- Zero in every column of a one-row matrix. -/
def zeroRow : FVec Ideal S1x256 .f32 :=
  broadcastInDim S1x256 ![] bcast_S_S1x256 (constant (F := Ideal) S_ .f32 0x00000000#32)

/-- The column sums over the batch size. -/
def meanRow (x : FVec Ideal S2x8x256 .f32) : FVec Ideal S1x256 .f32 := Host.divf (F := Ideal) (sumRow x) batchRow

/-- The mean of squares minus the squared mean, clamped at 0. -/
def varRow (x1 x2 : FVec Ideal S2x8x256 .f32) : FVec Ideal S1x256 .f32 :=
  maximumf (subf (meanRow x2) (mulf (meanRow x1) (meanRow x1))) zeroRow

/-- The sum over the core axis of [2, 256] inserts the core coordinate in front of the column. -/
theorem lift_core (h : S2x256.Reduces [0] S256) (j : Fin 256) (core : Fin 2) : h.lift (ix1 j) core = ix2 core j :=
  funext fun a => match a with | ⟨0, _⟩ => Fin.ext rfl | ⟨1, _⟩ => Fin.ext rfl

/-- Column `j` of the sum row: 0 plus the two cores' entries at sublane row 0, column `j`. -/
theorem sumRow_apply (x : FVec Ideal S2x8x256 .f32) (j : Fin 256) :
    sumRow x (ix2 0 j) = 0 + ∑ core : Fin 2, x (ix3 core 0 j) := by
  have hR : S2x256.Reduces [0] S256 := by decide
  unfold sumRow
  -- the broadcast [256] → [1, 256] reads the vector at the column
  refine (broadcastInDim_apply _ bcast_S256_S1x256_1 _ (ix2 0 j) (ix1 j) (fun a => match a with | ⟨0, _⟩ => rfl)).trans ?_
  -- the host's sum over the core axis: the initial value plus the two cores' entries
  refine (hostReduceAdd_apply _ _ reducesTo_S2x256_S256_d0 h_S_ (ix1 j)).trans ?_
  refine (Ideal.hostReduceAdd_single reducesTo_S2x256_S256_d0 hR _ _ (ix1 j)).trans ?_
  refine congrArg₂ (· + ·) Ideal.ofBits_zero_f32 (Finset.sum_congr rfl fun core _ => ?_)
  rw [lift_core hR j core]
  -- dropping the unit axis of [2, 1, 256] keeps the row-major position
  refine (shapeCast_apply _ shapeCasts_S2x1x256_S2x256 (ix2 core j) (ix3 core 0 j) ?_).trans ?_
  · rw [Shape.rowMajor_val_three, Shape.rowMajor_val_two]
    show (core.val * 1 + 0) * 256 + j.val = core.val * 256 + j.val
    omega
  -- the slice [0:2, 0:1, 0:256] starts at the origin
  exact extractStridedSlice_apply ![0, 0, 0] x slices_S2x8x256_S2x1x256_0_0_0 (ix3 core 0 j) (ix3 core 0 j)
    (fun a => match a with
      | ⟨0, _⟩ => by show core.val = 0 + core.val; omega
      | ⟨1, _⟩ => by show 0 = 0 + 0; omega
      | ⟨2, _⟩ => by show j.val = 0 + j.val; omega)

/-- Column `j` of the batch-size row is the batch size. -/
theorem batchRow_apply (j : Fin 256) : batchRow (ix2 0 j) = Spec.nB :=
  broadcastInDim_scalar_apply bcast_S_S1x256 _ (ix2 0 j)

/-- Column `j` of the zero row is 0. -/
theorem zeroRow_apply (j : Fin 256) : zeroRow (ix2 0 j) = 0 :=
  (broadcastInDim_scalar_apply bcast_S_S1x256 _ (ix2 0 j)).trans Ideal.ofBits_zero_f32

/-- Column `j` of the mean row. -/
theorem meanRow_apply (x : FVec Ideal S2x8x256 .f32) (j : Fin 256) :
    meanRow x (ix2 0 j) = Ideal.div (0 + ∑ core : Fin 2, x (ix3 core 0 j)) Spec.nB := by
  show Ideal.div (sumRow x (ix2 0 j)) (batchRow (ix2 0 j)) = _
  rw [sumRow_apply, batchRow_apply]

/-- Column `j` of the variance row, over the two mean rows' columns. -/
theorem varRow_apply (x1 x2 : FVec Ideal S2x8x256 .f32) (j : Fin 256) :
    varRow x1 x2 (ix2 0 j) = max (meanRow x2 (ix2 0 j) - meanRow x1 (ix2 0 j) * meanRow x1 (ix2 0 j)) 0 := by
  show max (meanRow x2 (ix2 0 j) - meanRow x1 (ix2 0 j) * meanRow x1 (ix2 0 j)) (zeroRow (ix2 0 j)) = _
  rw [zeroRow_apply]

/-! ## The stretch over any contents it may be entered with -/

section Stretch
variable (W : Valuation τ sig (Elt Ideal))

/-- The stretch writes the mean row into its buffer … -/
theorem after1_v50 : StableHlo.after (hostOps1 (F := Ideal)) W (Proc.devRef .tc main_v50)
    = meanRow (W (Proc.devRef .tc main_v40_1)) := by
  after_results_simp; rfl

/-- … the variance row into its buffer … -/
theorem after1_v56 : StableHlo.after (hostOps1 (F := Ideal)) W (Proc.devRef .tc main_v56)
    = varRow (W (Proc.devRef .tc main_v40_1)) (W (Proc.devRef .tc main_v40_2)) := by
  after_results_simp; rfl

/-- … and leaves the first layer's output as it was. -/
theorem after1_v40_0 : StableHlo.after (hostOps1 (F := Ideal)) W (Proc.devRef .tc main_v40_0)
    = W (Proc.devRef .tc main_v40_0) := by
  after_results_simp

/-- The last operation drops the unit column of the second region's output. -/
theorem after2_v58 : StableHlo.after (hostOps2 (F := Ideal)) W (Proc.devRef .tc main_v58)
    = shapeCast S65536 (W (Proc.devRef .tc main_v57)) shapeCasts_S65536x1_S65536 := by
  after_results_simp; rfl

end Stretch

variable (m : (ℓ : Loc nD τ sig) → Buf (Elt Ideal) ℓ) (ρ : Dev nD → PrngReg)

/-! ## The arrays the second region is entered with -/

/-- The first layer's output is handed from the first region to the second untouched. -/
theorem v40_0_eq (c : Dev nD) : V5 m ρ c main_v40_0 = W4 m ρ c (Proc.devRef .tc main_v40_0) :=
  after1_v40_0 (W4 m ρ c)

/-- Row 0 of core `core`'s block of the first accumulator array as the first region leaves it. -/
abbrev acc1 (c : Dev nD) (core : Fin 2) (j : Fin 256) : EReal :=
  (W4 m ρ c (Proc.devRef .tc main_v40_1) : S2x8x256.Idx → EReal) (ix3 core 0 j)
/-- Row 0 of core `core`'s block of the second accumulator array as the first region leaves it. -/
abbrev acc2 (c : Dev nD) (core : Fin 2) (j : Fin 256) : EReal :=
  (W4 m ρ c (Proc.devRef .tc main_v40_2) : S2x8x256.Idx → EReal) (ix3 core 0 j)

/-- The mean row: the two cores' column sums added to 0, over the batch size. -/
theorem v50_row (c : Dev nD) (j : Fin 256) : Spec.row0 (n := 256) (V5 m ρ c main_v50) j
    = Ideal.div (0 + ∑ core : Fin 2, acc1 m ρ c core j) Spec.nB :=
  (congrFun (after1_v50 (W4 m ρ c)) (ix2 0 j)).trans (meanRow_apply _ j)

/-- The variance row: the mean of squares minus the squared mean, clamped at 0. -/
theorem v56_row (c : Dev nD) (j : Fin 256) : Spec.row0 (n := 256) (V5 m ρ c main_v56) j
    = max (Ideal.div (0 + ∑ core : Fin 2, acc2 m ρ c core j) Spec.nB
        - Spec.row0 (n := 256) (V5 m ρ c main_v50) j * Spec.row0 (n := 256) (V5 m ρ c main_v50) j) 0 := by
  have e50 : Spec.row0 (n := 256) (V5 m ρ c main_v50) j = meanRow (W4 m ρ c (Proc.devRef .tc main_v40_1)) (ix2 0 j) :=
    congrFun (after1_v50 (W4 m ρ c)) (ix2 0 j)
  refine (congrFun (after1_v56 (W4 m ρ c)) (ix2 0 j)).trans ((varRow_apply _ _ j).trans ?_)
  exact congrArg₂ (fun a b : EReal => max (a - b * b) 0) (meanRow_apply _ j) e50.symm

/-! ## The result -/

/-- The result at row `r` is the second region's output array at `(r, 0)`. -/
theorem v58_apply (c : Dev nD) (r : Fin 65536) : (W7 m ρ c (Proc.devRef .tc main_v58) : S65536.Idx → EReal) (ix1 r)
    = (W6 m ρ c (Proc.devRef .tc main_v57) : S65536x1.Idx → EReal) (ix2 r 0) := by
  refine (congrFun (after2_v58 (W6 m ρ c)) (ix1 r)).trans ?_
  -- dropping the unit column keeps the row-major position
  refine shapeCast_apply _ shapeCasts_S65536x1_S65536 (ix1 r) (ix2 r 0) ?_
  rw [Shape.rowMajor_val_two, Shape.rowMajor_val_one]
  show r.val * 1 + 0 = r.val
  omega

end Cert.KernelIdeal.HostMid

end
-- ==== Proof.KValue.lean ====
/-
  The idealized kernel's result as one function of its arguments. The final reshape reads the second pallas_call's
  one-column output; that call's output is the network's tail of the normalised first-layer output, with the mean and
  variance rows it is handed; those rows are the host's combination of the first call's per-core column sums; and the
  first call's outputs are the first layer (three feature groups contracted separately) and its tile-by-tile column
  sums. Substituting each stage into the next gives the tiled spelling of the network at the gathered features and
  the transposed weights.
-/
import proofs.«107007_j80882824118683_2_alg».proof.Proof.KernelRun
import proofs.«107007_j80882824118683_2_alg».proof.Proof.KRegion0Out
import proofs.«107007_j80882824118683_2_alg».proof.Proof.KRegion0Acc
import proofs.«107007_j80882824118683_2_alg».proof.Proof.KRegion1
import proofs.«107007_j80882824118683_2_alg».proof.Proof.KHostPre
import proofs.«107007_j80882824118683_2_alg».proof.Proof.KHostMid

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The network in the tiled spelling at core `c`'s arguments: the gathered features, the transposed weights, the
    bias and affine rows. -/
def out (c : Dev nD) (r : Fin 65536) : EReal :=
  Spec.outK (Spec.cur2 (n0 := 65536) (n1 := 32) (Host.featS (m ((c.tc : Thread nD τ).loc main_arg0)) (m ((c.tc : Thread nD τ).loc main_arg4))))
    (Spec.cur2 (n0 := 65536) (n1 := 16) (Host.featC (m ((c.tc : Thread nD τ).loc main_arg1)) (m ((c.tc : Thread nD τ).loc main_arg5))))
    (Spec.cur2 (n0 := 65536) (n1 := 392) (Host.featX (m ((c.tc : Thread nD τ).loc main_arg2)) (m ((c.tc : Thread nD τ).loc main_arg3))))
    (Spec.cur2 (n0 := 440) (n1 := 256) (Host.wT1 (m ((c.tc : Thread nD τ).loc main_arg6)))) (Spec.cur1 (n := 256) (m ((c.tc : Thread nD τ).loc main_arg7)))
    (Spec.cur1 (n := 256) (m ((c.tc : Thread nD τ).loc main_arg8))) (Spec.cur1 (n := 256) (m ((c.tc : Thread nD τ).loc main_arg9)))
    (Spec.cur2 (n0 := 256) (n1 := 64) (Host.wT2 (m ((c.tc : Thread nD τ).loc main_arg10)))) (Spec.cur1 (n := 64) (m ((c.tc : Thread nD τ).loc main_arg11)))
    (Spec.cur2 (n0 := 64) (n1 := 16) (Host.wT3 (m ((c.tc : Thread nD τ).loc main_arg12)))) (Spec.cur1 (n := 16) (m ((c.tc : Thread nD τ).loc main_arg13)))
    (Spec.cur2 (n0 := 16) (n1 := 1) (Host.wT4 (m ((c.tc : Thread nD τ).loc main_arg14)))) (Spec.cur1 (n := 1) (m ((c.tc : Thread nD τ).loc main_arg15))) r

/-- The first layer's output as the first region computes it is the split contraction at the gathered features. -/
theorem h1_eq (c : Dev nD) : Region0.h1 (V3 m ρ) c
    = Spec.lin1Split (Spec.cur2 (n0 := 65536) (n1 := 32) (Host.featS (m ((c.tc : Thread nD τ).loc main_arg0)) (m ((c.tc : Thread nD τ).loc main_arg4))))
        (Spec.cur2 (n0 := 65536) (n1 := 16) (Host.featC (m ((c.tc : Thread nD τ).loc main_arg1)) (m ((c.tc : Thread nD τ).loc main_arg5))))
        (Spec.cur2 (n0 := 65536) (n1 := 392) (Host.featX (m ((c.tc : Thread nD τ).loc main_arg2)) (m ((c.tc : Thread nD τ).loc main_arg3))))
        (Spec.cur2 (n0 := 440) (n1 := 256) (Host.wT1 (m ((c.tc : Thread nD τ).loc main_arg6)))) (Spec.cur1 (n := 256) (m ((c.tc : Thread nD τ).loc main_arg7))) := by
  unfold Region0.h1
  rw [Host.v17_eq m ρ c, Host.v25_eq m ρ c, Host.v9_eq m ρ c, Host.v27_eq m ρ c, Host.v28_row m ρ c]

/-- The first layer's output reaches the second region as the first region left it. -/
theorem v40_0_cur (c : Dev nD) : Spec.cur2 (n0 := 65536) (n1 := 256) (V5 m ρ c main_v40_0) = Region0.h1 (V3 m ρ) c := by
  funext r j
  have e : (V5 m ρ c main_v40_0 : S65536x256.Idx → EReal) = ((dat0 (F := Ideal) (V3 m ρ) c).arrAt 5 cfg0.N : S65536x256.Idx → EReal) :=
    (HostMid.v40_0_eq m ρ c).trans (W4_arr m ρ c 5)
  exact (congrFun e (ix2 r j)).trans (Region0.arr5 (V3 m ρ) c r j)

/-- The first accumulator's rows at the first region's exit are the cores' column sums. -/
theorem acc1_eq (c : Dev nD) (core : Fin 2) (j : Fin 256) : HostMid.acc1 m ρ c core j = Spec.coreSum (Region0.h1 (V3 m ρ) c) core j := by
  have e : (W4 m ρ c (Proc.devRef .tc main_v40_1) : S2x8x256.Idx → EReal) = ((dat0 (F := Ideal) (V3 m ρ) c).arrAt 6 cfg0.N : S2x8x256.Idx → EReal) :=
    W4_arr m ρ c 6
  exact (congrFun e (ix3 core 0 j)).trans (Region0.arr6 (V3 m ρ) c core j)

/-- The second accumulator's rows at the first region's exit are the cores' column sums of squares. -/
theorem acc2_eq (c : Dev nD) (core : Fin 2) (j : Fin 256) :
    HostMid.acc2 m ρ c core j = Spec.coreSum (fun r j => Region0.h1 (V3 m ρ) c r j * Region0.h1 (V3 m ρ) c r j) core j := by
  have e : (W4 m ρ c (Proc.devRef .tc main_v40_2) : S2x8x256.Idx → EReal) = ((dat0 (F := Ideal) (V3 m ρ) c).arrAt 7 cfg0.N : S2x8x256.Idx → EReal) :=
    W4_arr m ρ c 7
  exact (congrFun e (ix3 core 0 j)).trans (Region0.arr7 (V3 m ρ) c core j)

/-- The mean row the second region is handed is the tiled mean of the first layer's output. -/
theorem mean_eq (c : Dev nD) : Spec.row0 (n := 256) (V5 m ρ c main_v50) = Spec.meanK (Region0.h1 (V3 m ρ) c) := by
  funext j
  rw [HostMid.v50_row m ρ c j]
  simp only [acc1_eq m ρ c]
  rfl

/-- The variance row the second region is handed, clamped once more, is the tiled variance. -/
theorem var_eq (c : Dev nD) : (fun j => max (Spec.row0 (n := 256) (V5 m ρ c main_v56) j) 0) = Spec.varK (Region0.h1 (V3 m ρ) c) := by
  funext j
  rw [HostMid.v56_row m ρ c j, mean_eq m ρ c]
  simp only [acc2_eq m ρ c]
  rfl

/-- The result at row `r`: the tiled spelling of the network at the arguments. -/
theorem result_apply (c : Dev nD) (r : Fin 65536) :
    (W7 m ρ c (Proc.devRef .tc main_v58) : S65536.Idx → EReal) (ix1 r) = out m c r := by
  rw [HostMid.v58_apply m ρ c r]
  have e : (W6 m ρ c (Proc.devRef .tc main_v57) : S65536x1.Idx → EReal) = ((dat1 (F := Ideal) (V5 m ρ) c).arrAt 11 cfg1.N : S65536x1.Idx → EReal) :=
    W6_arr m ρ c 11
  refine (congrFun e (ix2 r 0)).trans ((Region1.arr11 (V5 m ρ) c r).trans ?_)
  rw [v40_0_cur m ρ c, mean_eq m ρ c, var_eq m ρ c, Host.v29_row m ρ c, Host.v30_row m ρ c, Host.v32_eq m ρ c, Host.v33_row m ρ c,
    Host.v35_eq m ρ c, Host.v36_row m ρ c, Host.v38_eq m ρ c, Host.v39_row m ρ c, h1_eq m ρ c]
  rfl

/-- The result array as a whole. -/
theorem result_eq (c : Dev nD) : (W7 m ρ c (Proc.devRef .tc main_v58) : S65536.Idx → EReal) = fun i => out m c (i 0) := by
  funext i
  obtain ⟨r, rfl⟩ : ∃ r : Fin 65536, i = ix1 r := ⟨i 0, eq_ix1 i⟩
  exact result_apply m ρ c r

end Cert.KernelIdeal.Value

end
-- ==== Proof.RefRun.lean ====
/-
  The idealized reference as a straight line of host operations, and its run. The outlined functions (the
  floor-style remainder with its inner select, and the two rectifiers) are written out at their call sites over each
  call's own buffers, so the whole program is one list of 108 operations, cut here into three consecutive stretches:
  the gathers, their concatenation and the first linear layer; the batch mean and variance; the normalisation and the
  three remaining layers. Every weakly fair execution terminates without a fault, each buffer ending at the fold of the
  operations over the launch contents.
-/
import proofs.«107007_j80882824118683_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The front end and the first layer: the index arithmetic, the three gathers, their concatenation, the contraction with the transposed weight and the bias (56 operations; the last writes the first layer's output). -/
abbrev opsA : List (HloOp τ sig (Elt F)) :=
  ( StableHlo.nullary main_c (constantI S_ 32 16777216#32)
  :: StableHlo.TRef.unary (.of main_c : StableHlo.TRef sig ⟨S_, .i32⟩) main_call0.v0 id
  :: StableHlo.TRef.nullary main_call0.c (constantI S_ 32 0#32)
  :: StableHlo.TRef.binary main_call0.v0 main_call0.c main_call0.v1 (cmpi .eq)
  :: StableHlo.TRef.nullary main_call0.c_0 (constantI S_ 32 1#32)
  :: StableHlo.TRef.ternary main_call0.v1 main_call0.c_0 main_call0.v0 main_call0.call0.v0 select
  :: StableHlo.TRef.unary main_call0.call0.v0 main_call0.v3 (broadcastInDim S65536x7x7 ![] bcast_S_S65536x7x7)
  :: StableHlo.TRef.binary (.of main_arg2 : StableHlo.TRef sig ⟨S65536x7x7, .i32⟩) main_call0.v3 main_call0.v4 Host.remsi
  :: StableHlo.TRef.nullary main_call0.c_1 (constantI S_ 32 0#32)
  :: StableHlo.TRef.unary main_call0.c_1 main_call0.v5 (broadcastInDim S65536x7x7 ![] bcast_S_S65536x7x7)
  :: StableHlo.TRef.binary main_call0.v4 main_call0.v5 main_call0.v6 (cmpi .ne)
  :: StableHlo.TRef.nullary main_call0.c_2 (constantI S_ 32 0#32)
  :: StableHlo.TRef.unary main_call0.c_2 main_call0.v7 (broadcastInDim S65536x7x7 ![] bcast_S_S65536x7x7)
  :: StableHlo.TRef.binary main_call0.v4 main_call0.v7 main_call0.v8 (cmpi .slt)
  :: StableHlo.TRef.nullary main_call0.c_3 (constantI S_ 32 0#32)
  :: StableHlo.TRef.binary main_call0.call0.v0 main_call0.c_3 main_call0.v9 (cmpi .slt)
  :: StableHlo.TRef.unary main_call0.v9 main_call0.v10 (broadcastInDim S65536x7x7 ![] bcast_S_S65536x7x7)
  :: StableHlo.TRef.binary main_call0.v8 main_call0.v10 main_call0.v11 (cmpi .ne)
  :: StableHlo.TRef.binary main_call0.v11 main_call0.v6 main_call0.v12 andi
  :: StableHlo.TRef.unary main_call0.call0.v0 main_call0.v13 (broadcastInDim S65536x7x7 ![] bcast_S_S65536x7x7)
  :: StableHlo.TRef.binary main_call0.v4 main_call0.v13 main_call0.v14 addi
  :: StableHlo.TRef.ternary main_call0.v12 main_call0.v14 main_call0.v4 main_call0.v15 select
  :: StableHlo.nullary main_c_0 (constantI S_ 32 0#32)
  :: StableHlo.unary main_c_0 main_v1 (broadcastInDim S65536x7x7 ![] bcast_S_S65536x7x7 : (⟨S_, .i32⟩ : BufTy).Contents (Elt F) → (⟨S65536x7x7, .i32⟩ : BufTy).Contents (Elt F))
  :: StableHlo.binary main_v0 main_v1 main_v2 (cmpi .slt : (⟨S65536x7x7, .i32⟩ : BufTy).Contents (Elt F) → (⟨S65536x7x7, .i32⟩ : BufTy).Contents (Elt F) → (⟨S65536x7x7, .i1⟩ : BufTy).Contents (Elt F))
  :: StableHlo.nullary main_c_1 (constantI S_ 32 16777216#32)
  :: StableHlo.unary main_c_1 main_v3 (broadcastInDim S65536x7x7 ![] bcast_S_S65536x7x7 : (⟨S_, .i32⟩ : BufTy).Contents (Elt F) → (⟨S65536x7x7, .i32⟩ : BufTy).Contents (Elt F))
  :: StableHlo.binary main_v0 main_v3 main_v4 (addi : (⟨S65536x7x7, .i32⟩ : BufTy).Contents (Elt F) → (⟨S65536x7x7, .i32⟩ : BufTy).Contents (Elt F) → (⟨S65536x7x7, .i32⟩ : BufTy).Contents (Elt F))
  :: StableHlo.ternary main_v2 main_v4 main_v0 main_v5 (select : (⟨S65536x7x7, .i1⟩ : BufTy).Contents (Elt F) → (⟨S65536x7x7, .i32⟩ : BufTy).Contents (Elt F) → (⟨S65536x7x7, .i32⟩ : BufTy).Contents (Elt F) → (⟨S65536x7x7, .i32⟩ : BufTy).Contents (Elt F))
  :: StableHlo.unary main_v5 main_v6 (broadcastInDim S65536x7x7x1 ![0, 1, 2] bcast_S65536x7x7_S65536x7x7x1_0_1_2 : (⟨S65536x7x7, .i32⟩ : BufTy).Contents (Elt F) → (⟨S65536x7x7x1, .i32⟩ : BufTy).Contents (Elt F))
  :: StableHlo.binary main_arg3 main_v6 main_v7 ((fun x i => Host.gather gather_S16777216x8_S65536x7x7x1_S65536x7x7x8_3_0_n_n_0_3_18 x i) : (⟨S16777216x8, .f32⟩ : BufTy).Contents (Elt F) → (⟨S65536x7x7x1, .i32⟩ : BufTy).Contents (Elt F) → (⟨S65536x7x7x8, .f32⟩ : BufTy).Contents (Elt F))
  :: StableHlo.reshape main_v7 main_v8 rfl shapeCasts_S65536x7x7x8_S65536x392
  :: StableHlo.nullary main_c_2 (constantI S_ 32 0#32)
  :: StableHlo.unary main_c_2 main_v9 (broadcastInDim S65536 ![] bcast_S_S65536 : (⟨S_, .i32⟩ : BufTy).Contents (Elt F) → (⟨S65536, .i32⟩ : BufTy).Contents (Elt F))
  :: StableHlo.binary main_arg0 main_v9 main_v10 (cmpi .slt : (⟨S65536, .i32⟩ : BufTy).Contents (Elt F) → (⟨S65536, .i32⟩ : BufTy).Contents (Elt F) → (⟨S65536, .i1⟩ : BufTy).Contents (Elt F))
  :: StableHlo.nullary main_c_3 (constantI S_ 32 4#32)
  :: StableHlo.unary main_c_3 main_v11 (broadcastInDim S65536 ![] bcast_S_S65536 : (⟨S_, .i32⟩ : BufTy).Contents (Elt F) → (⟨S65536, .i32⟩ : BufTy).Contents (Elt F))
  :: StableHlo.binary main_arg0 main_v11 main_v12 (addi : (⟨S65536, .i32⟩ : BufTy).Contents (Elt F) → (⟨S65536, .i32⟩ : BufTy).Contents (Elt F) → (⟨S65536, .i32⟩ : BufTy).Contents (Elt F))
  :: StableHlo.ternary main_v10 main_v12 main_arg0 main_v13 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v13 main_v14 (broadcastInDim S65536x1 ![0] bcast_S65536_S65536x1_0 : (⟨S65536, .i32⟩ : BufTy).Contents (Elt F) → (⟨S65536x1, .i32⟩ : BufTy).Contents (Elt F))
  :: StableHlo.binary main_arg4 main_v14 main_v15 ((fun x i => Host.gather gather_S4x32_S65536x1_S65536x32_1_0_n_n_0_1_132 x i) : (⟨S4x32, .f32⟩ : BufTy).Contents (Elt F) → (⟨S65536x1, .i32⟩ : BufTy).Contents (Elt F) → (⟨S65536x32, .f32⟩ : BufTy).Contents (Elt F))
  :: StableHlo.nullary main_c_4 (constantI S_ 32 0#32)
  :: StableHlo.unary main_c_4 main_v16 (broadcastInDim S65536 ![] bcast_S_S65536 : (⟨S_, .i32⟩ : BufTy).Contents (Elt F) → (⟨S65536, .i32⟩ : BufTy).Contents (Elt F))
  :: StableHlo.binary main_arg1 main_v16 main_v17 (cmpi .slt : (⟨S65536, .i32⟩ : BufTy).Contents (Elt F) → (⟨S65536, .i32⟩ : BufTy).Contents (Elt F) → (⟨S65536, .i1⟩ : BufTy).Contents (Elt F))
  :: StableHlo.nullary main_c_5 (constantI S_ 32 200#32)
  :: StableHlo.unary main_c_5 main_v18 (broadcastInDim S65536 ![] bcast_S_S65536 : (⟨S_, .i32⟩ : BufTy).Contents (Elt F) → (⟨S65536, .i32⟩ : BufTy).Contents (Elt F))
  :: StableHlo.binary main_arg1 main_v18 main_v19 (addi : (⟨S65536, .i32⟩ : BufTy).Contents (Elt F) → (⟨S65536, .i32⟩ : BufTy).Contents (Elt F) → (⟨S65536, .i32⟩ : BufTy).Contents (Elt F))
  :: StableHlo.ternary main_v17 main_v19 main_arg1 main_v20 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v20 main_v21 (broadcastInDim S65536x1 ![0] bcast_S65536_S65536x1_0 : (⟨S65536, .i32⟩ : BufTy).Contents (Elt F) → (⟨S65536x1, .i32⟩ : BufTy).Contents (Elt F))
  :: StableHlo.binary main_arg5 main_v21 main_v22 ((fun x i => Host.gather gather_S200x16_S65536x1_S65536x16_1_0_n_n_0_1_116 x i) : (⟨S200x16, .f32⟩ : BufTy).Contents (Elt F) → (⟨S65536x1, .i32⟩ : BufTy).Contents (Elt F) → (⟨S65536x16, .f32⟩ : BufTy).Contents (Elt F))
  :: StableHlo.nary ![main_v15, main_v22, main_v8] main_v23 (fun u => concatenate S65536x440 1 [⟨S65536x32, u 0⟩, ⟨S65536x16, u 1⟩, ⟨S65536x392, u 2⟩] concatenates_S65536x32_S65536x16_S65536x392_S65536x440_d1)
  :: StableHlo.unary main_arg6 main_v24 ((transpose S440x256 [1, 0] · transposes_S256x440_S440x256_1_0) : (⟨S256x440, .f32⟩ : BufTy).Contents (Elt F) → (⟨S440x256, .f32⟩ : BufTy).Contents (Elt F))
  :: StableHlo.binary main_v23 main_v24 main_v25 ((fun l r => Host.dotGeneral dot_S65536x440_S440x256_S65536x256_1_0_0_1_n_n none l r) : (⟨S65536x440, .f32⟩ : BufTy).Contents (Elt F) → (⟨S440x256, .f32⟩ : BufTy).Contents (Elt F) → (⟨S65536x256, .f32⟩ : BufTy).Contents (Elt F))
  :: StableHlo.unary main_arg7 main_v26 (broadcastInDim S1x256 ![1] bcast_S256_S1x256_1 : (⟨S256, .f32⟩ : BufTy).Contents (Elt F) → (⟨S1x256, .f32⟩ : BufTy).Contents (Elt F))
  :: StableHlo.unary main_v26 main_v27 (broadcastInDim S65536x256 ![0, 1] bcast_S1x256_S65536x256_0_1 : (⟨S1x256, .f32⟩ : BufTy).Contents (Elt F) → (⟨S65536x256, .f32⟩ : BufTy).Contents (Elt F))
  :: StableHlo.binary main_v25 main_v27 main_v28 (addf : (⟨S65536x256, .f32⟩ : BufTy).Contents (Elt F) → (⟨S65536x256, .f32⟩ : BufTy).Contents (Elt F) → (⟨S65536x256, .f32⟩ : BufTy).Contents (Elt F))
  :: [] )

/-- The batch statistics of the first layer's output: the column sums over all rows, the mean, the centred squares, their column sums and the variance (14 operations). -/
abbrev opsB : List (HloOp τ sig (Elt F)) :=
  ( StableHlo.nullary main_cst (constant S_ .f32 0x00000000#32)
  :: StableHlo.binary main_v28 main_cst main_v29 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F))
  :: StableHlo.nullary main_cst_6 (constant S_ .f32 0x47800000#32)
  :: StableHlo.unary main_cst_6 main_v30 (broadcastInDim S256 ![] bcast_S_S256 : (⟨S_, .f32⟩ : BufTy).Contents (Elt F) → (⟨S256, .f32⟩ : BufTy).Contents (Elt F))
  :: StableHlo.binary main_v29 main_v30 main_v31 (Host.divf : (⟨S256, .f32⟩ : BufTy).Contents (Elt F) → (⟨S256, .f32⟩ : BufTy).Contents (Elt F) → (⟨S256, .f32⟩ : BufTy).Contents (Elt F))
  :: StableHlo.unary main_v31 main_v32 (broadcastInDim S1x256 ![1] bcast_S256_S1x256_1 : (⟨S256, .f32⟩ : BufTy).Contents (Elt F) → (⟨S1x256, .f32⟩ : BufTy).Contents (Elt F))
  :: StableHlo.unary main_v32 main_v33 (broadcastInDim S65536x256 ![0, 1] bcast_S1x256_S65536x256_0_1 : (⟨S1x256, .f32⟩ : BufTy).Contents (Elt F) → (⟨S65536x256, .f32⟩ : BufTy).Contents (Elt F))
  :: StableHlo.binary main_v28 main_v33 main_v34 (subf : (⟨S65536x256, .f32⟩ : BufTy).Contents (Elt F) → (⟨S65536x256, .f32⟩ : BufTy).Contents (Elt F) → (⟨S65536x256, .f32⟩ : BufTy).Contents (Elt F))
  :: StableHlo.binary main_v34 main_v34 main_v35 (mulf : (⟨S65536x256, .f32⟩ : BufTy).Contents (Elt F) → (⟨S65536x256, .f32⟩ : BufTy).Contents (Elt F) → (⟨S65536x256, .f32⟩ : BufTy).Contents (Elt F))
  :: StableHlo.nullary main_cst_7 (constant S_ .f32 0x00000000#32)
  :: StableHlo.binary main_v35 main_cst_7 main_v36 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F))
  :: StableHlo.nullary main_cst_8 (constant S_ .f32 0x47800000#32)
  :: StableHlo.unary main_cst_8 main_v37 (broadcastInDim S256 ![] bcast_S_S256 : (⟨S_, .f32⟩ : BufTy).Contents (Elt F) → (⟨S256, .f32⟩ : BufTy).Contents (Elt F))
  :: StableHlo.binary main_v36 main_v37 main_v38 (Host.divf : (⟨S256, .f32⟩ : BufTy).Contents (Elt F) → (⟨S256, .f32⟩ : BufTy).Contents (Elt F) → (⟨S256, .f32⟩ : BufTy).Contents (Elt F))
  :: [] )

/-- The normalisation with its affine map, the two rectified layers and the last layer, and the final reshape (38 operations). -/
abbrev opsC : List (HloOp τ sig (Elt F)) :=
  ( StableHlo.unary main_v31 main_v39 (broadcastInDim S1x256 ![1] bcast_S256_S1x256_1 : (⟨S256, .f32⟩ : BufTy).Contents (Elt F) → (⟨S1x256, .f32⟩ : BufTy).Contents (Elt F))
  :: StableHlo.unary main_v39 main_v40 (broadcastInDim S65536x256 ![0, 1] bcast_S1x256_S65536x256_0_1 : (⟨S1x256, .f32⟩ : BufTy).Contents (Elt F) → (⟨S65536x256, .f32⟩ : BufTy).Contents (Elt F))
  :: StableHlo.binary main_v28 main_v40 main_v41 (subf : (⟨S65536x256, .f32⟩ : BufTy).Contents (Elt F) → (⟨S65536x256, .f32⟩ : BufTy).Contents (Elt F) → (⟨S65536x256, .f32⟩ : BufTy).Contents (Elt F))
  :: StableHlo.nullary main_cst_9 (constant S_ .f32 0x3727C5AC#32)
  :: StableHlo.unary main_cst_9 main_v42 (broadcastInDim S256 ![] bcast_S_S256 : (⟨S_, .f32⟩ : BufTy).Contents (Elt F) → (⟨S256, .f32⟩ : BufTy).Contents (Elt F))
  :: StableHlo.binary main_v38 main_v42 main_v43 (addf : (⟨S256, .f32⟩ : BufTy).Contents (Elt F) → (⟨S256, .f32⟩ : BufTy).Contents (Elt F) → (⟨S256, .f32⟩ : BufTy).Contents (Elt F))
  :: StableHlo.unary main_v43 main_v44 (Host.rsqrt : (⟨S256, .f32⟩ : BufTy).Contents (Elt F) → (⟨S256, .f32⟩ : BufTy).Contents (Elt F))
  :: StableHlo.unary main_v44 main_v45 (broadcastInDim S1x256 ![1] bcast_S256_S1x256_1 : (⟨S256, .f32⟩ : BufTy).Contents (Elt F) → (⟨S1x256, .f32⟩ : BufTy).Contents (Elt F))
  :: StableHlo.unary main_v45 main_v46 (broadcastInDim S65536x256 ![0, 1] bcast_S1x256_S65536x256_0_1 : (⟨S1x256, .f32⟩ : BufTy).Contents (Elt F) → (⟨S65536x256, .f32⟩ : BufTy).Contents (Elt F))
  :: StableHlo.binary main_v41 main_v46 main_v47 (mulf : (⟨S65536x256, .f32⟩ : BufTy).Contents (Elt F) → (⟨S65536x256, .f32⟩ : BufTy).Contents (Elt F) → (⟨S65536x256, .f32⟩ : BufTy).Contents (Elt F))
  :: StableHlo.unary main_arg8 main_v48 (broadcastInDim S1x256 ![1] bcast_S256_S1x256_1 : (⟨S256, .f32⟩ : BufTy).Contents (Elt F) → (⟨S1x256, .f32⟩ : BufTy).Contents (Elt F))
  :: StableHlo.unary main_v48 main_v49 (broadcastInDim S65536x256 ![0, 1] bcast_S1x256_S65536x256_0_1 : (⟨S1x256, .f32⟩ : BufTy).Contents (Elt F) → (⟨S65536x256, .f32⟩ : BufTy).Contents (Elt F))
  :: StableHlo.binary main_v47 main_v49 main_v50 (mulf : (⟨S65536x256, .f32⟩ : BufTy).Contents (Elt F) → (⟨S65536x256, .f32⟩ : BufTy).Contents (Elt F) → (⟨S65536x256, .f32⟩ : BufTy).Contents (Elt F))
  :: StableHlo.unary main_arg9 main_v51 (broadcastInDim S1x256 ![1] bcast_S256_S1x256_1 : (⟨S256, .f32⟩ : BufTy).Contents (Elt F) → (⟨S1x256, .f32⟩ : BufTy).Contents (Elt F))
  :: StableHlo.unary main_v51 main_v52 (broadcastInDim S65536x256 ![0, 1] bcast_S1x256_S65536x256_0_1 : (⟨S1x256, .f32⟩ : BufTy).Contents (Elt F) → (⟨S65536x256, .f32⟩ : BufTy).Contents (Elt F))
  :: StableHlo.binary main_v50 main_v52 main_v53 (addf : (⟨S65536x256, .f32⟩ : BufTy).Contents (Elt F) → (⟨S65536x256, .f32⟩ : BufTy).Contents (Elt F) → (⟨S65536x256, .f32⟩ : BufTy).Contents (Elt F))
  :: StableHlo.unary main_arg10 main_v54 ((transpose S256x64 [1, 0] · transposes_S64x256_S256x64_1_0) : (⟨S64x256, .f32⟩ : BufTy).Contents (Elt F) → (⟨S256x64, .f32⟩ : BufTy).Contents (Elt F))
  :: StableHlo.binary main_v53 main_v54 main_v55 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F))
  :: StableHlo.unary main_arg11 main_v56 (broadcastInDim S1x64 ![1] bcast_S64_S1x64_1 : (⟨S64, .f32⟩ : BufTy).Contents (Elt F) → (⟨S1x64, .f32⟩ : BufTy).Contents (Elt F))
  :: StableHlo.unary main_v56 main_v57 (broadcastInDim S65536x64 ![0, 1] bcast_S1x64_S65536x64_0_1 : (⟨S1x64, .f32⟩ : BufTy).Contents (Elt F) → (⟨S65536x64, .f32⟩ : BufTy).Contents (Elt F))
  :: StableHlo.binary main_v55 main_v57 main_v58 (addf : (⟨S65536x64, .f32⟩ : BufTy).Contents (Elt F) → (⟨S65536x64, .f32⟩ : BufTy).Contents (Elt F) → (⟨S65536x64, .f32⟩ : BufTy).Contents (Elt F))
  :: StableHlo.TRef.nullary main_call1.cst (constant S_ .f32 0x00000000#32)
  :: StableHlo.TRef.unary main_call1.cst main_call1.v0 (broadcastInDim S65536x64 ![] bcast_S_S65536x64)
  :: StableHlo.TRef.binary (.of main_v58 : StableHlo.TRef sig ⟨S65536x64, .f32⟩) main_call1.v0 main_call1.v1 maximumf
  :: StableHlo.unary main_arg12 main_v60 ((transpose S64x16 [1, 0] · transposes_S16x64_S64x16_1_0) : (⟨S16x64, .f32⟩ : BufTy).Contents (Elt F) → (⟨S64x16, .f32⟩ : BufTy).Contents (Elt F))
  :: StableHlo.binary main_v59 main_v60 main_v61 ((fun l r => Host.dotGeneral dot_S65536x64_S64x16_S65536x16_1_0_0_1_n_n none l r) : (⟨S65536x64, .f32⟩ : BufTy).Contents (Elt F) → (⟨S64x16, .f32⟩ : BufTy).Contents (Elt F) → (⟨S65536x16, .f32⟩ : BufTy).Contents (Elt F))
  :: StableHlo.unary main_arg13 main_v62 (broadcastInDim S1x16 ![1] bcast_S16_S1x16_1 : (⟨S16, .f32⟩ : BufTy).Contents (Elt F) → (⟨S1x16, .f32⟩ : BufTy).Contents (Elt F))
  :: StableHlo.unary main_v62 main_v63 (broadcastInDim S65536x16 ![0, 1] bcast_S1x16_S65536x16_0_1 : (⟨S1x16, .f32⟩ : BufTy).Contents (Elt F) → (⟨S65536x16, .f32⟩ : BufTy).Contents (Elt F))
  :: StableHlo.binary main_v61 main_v63 main_v64 (addf : (⟨S65536x16, .f32⟩ : BufTy).Contents (Elt F) → (⟨S65536x16, .f32⟩ : BufTy).Contents (Elt F) → (⟨S65536x16, .f32⟩ : BufTy).Contents (Elt F))
  :: StableHlo.TRef.nullary main_call2.cst (constant S_ .f32 0x00000000#32)
  :: StableHlo.TRef.unary main_call2.cst main_call2.v0 (broadcastInDim S65536x16 ![] bcast_S_S65536x16)
  :: StableHlo.TRef.binary (.of main_v64 : StableHlo.TRef sig ⟨S65536x16, .f32⟩) main_call2.v0 main_call2.v1 maximumf
  :: StableHlo.unary main_arg14 main_v66 ((transpose S16x1 [1, 0] · transposes_S1x16_S16x1_1_0) : (⟨S1x16, .f32⟩ : BufTy).Contents (Elt F) → (⟨S16x1, .f32⟩ : BufTy).Contents (Elt F))
  :: StableHlo.binary main_v65 main_v66 main_v67 ((fun l r => Host.dotGeneral dot_S65536x16_S16x1_S65536x1_1_0_0_1_n_n none l r) : (⟨S65536x16, .f32⟩ : BufTy).Contents (Elt F) → (⟨S16x1, .f32⟩ : BufTy).Contents (Elt F) → (⟨S65536x1, .f32⟩ : BufTy).Contents (Elt F))
  :: StableHlo.unary main_arg15 main_v68 (broadcastInDim S1x1 ![1] bcast_S1_S1x1_1 : (⟨S1, .f32⟩ : BufTy).Contents (Elt F) → (⟨S1x1, .f32⟩ : BufTy).Contents (Elt F))
  :: StableHlo.unary main_v68 main_v69 (broadcastInDim S65536x1 ![0, 1] bcast_S1x1_S65536x1_0_1 : (⟨S1x1, .f32⟩ : BufTy).Contents (Elt F) → (⟨S65536x1, .f32⟩ : BufTy).Contents (Elt F))
  :: StableHlo.binary main_v67 main_v69 main_v70 (addf : (⟨S65536x1, .f32⟩ : BufTy).Contents (Elt F) → (⟨S65536x1, .f32⟩ : BufTy).Contents (Elt F) → (⟨S65536x1, .f32⟩ : BufTy).Contents (Elt F))
  :: StableHlo.reshape main_v70 main_v71 rfl shapeCasts_S65536x1_S65536
  :: [] )

/-- The whole program: the three stretches in order. -/
abbrev ops : List (HloOp τ sig (Elt F)) := opsA ++ (opsB ++ opsC)

set_option maxRecDepth 8192 in
set_option maxHeartbeats 16000000 in
/-- The first printed window of @main is the line's first 80 operations. -/
theorem part0_eq (c : Dev nD) : main_part0 (F := F) c = seq (opsA ++ (opsB ++ (opsC.take 10))) := by
  simp only [main_part0, fn_remainder.body, fn_where.body, opsA, opsB, opsC, List.take, List.cons_append, List.nil_append, seq,
    bind_assoc, pure_bind]
  rfl

set_option maxRecDepth 8192 in
set_option maxHeartbeats 16000000 in
/-- The second printed window of @main is the line's last 28 operations. -/
theorem part1_eq (c : Dev nD) : main_part1 (F := F) c = seq (opsC.drop 10) := by
  simp only [main_part1, fn_relu.body, fn_relu_0.body, opsC, List.drop, seq, bind_assoc, pure_bind]

/-- @main is that straight line: the outlined functions unfolded at their calls, sequencing re-associated. -/
theorem main_eq (c : Dev nD) : main (F := F) c = seq ops := by
  have e : (ops : List (HloOp τ sig (Elt F))) = (opsA ++ (opsB ++ (opsC.take 10))) ++ opsC.drop 10 := by
    rw [List.append_assoc, List.append_assoc, List.take_append_drop]
  rw [e, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.unary_bufs_sub .., StableHlo.binary_bufs_sub .., StableHlo.unary_bufs_sub .., StableHlo.unary_bufs_sub .., StableHlo.binary_bufs_sub ..⟩
theorem opsB_sub : (opsB : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub ..⟩
theorem opsC_sub : (opsC : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub ..⟩
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    rcases List.mem_append.mp h with h | h
    · exact List.forall_iff_forall_mem.mp opsB_sub op h
    · exact List.forall_iff_forall_mem.mp opsC_sub op h

/-- No operation of the line allocates: each determines its results. -/
theorem ops_fresh : ∀ op ∈ (ops : List (HloOp τ sig (Elt F))), op.fresh = ∅ := by
  intro _ h
  simp only [ops, opsA, opsB, opsC, List.cons_append, List.nil_append] at h
  (repeat (cases h with | head => rfl | tail _ h => ?_)); exact nomatch h

/-- Every weakly fair execution of @main terminates, nothing faulting, with each TensorCore buffer at the fold of the
    operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefReadA.lean ====
/-
  The reference's first stretch read as values, at the ideal instance, over ANY valuation `V` of the buffers: the three
  gathered feature groups (the indices wrapped when negative, the embedding indices first reduced modulo the
  vocabulary) are laid side by side into a [65536, 440] matrix, contracted with the transposed first weight and the
  bias is added. At row `r` and column `j` the stretch's last buffer is the sum over the 440 features of feature times
  weight, plus the bias at `j`. The later arguments pass through untouched.

  The stretch is read in two pieces. Its first fifty operations compute the three feature groups, each a composition of
  the printed index arithmetic and one gather, and leave the weight and the bias alone. Its last six lay the groups side
  by side, transpose the weight, contract, and add the bias repeated down the rows; read at an index these are the
  specification's first layer over the specification's side-by-side matrix.
-/
import proofs.«107007_j80882824118683_2_alg».proof.Proof.RefRun
import proofs.«107007_j80882824118683_2_alg».proof.Proof.Spec
import Idealize.ShloMosaic.PureOps.Ideal.Laws
import Idealize.ShloMosaic.Lib.Pipeline.Value
import Idealize.ShloMosaic.Lib.Pipeline.Frame

set_option maxRecDepth 16384

noncomputable section

namespace Cert.ReferenceIdeal.RefRead

open Cert.ReferenceIdeal Cert.ReferenceIdeal.Gen Cert.ReferenceIdeal.RefRun
open Idealize.ShloMosaic Idealize.ShloMosaic.TcCoe Idealize.ShloMosaic.ValueIdx Idealize.SL.Sem Idealize.ShloMosaic.StableHlo
open scoped BigOperators

variable (V : Valuation τ sig (Elt Ideal))

/-- The state features: rows of the state table at the state indices (a negative index wrapped by the table's height). -/
def featS (a0 : S65536.Idx → BitVec 32) (t : S4x32.Idx → EReal) : S65536x32.Idx → EReal :=
  Host.gather gather_S4x32_S65536x1_S65536x32_1_0_n_n_0_1_132 t
    (broadcastInDim S65536x1 ![0] bcast_S65536_S65536x1_0
      (select (cmpi .slt a0 (broadcastInDim S65536 ![] bcast_S_S65536 (constantI S_ 32 0#32)))
        (addi a0 (broadcastInDim S65536 ![] bcast_S_S65536 (constantI S_ 32 4#32))) a0))

/-- The counts features: rows of the counts table at the counts indices (a negative index wrapped). -/
def featC (a1 : S65536.Idx → BitVec 32) (t : S200x16.Idx → EReal) : S65536x16.Idx → EReal :=
  Host.gather gather_S200x16_S65536x1_S65536x16_1_0_n_n_0_1_116 t
    (broadcastInDim S65536x1 ![0] bcast_S65536_S65536x1_0
      (select (cmpi .slt a1 (broadcastInDim S65536 ![] bcast_S_S65536 (constantI S_ 32 0#32)))
        (addi a1 (broadcastInDim S65536 ![] bcast_S_S65536 (constantI S_ 32 200#32))) a1))

/-- The embedding features: for each of a row's 49 indices, reduced modulo the vocabulary, that row of the embedding
    table, the 49 rows of 8 laid side by side. The reduction is the floor-style remainder: the truncating remainder by
    the vocabulary size (the divisor replaced by 1 were it 0), moved up by the divisor where it is not zero and its sign
    differs from the divisor's; the result is then wrapped like the other indices. -/
def featX (a2 : S65536x7x7.Idx → BitVec 32) (t : S16777216x8.Idx → EReal) : S65536x392.Idx → EReal :=
  shapeCast S65536x392
    (Host.gather gather_S16777216x8_S65536x7x7x1_S65536x7x7x8_3_0_n_n_0_3_18 t
      (broadcastInDim S65536x7x7x1 ![0, 1, 2] bcast_S65536x7x7_S65536x7x7x1_0_1_2
        (select
          (cmpi .slt
            (select
              (andi
                (cmpi .ne
                  (cmpi .slt (Host.remsi a2 (broadcastInDim S65536x7x7 ![] bcast_S_S65536x7x7 (select (cmpi .eq (id (constantI S_ 32 16777216#32)) (constantI S_ 32 0#32)) (constantI S_ 32 1#32) (id (constantI S_ 32 16777216#32))))) (broadcastInDim S65536x7x7 ![] bcast_S_S65536x7x7 (constantI S_ 32 0#32)))
                  (broadcastInDim S65536x7x7 ![] bcast_S_S65536x7x7 (cmpi .slt (select (cmpi .eq (id (constantI S_ 32 16777216#32)) (constantI S_ 32 0#32)) (constantI S_ 32 1#32) (id (constantI S_ 32 16777216#32))) (constantI S_ 32 0#32))))
                (cmpi .ne (Host.remsi a2 (broadcastInDim S65536x7x7 ![] bcast_S_S65536x7x7 (select (cmpi .eq (id (constantI S_ 32 16777216#32)) (constantI S_ 32 0#32)) (constantI S_ 32 1#32) (id (constantI S_ 32 16777216#32))))) (broadcastInDim S65536x7x7 ![] bcast_S_S65536x7x7 (constantI S_ 32 0#32))))
              (addi (Host.remsi a2 (broadcastInDim S65536x7x7 ![] bcast_S_S65536x7x7 (select (cmpi .eq (id (constantI S_ 32 16777216#32)) (constantI S_ 32 0#32)) (constantI S_ 32 1#32) (id (constantI S_ 32 16777216#32))))) (broadcastInDim S65536x7x7 ![] bcast_S_S65536x7x7 (select (cmpi .eq (id (constantI S_ 32 16777216#32)) (constantI S_ 32 0#32)) (constantI S_ 32 1#32) (id (constantI S_ 32 16777216#32)))))
              (Host.remsi a2 (broadcastInDim S65536x7x7 ![] bcast_S_S65536x7x7 (select (cmpi .eq (id (constantI S_ 32 16777216#32)) (constantI S_ 32 0#32)) (constantI S_ 32 1#32) (id (constantI S_ 32 16777216#32))))))
            (broadcastInDim S65536x7x7 ![] bcast_S_S65536x7x7 (constantI S_ 32 0#32)))
          (addi
            (select
              (andi
                (cmpi .ne
                  (cmpi .slt (Host.remsi a2 (broadcastInDim S65536x7x7 ![] bcast_S_S65536x7x7 (select (cmpi .eq (id (constantI S_ 32 16777216#32)) (constantI S_ 32 0#32)) (constantI S_ 32 1#32) (id (constantI S_ 32 16777216#32))))) (broadcastInDim S65536x7x7 ![] bcast_S_S65536x7x7 (constantI S_ 32 0#32)))
                  (broadcastInDim S65536x7x7 ![] bcast_S_S65536x7x7 (cmpi .slt (select (cmpi .eq (id (constantI S_ 32 16777216#32)) (constantI S_ 32 0#32)) (constantI S_ 32 1#32) (id (constantI S_ 32 16777216#32))) (constantI S_ 32 0#32))))
                (cmpi .ne (Host.remsi a2 (broadcastInDim S65536x7x7 ![] bcast_S_S65536x7x7 (select (cmpi .eq (id (constantI S_ 32 16777216#32)) (constantI S_ 32 0#32)) (constantI S_ 32 1#32) (id (constantI S_ 32 16777216#32))))) (broadcastInDim S65536x7x7 ![] bcast_S_S65536x7x7 (constantI S_ 32 0#32))))
              (addi (Host.remsi a2 (broadcastInDim S65536x7x7 ![] bcast_S_S65536x7x7 (select (cmpi .eq (id (constantI S_ 32 16777216#32)) (constantI S_ 32 0#32)) (constantI S_ 32 1#32) (id (constantI S_ 32 16777216#32))))) (broadcastInDim S65536x7x7 ![] bcast_S_S65536x7x7 (select (cmpi .eq (id (constantI S_ 32 16777216#32)) (constantI S_ 32 0#32)) (constantI S_ 32 1#32) (id (constantI S_ 32 16777216#32)))))
              (Host.remsi a2 (broadcastInDim S65536x7x7 ![] bcast_S_S65536x7x7 (select (cmpi .eq (id (constantI S_ 32 16777216#32)) (constantI S_ 32 0#32)) (constantI S_ 32 1#32) (id (constantI S_ 32 16777216#32))))))
            (broadcastInDim S65536x7x7 ![] bcast_S_S65536x7x7 (constantI S_ 32 16777216#32)))
          (select
            (andi
              (cmpi .ne
                (cmpi .slt (Host.remsi a2 (broadcastInDim S65536x7x7 ![] bcast_S_S65536x7x7 (select (cmpi .eq (id (constantI S_ 32 16777216#32)) (constantI S_ 32 0#32)) (constantI S_ 32 1#32) (id (constantI S_ 32 16777216#32))))) (broadcastInDim S65536x7x7 ![] bcast_S_S65536x7x7 (constantI S_ 32 0#32)))
                (broadcastInDim S65536x7x7 ![] bcast_S_S65536x7x7 (cmpi .slt (select (cmpi .eq (id (constantI S_ 32 16777216#32)) (constantI S_ 32 0#32)) (constantI S_ 32 1#32) (id (constantI S_ 32 16777216#32))) (constantI S_ 32 0#32))))
              (cmpi .ne (Host.remsi a2 (broadcastInDim S65536x7x7 ![] bcast_S_S65536x7x7 (select (cmpi .eq (id (constantI S_ 32 16777216#32)) (constantI S_ 32 0#32)) (constantI S_ 32 1#32) (id (constantI S_ 32 16777216#32))))) (broadcastInDim S65536x7x7 ![] bcast_S_S65536x7x7 (constantI S_ 32 0#32))))
            (addi (Host.remsi a2 (broadcastInDim S65536x7x7 ![] bcast_S_S65536x7x7 (select (cmpi .eq (id (constantI S_ 32 16777216#32)) (constantI S_ 32 0#32)) (constantI S_ 32 1#32) (id (constantI S_ 32 16777216#32))))) (broadcastInDim S65536x7x7 ![] bcast_S_S65536x7x7 (select (cmpi .eq (id (constantI S_ 32 16777216#32)) (constantI S_ 32 0#32)) (constantI S_ 32 1#32) (id (constantI S_ 32 16777216#32)))))
            (Host.remsi a2 (broadcastInDim S65536x7x7 ![] bcast_S_S65536x7x7 (select (cmpi .eq (id (constantI S_ 32 16777216#32)) (constantI S_ 32 0#32)) (constantI S_ 32 1#32) (id (constantI S_ 32 16777216#32)))))))))
    shapeCasts_S65536x7x7x8_S65536x392

/-- The first weight transposed to [440, 256]. -/
def wT1 (w : S256x440.Idx → EReal) : S440x256.Idx → EReal := transpose S440x256 [1, 0] w transposes_S256x440_S440x256_1_0

/-! ## The last six operations as one function of the feature groups, the weight and the bias -/

/-- The tail of the stretch as one function of the three feature groups, the weight and the bias. -/
def h1Term (fs : S65536x32.Idx → EReal) (fc : S65536x16.Idx → EReal) (fx : S65536x392.Idx → EReal)
    (w : S256x440.Idx → EReal) (b : S256.Idx → EReal) : S65536x256.Idx → EReal :=
  addf (F := Ideal) (φ := .f32)
    (Host.dotGeneral (F := Ideal) (φ₁ := .f32) (φ₂ := .f32) dot_S65536x440_S440x256_S65536x256_1_0_0_1_n_n none
      (concatenate S65536x440 1 [⟨S65536x32, fs⟩, ⟨S65536x16, fc⟩, ⟨S65536x392, fx⟩]
        concatenates_S65536x32_S65536x16_S65536x392_S65536x440_d1)
      (wT1 w))
    (broadcastInDim S65536x256 ![0, 1] bcast_S1x256_S65536x256_0_1 (broadcastInDim S1x256 ![1] bcast_S256_S1x256_1 b))

/-- From any contents `W`, the last six operations leave that function of the three feature buffers, the weight and the bias in the
    stretch's last buffer. -/
theorem tail_v28 (W : Valuation τ sig (Elt Ideal)) :
    (after ((opsA (F := Ideal)).drop 50) W (Proc.devRef .tc main_v28) : S65536x256.Idx → EReal)
      = h1Term (W (Proc.devRef .tc main_v15)) (W (Proc.devRef .tc main_v22)) (W (Proc.devRef .tc main_v8))
          (W (Proc.devRef .tc main_arg6)) (W (Proc.devRef .tc main_arg7)) := by
  simp only [opsA, List.drop]
  after_results_simp
  rfl

/-! ## The first fifty operations: the three feature groups; the weight and the bias untouched -/

theorem head_v15 : (after ((opsA (F := Ideal)).take 50) V (Proc.devRef .tc main_v15) : S65536x32.Idx → EReal)
    = featS (V (Proc.devRef .tc main_arg0)) (V (Proc.devRef .tc main_arg4)) := by
  simp only [opsA, List.take]
  after_results_simp
  rfl

theorem head_v22 : (after ((opsA (F := Ideal)).take 50) V (Proc.devRef .tc main_v22) : S65536x16.Idx → EReal)
    = featC (V (Proc.devRef .tc main_arg1)) (V (Proc.devRef .tc main_arg5)) := by
  simp only [opsA, List.take]
  after_results_simp
  rfl

theorem head_v8 : (after ((opsA (F := Ideal)).take 50) V (Proc.devRef .tc main_v8) : S65536x392.Idx → EReal)
    = featX (V (Proc.devRef .tc main_arg2)) (V (Proc.devRef .tc main_arg3)) := by
  simp only [opsA, List.take]
  after_results_simp
  rfl

theorem head_arg6 : after ((opsA (F := Ideal)).take 50) V (Proc.devRef .tc main_arg6) = V (Proc.devRef .tc main_arg6) := by
  simp only [opsA, List.take]
  after_results_simp

theorem head_arg7 : after ((opsA (F := Ideal)).take 50) V (Proc.devRef .tc main_arg7) = V (Proc.devRef .tc main_arg7) := by
  simp only [opsA, List.take]
  after_results_simp

/-! ## The contraction read at an index

The dimension numbers contract axis 1 of the left operand with axis 0 of the right one: at result index (r, j) and
contraction position k the left operand is read at (r, k) and the right one at (k, j). -/

theorem lhs_0 (i : S65536x256.Idx) (q : dot_S65536x440_S440x256_S65536x256_1_0_0_1_n_n.contr.Idx) :
    (dot_S65536x440_S440x256_S65536x256_1_0_0_1_n_n.lhsIdx i q 0).val = (i 0).val := by
  unfold DotDims.lhsIdx
  rw [dif_neg (show ¬(0 : Fin S65536x440.rank) ∈ dot_S65536x440_S440x256_S65536x256_1_0_0_1_n_n.lhsBatch by decide),
    dif_pos (show (0 : Fin S65536x440.rank) ∈ dot_S65536x440_S440x256_S65536x256_1_0_0_1_n_n.lhsNonContracting by decide)]
  rfl
theorem lhs_1 (i : S65536x256.Idx) (q : dot_S65536x440_S440x256_S65536x256_1_0_0_1_n_n.contr.Idx) :
    (dot_S65536x440_S440x256_S65536x256_1_0_0_1_n_n.lhsIdx i q 1).val = (q ⟨0, by decide⟩).val :=
  dot_S65536x440_S440x256_S65536x256_1_0_0_1_n_n.lhsIdx_val_of_single rfl i q
theorem rhs_0 (i : S65536x256.Idx) (q : dot_S65536x440_S440x256_S65536x256_1_0_0_1_n_n.contr.Idx) :
    (dot_S65536x440_S440x256_S65536x256_1_0_0_1_n_n.rhsIdx i q 0).val = (q ⟨0, by decide⟩).val :=
  dot_S65536x440_S440x256_S65536x256_1_0_0_1_n_n.rhsIdx_val_of_single rfl i q
theorem rhs_1 (i : S65536x256.Idx) (q : dot_S65536x440_S440x256_S65536x256_1_0_0_1_n_n.contr.Idx) :
    (dot_S65536x440_S440x256_S65536x256_1_0_0_1_n_n.rhsIdx i q 1).val = (i 1).val := by
  unfold DotDims.rhsIdx
  rw [dif_neg (show ¬(1 : Fin S440x256.rank) ∈ dot_S65536x440_S440x256_S65536x256_1_0_0_1_n_n.rhsBatch by decide),
    dif_pos (show (1 : Fin S440x256.rank) ∈ dot_S65536x440_S440x256_S65536x256_1_0_0_1_n_n.rhsNonContracting by decide)]
  rfl

/-- The product at (r, j): the sum over the 440 features of row r of the left operand times column j of the right. -/
theorem dot_apply (X : S65536x440.Idx → EReal) (Wt : S440x256.Idx → EReal) (r : Fin 65536) (j : Fin 256) :
    Host.dotGeneral (F := Ideal) (φ₁ := .f32) (φ₂ := .f32) dot_S65536x440_S440x256_S65536x256_1_0_0_1_n_n none X Wt (ix2 r j)
      = ∑ k : Fin 440, X (ix2 r k) * Wt (ix2 k j) := by
  simp only [Host.dotGeneral]
  rw [Ideal.dotGeneral_apply, ← Equiv.sum_comp (contrEquiv1 dot_S65536x440_S440x256_S65536x256_1_0_0_1_n_n 440 rfl rfl).symm]
  refine Finset.sum_congr rfl fun k _ => ?_
  have hk := contrEquiv1_symm_val dot_S65536x440_S440x256_S65536x256_1_0_0_1_n_n 440 rfl rfl k
  have el : dot_S65536x440_S440x256_S65536x256_1_0_0_1_n_n.lhsIdx (ix2 r j) ((contrEquiv1 dot_S65536x440_S440x256_S65536x256_1_0_0_1_n_n 440 rfl rfl).symm k) = ix2 r k :=
    funext fun a => Fin.ext (by
      match a with
      | ⟨0, _⟩ => exact lhs_0 _ _
      | ⟨1, _⟩ => exact (lhs_1 _ _).trans hk)
  have er : dot_S65536x440_S440x256_S65536x256_1_0_0_1_n_n.rhsIdx (ix2 r j) ((contrEquiv1 dot_S65536x440_S440x256_S65536x256_1_0_0_1_n_n 440 rfl rfl).symm k) = ix2 k j :=
    funext fun a => Fin.ext (by
      match a with
      | ⟨0, _⟩ => exact (rhs_0 _ _).trans hk
      | ⟨1, _⟩ => exact rhs_1 _ _)
  rw [el, er]

/-- The bias [256] laid as one row and repeated down the 65536 rows reads, at (r, j), the bias at j. -/
theorem bias_apply (b : S256.Idx → EReal) (r : Fin 65536) (j : Fin 256) :
    broadcastInDim S65536x256 ![0, 1] bcast_S1x256_S65536x256_0_1 (broadcastInDim S1x256 ![1] bcast_S256_S1x256_1 b) (ix2 r j)
      = b (ix1 j) := by
  refine (broadcastInDim_apply ![0, 1] bcast_S1x256_S65536x256_0_1 _ (ix2 r j) (ix2 (0 : Fin 1) j) ?_).trans ?_
  · intro a
    match a with
    | ⟨0, _⟩ => rfl
    | ⟨1, _⟩ => rfl
  · refine broadcastInDim_apply ![1] bcast_S256_S1x256_1 b (ix2 (0 : Fin 1) j) (ix1 j) ?_
    intro a
    match a with
    | ⟨0, _⟩ => rfl

/-- The three groups laid side by side along axis 1, read at (r, k): the group whose span holds k. -/
theorem cat_apply (fs : S65536x32.Idx → EReal) (fc : S65536x16.Idx → EReal) (fx : S65536x392.Idx → EReal)
    (r : Fin 65536) (k : Fin 440) :
    concatenate S65536x440 1 [⟨S65536x32, fs⟩, ⟨S65536x16, fc⟩, ⟨S65536x392, fx⟩]
        concatenates_S65536x32_S65536x16_S65536x392_S65536x440_d1 (ix2 r k)
      = Spec.cat (Spec.cur2 (n0 := 65536) (n1 := 32) fs) (Spec.cur2 (n0 := 65536) (n1 := 16) fc)
          (Spec.cur2 (n0 := 65536) (n1 := 392) fx) r k := by
  unfold Spec.cat
  by_cases h1 : k.val < 32
  · rw [dif_pos h1]
    refine concatenate_apply_piece 1 [⟨S65536x32, fs⟩, ⟨S65536x16, fc⟩, ⟨S65536x392, fx⟩] concatenates_S65536x32_S65536x16_S65536x392_S65536x440_d1 (ix2 r k) 0 (show (0 : Nat) < 3 by omega)
      S65536x32 fs rfl rfl 0 rfl (ix2 r ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 48
    · rw [dif_pos h2]
      refine concatenate_apply_piece 1 [⟨S65536x32, fs⟩, ⟨S65536x16, fc⟩, ⟨S65536x392, fx⟩] concatenates_S65536x32_S65536x16_S65536x392_S65536x440_d1 (ix2 r k) 1 (show (1 : Nat) < 3 by omega)
        S65536x16 fc rfl rfl 32 rfl (ix2 r ⟨k.val - 32, by omega⟩) (fun b hb => ?_) ?_
      · match b with
        | ⟨0, _⟩ => rfl
        | ⟨1, _⟩ => exact absurd rfl hb
      · show 32 + (k.val - 32) = k.val
        omega
    · rw [dif_neg h2]
      refine concatenate_apply_piece 1 [⟨S65536x32, fs⟩, ⟨S65536x16, fc⟩, ⟨S65536x392, fx⟩] concatenates_S65536x32_S65536x16_S65536x392_S65536x440_d1 (ix2 r k) 2 (show (2 : Nat) < 3 by omega)
        S65536x392 fx rfl rfl 48 rfl (ix2 r ⟨k.val - 48, by have := k.isLt; omega⟩) (fun b hb => ?_) ?_
      · match b with
        | ⟨0, _⟩ => rfl
        | ⟨1, _⟩ => exact absurd rfl hb
      · show 48 + (k.val - 48) = k.val
        omega

/-- The tail at (r, j): the first layer of the specification over the three groups side by side. -/
theorem h1Term_apply (fs : S65536x32.Idx → EReal) (fc : S65536x16.Idx → EReal) (fx : S65536x392.Idx → EReal)
    (w : S256x440.Idx → EReal) (b : S256.Idx → EReal) (r : Fin 65536) (j : Fin 256) :
    h1Term fs fc fx w b (ix2 r j)
      = Spec.lin1 (Spec.cat (Spec.cur2 (n0 := 65536) (n1 := 32) fs) (Spec.cur2 (n0 := 65536) (n1 := 16) fc)
            (Spec.cur2 (n0 := 65536) (n1 := 392) fx))
          (Spec.cur2 (n0 := 440) (n1 := 256) (wT1 w)) (Spec.cur1 (n := 256) b) r j := by
  unfold h1Term Spec.lin1
  rw [addf_apply, dot_apply, bias_apply]
  refine congrArg (· + b (ix1 j)) (Finset.sum_congr rfl fun k _ => ?_)
  rw [cat_apply]

/-! ## The stretch -/

/-- The first layer's output at row `r`, column `j`. -/
theorem h1_apply (r : Fin 65536) (j : Fin 256) :
    (after opsA V (Proc.devRef .tc main_v28) : S65536x256.Idx → EReal) (ix2 r j)
      = Spec.lin1 (Spec.cat (Spec.cur2 (n0 := 65536) (n1 := 32) (featS (V (Proc.devRef .tc main_arg0)) (V (Proc.devRef .tc main_arg4))))
            (Spec.cur2 (n0 := 65536) (n1 := 16) (featC (V (Proc.devRef .tc main_arg1)) (V (Proc.devRef .tc main_arg5))))
            (Spec.cur2 (n0 := 65536) (n1 := 392) (featX (V (Proc.devRef .tc main_arg2)) (V (Proc.devRef .tc main_arg3)))))
          (Spec.cur2 (n0 := 440) (n1 := 256) (wT1 (V (Proc.devRef .tc main_arg6)))) (Spec.cur1 (n := 256) (V (Proc.devRef .tc main_arg7))) r j := by
  have split : (opsA (F := Ideal)) = opsA.take 50 ++ opsA.drop 50 := (List.take_append_drop 50 _).symm
  have e : (after opsA V (Proc.devRef .tc main_v28) : S65536x256.Idx → EReal)
      = h1Term (featS (V (Proc.devRef .tc main_arg0)) (V (Proc.devRef .tc main_arg4))) (featC (V (Proc.devRef .tc main_arg1)) (V (Proc.devRef .tc main_arg5))) (featX (V (Proc.devRef .tc main_arg2)) (V (Proc.devRef .tc main_arg3))) (V (Proc.devRef .tc main_arg6)) (V (Proc.devRef .tc main_arg7)) := by
    rw [split, after_append, tail_v28, head_v15, head_v22, head_v8, head_arg6, head_arg7]
  exact (congrFun e (ix2 r j)).trans (h1Term_apply _ _ _ _ _ r j)

theorem opsA_arg8 : after opsA V (Proc.devRef .tc main_arg8) = V (Proc.devRef .tc main_arg8) := by after_results_simp
theorem opsA_arg9 : after opsA V (Proc.devRef .tc main_arg9) = V (Proc.devRef .tc main_arg9) := by after_results_simp
theorem opsA_arg10 : after opsA V (Proc.devRef .tc main_arg10) = V (Proc.devRef .tc main_arg10) := by after_results_simp
theorem opsA_arg11 : after opsA V (Proc.devRef .tc main_arg11) = V (Proc.devRef .tc main_arg11) := by after_results_simp
theorem opsA_arg12 : after opsA V (Proc.devRef .tc main_arg12) = V (Proc.devRef .tc main_arg12) := by after_results_simp
theorem opsA_arg13 : after opsA V (Proc.devRef .tc main_arg13) = V (Proc.devRef .tc main_arg13) := by after_results_simp
theorem opsA_arg14 : after opsA V (Proc.devRef .tc main_arg14) = V (Proc.devRef .tc main_arg14) := by after_results_simp
theorem opsA_arg15 : after opsA V (Proc.devRef .tc main_arg15) = V (Proc.devRef .tc main_arg15) := by after_results_simp

end Cert.ReferenceIdeal.RefRead

end
-- ==== Proof.RefReadB.lean ====
/-
  The reference's second stretch read as values, at the ideal instance, over ANY valuation `U` of the buffers: from
  the first layer's output it forms each column's sum over all 65536 rows added to 0, divides by the batch size (the
  mean), subtracts the mean from every entry, squares, sums each column again and divides by the batch size (the biased
  variance). The first layer's output and the later arguments pass through untouched.

  The reading is done once over a VARIABLE array `x` of the first layer's shape: the column sums, the batch size as a
  vector, the mean, the centred squares and the variance are named as functions of `x`, each is read at an index, and
  only then is `x` taken to be the buffer's contents.
-/
import proofs.«107007_j80882824118683_2_alg».proof.Proof.RefRun
import proofs.«107007_j80882824118683_2_alg».proof.Proof.Spec
import Idealize.ShloMosaic.Lib.IdealHost
import Idealize.ShloMosaic.Lib.KernelVsHost

set_option maxRecDepth 16384

noncomputable section

namespace Cert.ReferenceIdeal.RefReadStats

open Cert.ReferenceIdeal Cert.ReferenceIdeal.Gen Cert.ReferenceIdeal.RefRun
open Idealize.ShloMosaic Idealize.ShloMosaic.TcCoe Idealize.ShloMosaic.ValueIdx Idealize.SL.Sem Idealize.ShloMosaic.StableHlo
open scoped BigOperators

/-! ## The stretch's stages as functions of the first layer's output -/

/-- Each column's sum over all rows, from the initial value 0. -/
def colSums (x : FVec Ideal S65536x256 .f32) : FVec Ideal S256 .f32 :=
  Host.reduceAdd (F := Ideal) x (constant (F := Ideal) S_ .f32 0x00000000#32) reducesTo_S65536x256_S256_d0 h_S_

/-- The batch size 65536 in every column. -/
def batchVec : FVec Ideal S256 .f32 :=
  broadcastInDim S256 ![] bcast_S_S256 (constant (F := Ideal) S_ .f32 0x47800000#32)

/-- A vector of 256 columns laid out as one row and copied down all 65536 rows. -/
def downRows (v : FVec Ideal S256 .f32) : FVec Ideal S65536x256 .f32 :=
  broadcastInDim S65536x256 ![0, 1] bcast_S1x256_S65536x256_0_1 (broadcastInDim S1x256 ![1] bcast_S256_S1x256_1 v)

/-- The mean of each column. -/
def meanOf (x : FVec Ideal S65536x256 .f32) : FVec Ideal S256 .f32 :=
  Host.divf (F := Ideal) (colSums x) batchVec

/-- Each entry's squared distance from its column's mean. -/
def centredSq (x : FVec Ideal S65536x256 .f32) : FVec Ideal S65536x256 .f32 :=
  mulf (subf x (downRows (meanOf x))) (subf x (downRows (meanOf x)))

/-- The biased variance of each column. -/
def varOf (x : FVec Ideal S65536x256 .f32) : FVec Ideal S256 .f32 :=
  Host.divf (F := Ideal) (colSums (centredSq x)) batchVec

/-! ## Each stage at an index -/

/-- The sum over axis 0 at column `j` runs over the entries (r, j): the index the reduction inserts row `r` into is
    (r, j), and the initial value, the zero word, is the extended real 0. -/
theorem colSums_apply (x : FVec Ideal S65536x256 .f32) (j : Fin 256) :
    colSums x (ix1 j) = Spec.colSum (Spec.cur2 (n0 := 65536) (n1 := 256) x) j := by
  have h : S65536x256.Reduces [0] S256 := by decide
  refine (Ideal.hostReduceAdd_single reducesTo_S65536x256_S256_d0 h x _ (ix1 j)).trans ?_
  refine congrArg₂ (· + ·) Ideal.ofBits_zero_f32 ?_
  refine Finset.sum_congr rfl fun r _ => congrArg x (funext fun a => ?_)
  match a with
  | ⟨0, _⟩ => exact Fin.ext rfl
  | ⟨1, _⟩ => exact Fin.ext rfl

/-- The batch size vector reads the literal 65536 at every column. -/
theorem batchVec_apply (j : Fin 256) : batchVec (ix1 j) = Spec.nB :=
  broadcastInDim_scalar_apply bcast_S_S256 _ (ix1 j)

/-- A vector laid out as one row reads, at (0, c), its entry c. -/
theorem asRow_apply (v : FVec Ideal S256 .f32) (c : Fin 256) :
    broadcastInDim S1x256 ![1] bcast_S256_S1x256_1 v (ix2 (0 : Fin 1) c) = v (ix1 c) :=
  broadcastInDim_apply ![1] bcast_S256_S1x256_1 v (ix2 (0 : Fin 1) c) (ix1 c) fun a =>
    match a with
    | ⟨0, _⟩ => rfl

/-- Copied down the rows, the vector reads at (r, c) its entry c. -/
theorem downRows_apply (v : FVec Ideal S256 .f32) (r : Fin 65536) (c : Fin 256) : downRows v (ix2 r c) = v (ix1 c) :=
  (broadcastInDim_oneRow_apply bcast_S1x256_S65536x256_0_1 _ r c).trans (asRow_apply v c)

/-- The mean at column `j`: the column's sum divided by the batch size. -/
theorem meanOf_apply (x : FVec Ideal S65536x256 .f32) (j : Fin 256) :
    meanOf x (ix1 j) = Spec.meanR (Spec.cur2 (n0 := 65536) (n1 := 256) x) j := by
  show Ideal.div (colSums x (ix1 j)) (batchVec (ix1 j)) = _
  rw [colSums_apply, batchVec_apply]
  rfl

/-- The centred square at (r, c). -/
theorem centredSq_apply (x : FVec Ideal S65536x256 .f32) (r : Fin 65536) (c : Fin 256) :
    centredSq x (ix2 r c)
      = (x (ix2 r c) - Spec.meanR (Spec.cur2 (n0 := 65536) (n1 := 256) x) c)
        * (x (ix2 r c) - Spec.meanR (Spec.cur2 (n0 := 65536) (n1 := 256) x) c) := by
  show (x (ix2 r c) - downRows (meanOf x) (ix2 r c)) * (x (ix2 r c) - downRows (meanOf x) (ix2 r c)) = _
  rw [downRows_apply, meanOf_apply]

/-- The variance at column `j`: the column sum of the centred squares divided by the batch size. -/
theorem varOf_apply (x : FVec Ideal S65536x256 .f32) (j : Fin 256) :
    varOf x (ix1 j) = Spec.varR (Spec.cur2 (n0 := 65536) (n1 := 256) x) j := by
  show Ideal.div (colSums (centredSq x) (ix1 j)) (batchVec (ix1 j)) = _
  rw [colSums_apply, batchVec_apply]
  unfold Spec.varR Spec.colSum
  refine congrArg (fun s => Ideal.div (0 + s) Spec.nB) (Finset.sum_congr rfl fun r _ => ?_)
  exact centredSq_apply x r j

/-! ## The stretch over a valuation -/

variable (U : Valuation τ sig (Elt Ideal))

/-- The mean's buffer after the stretch holds the mean of the first layer's output. -/
theorem opsB_v31 : (after opsB U (Proc.devRef .tc main_v31) : FVec Ideal S256 .f32) = meanOf (U (Proc.devRef .tc main_v28)) := by
  after_results; rfl

/-- The variance's buffer after the stretch holds the variance of the first layer's output. -/
theorem opsB_v38 : (after opsB U (Proc.devRef .tc main_v38) : FVec Ideal S256 .f32) = varOf (U (Proc.devRef .tc main_v28)) := by
  after_results; rfl

/-- The mean at column `j`. -/
theorem mean_apply (j : Fin 256) : (after opsB U (Proc.devRef .tc main_v31) : S256.Idx → EReal) (ix1 j)
    = Spec.meanR (Spec.cur2 (n0 := 65536) (n1 := 256) (U (Proc.devRef .tc main_v28))) j :=
  (congrFun (opsB_v31 U) (ix1 j)).trans (meanOf_apply _ j)

/-- The variance at column `j`. -/
theorem var_apply (j : Fin 256) : (after opsB U (Proc.devRef .tc main_v38) : S256.Idx → EReal) (ix1 j)
    = Spec.varR (Spec.cur2 (n0 := 65536) (n1 := 256) (U (Proc.devRef .tc main_v28))) j :=
  (congrFun (opsB_v38 U) (ix1 j)).trans (varOf_apply _ j)

theorem opsB_v28 : after opsB U (Proc.devRef .tc main_v28) = U (Proc.devRef .tc main_v28) := by after_results
theorem opsB_arg8 : after opsB U (Proc.devRef .tc main_arg8) = U (Proc.devRef .tc main_arg8) := by after_results
theorem opsB_arg9 : after opsB U (Proc.devRef .tc main_arg9) = U (Proc.devRef .tc main_arg9) := by after_results
theorem opsB_arg10 : after opsB U (Proc.devRef .tc main_arg10) = U (Proc.devRef .tc main_arg10) := by after_results
theorem opsB_arg11 : after opsB U (Proc.devRef .tc main_arg11) = U (Proc.devRef .tc main_arg11) := by after_results
theorem opsB_arg12 : after opsB U (Proc.devRef .tc main_arg12) = U (Proc.devRef .tc main_arg12) := by after_results
theorem opsB_arg13 : after opsB U (Proc.devRef .tc main_arg13) = U (Proc.devRef .tc main_arg13) := by after_results
theorem opsB_arg14 : after opsB U (Proc.devRef .tc main_arg14) = U (Proc.devRef .tc main_arg14) := by after_results
theorem opsB_arg15 : after opsB U (Proc.devRef .tc main_arg15) = U (Proc.devRef .tc main_arg15) := by after_results

end Cert.ReferenceIdeal.RefReadStats

end
-- ==== Proof.RefReadC.lean ====
/-
  The reference's third stretch read as values, at the ideal instance, over ANY valuation `U` of the buffers: the
  first layer's output is centred by the mean, scaled by the reciprocal square root of the variance plus the offset,
  multiplied by gamma and shifted by beta; then come the two rectified layers and the last layer (each a contraction
  with a transposed weight plus a bias), and the unit column is dropped. At row `r` the result is the network's tail of
  the normalised row.

  The reading goes in layers over VARIABLE arrays: the normalisation with its affine map, then each of the three
  layers, is named as a function of its input array, its weight and its bias, and read at an index as the matching
  layer of the specification; a contraction over one axis is re-indexed by that axis's coordinate, a vector laid out as
  one row and copied down the rows reads the vector's entry at the column, and a rectifier is the maximum with the
  zero word, which is the extended real 0. Only at the end are the arrays taken to be the buffers' contents.
-/
import proofs.«107007_j80882824118683_2_alg».proof.Proof.RefRun
import proofs.«107007_j80882824118683_2_alg».proof.Proof.Spec
import Idealize.ShloMosaic.Lib.IdealHost
import Idealize.ShloMosaic.Lib.KernelVsHost

set_option maxRecDepth 16384

noncomputable section

namespace Cert.ReferenceIdeal.RefReadTail

open Cert.ReferenceIdeal Cert.ReferenceIdeal.Gen Cert.ReferenceIdeal.RefRun
open Idealize.ShloMosaic Idealize.ShloMosaic.TcCoe Idealize.ShloMosaic.ValueIdx Idealize.SL.Sem Idealize.ShloMosaic.StableHlo
open scoped BigOperators

/-- The second weight transposed to [256, 64]. -/
def wT2 (w : S64x256.Idx → EReal) : S256x64.Idx → EReal := transpose S256x64 [1, 0] w transposes_S64x256_S256x64_1_0
/-- The third weight transposed to [64, 16]. -/
def wT3 (w : S16x64.Idx → EReal) : S64x16.Idx → EReal := transpose S64x16 [1, 0] w transposes_S16x64_S64x16_1_0
/-- The fourth weight transposed to [16, 1]. -/
def wT4 (w : S1x16.Idx → EReal) : S16x1.Idx → EReal := transpose S16x1 [1, 0] w transposes_S1x16_S16x1_1_0

/-! ## Layout operations at an index, at any extents -/

/-- A vector laid out as one row reads, at (0, c), its entry c (when the vector has one entry, c is 0). -/
theorem asRow_apply {n : Nat} (h : (⟨1, ![n]⟩ : Shape).BroadcastsInDim ⟨2, ![1, n]⟩ ![1])
    (v : (⟨1, ![n]⟩ : Shape).Idx → EReal) (c : Fin n) :
    broadcastInDim ⟨2, ![1, n]⟩ ![1] h v (ix2 (0 : Fin 1) c) = v (ix1 c) :=
  broadcastInDim_apply ![1] h v (ix2 (0 : Fin 1) c) (ix1 c) fun a =>
    match a with
    | ⟨0, _⟩ => by
      show c.val = if n = 1 then 0 else c.val
      split_ifs with hn
      · have := c.isLt; omega
      · rfl

/-- Laid out as one row and copied down `m` rows, the vector reads at (r, c) its entry c. -/
theorem downRows_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → EReal)
    (r : Fin m) (c : Fin n) :
    broadcastInDim ⟨2, ![m, n]⟩ ![0, 1] h2 (broadcastInDim ⟨2, ![1, n]⟩ ![1] h1 v) (ix2 r c) = v (ix1 c) :=
  (broadcastInDim_oneRow_apply h2 _ r c).trans (asRow_apply h1 v c)

/-- The zero word copied to every entry of any shape reads the extended real 0. -/
theorem zeroSplat_apply {T : Shape} (h : S_.BroadcastsInDim T ![]) (j : T.Idx) :
    broadcastInDim T ![] h (constant (F := Ideal) S_ .f32 0x00000000#32) j = 0 :=
  (broadcastInDim_scalar_apply h _ j).trans Ideal.ofBits_zero_f32

/-- A one-column matrix reshaped to a vector reads, at r, its entry (r, 0). -/
theorem dropCol_apply (v : FVec Ideal S65536x1 .f32) (r : Fin 65536) :
    shapeCast S65536 v shapeCasts_S65536x1_S65536 (ix1 r) = v (ix2 r (0 : Fin 1)) :=
  shapeCast_apply v shapeCasts_S65536x1_S65536 (ix1 r) (ix2 r (0 : Fin 1)) (by
    rw [Shape.rowMajor_val_two, Shape.rowMajor_val_one]
    show r.val * 1 + 0 = r.val
    omega)

/-! ## The three contractions at an index

Each contracts the left operand's axis 1 with the right operand's axis 0: at (i, j) the sum over the contraction's one
coordinate c of left (i, c) times right (c, j). -/

/-- The contraction 256 → 64. -/
theorem dot2_apply (l : FVec Ideal S65536x256 .f32) (w : FVec Ideal S256x64 .f32) (i : Fin 65536) (j : Fin 64) :
    Host.dotGeneral (F := Ideal) dot_S65536x256_S256x64_S65536x64_1_0_0_1_n_n none l w (ix2 i j) = ∑ c : Fin 256, l (ix2 i c) * w (ix2 c j) := by
  refine (Ideal.dotGeneral_apply dot_S65536x256_S256x64_S65536x64_1_0_0_1_n_n none .single l w (ix2 i j)).trans ?_
  refine (Equiv.sum_comp (contrEquiv1 dot_S65536x256_S256x64_S65536x64_1_0_0_1_n_n 256 rfl rfl).symm _).symm.trans ?_
  refine Finset.sum_congr rfl fun c _ => ?_
  refine congrArg₂ (· * ·) (congrArg l (funext fun a => ?_)) (congrArg w (funext fun a => ?_))
  · match a with
    | ⟨0, _⟩ => exact Fin.ext rfl
    | ⟨1, _⟩ =>
      exact Fin.ext ((DotDims.lhsIdx_val_of_single dot_S65536x256_S256x64_S65536x64_1_0_0_1_n_n rfl (ix2 i j) _).trans
        (contrEquiv1_symm_val dot_S65536x256_S256x64_S65536x64_1_0_0_1_n_n 256 rfl rfl c))
  · match a with
    | ⟨0, _⟩ =>
      exact Fin.ext ((DotDims.rhsIdx_val_of_single dot_S65536x256_S256x64_S65536x64_1_0_0_1_n_n rfl (ix2 i j) _).trans
        (contrEquiv1_symm_val dot_S65536x256_S256x64_S65536x64_1_0_0_1_n_n 256 rfl rfl c))
    | ⟨1, _⟩ => exact Fin.ext rfl

/-- The contraction 64 → 16. -/
theorem dot3_apply (l : FVec Ideal S65536x64 .f32) (w : FVec Ideal S64x16 .f32) (i : Fin 65536) (j : Fin 16) :
    Host.dotGeneral (F := Ideal) dot_S65536x64_S64x16_S65536x16_1_0_0_1_n_n none l w (ix2 i j) = ∑ c : Fin 64, l (ix2 i c) * w (ix2 c j) := by
  refine (Ideal.dotGeneral_apply dot_S65536x64_S64x16_S65536x16_1_0_0_1_n_n none .single l w (ix2 i j)).trans ?_
  refine (Equiv.sum_comp (contrEquiv1 dot_S65536x64_S64x16_S65536x16_1_0_0_1_n_n 64 rfl rfl).symm _).symm.trans ?_
  refine Finset.sum_congr rfl fun c _ => ?_
  refine congrArg₂ (· * ·) (congrArg l (funext fun a => ?_)) (congrArg w (funext fun a => ?_))
  · match a with
    | ⟨0, _⟩ => exact Fin.ext rfl
    | ⟨1, _⟩ =>
      exact Fin.ext ((DotDims.lhsIdx_val_of_single dot_S65536x64_S64x16_S65536x16_1_0_0_1_n_n rfl (ix2 i j) _).trans
        (contrEquiv1_symm_val dot_S65536x64_S64x16_S65536x16_1_0_0_1_n_n 64 rfl rfl c))
  · match a with
    | ⟨0, _⟩ =>
      exact Fin.ext ((DotDims.rhsIdx_val_of_single dot_S65536x64_S64x16_S65536x16_1_0_0_1_n_n rfl (ix2 i j) _).trans
        (contrEquiv1_symm_val dot_S65536x64_S64x16_S65536x16_1_0_0_1_n_n 64 rfl rfl c))
    | ⟨1, _⟩ => exact Fin.ext rfl

/-- The contraction 16 → 1. -/
theorem dot4_apply (l : FVec Ideal S65536x16 .f32) (w : FVec Ideal S16x1 .f32) (i : Fin 65536) (j : Fin 1) :
    Host.dotGeneral (F := Ideal) dot_S65536x16_S16x1_S65536x1_1_0_0_1_n_n none l w (ix2 i j) = ∑ c : Fin 16, l (ix2 i c) * w (ix2 c j) := by
  refine (Ideal.dotGeneral_apply dot_S65536x16_S16x1_S65536x1_1_0_0_1_n_n none .single l w (ix2 i j)).trans ?_
  refine (Equiv.sum_comp (contrEquiv1 dot_S65536x16_S16x1_S65536x1_1_0_0_1_n_n 16 rfl rfl).symm _).symm.trans ?_
  refine Finset.sum_congr rfl fun c _ => ?_
  refine congrArg₂ (· * ·) (congrArg l (funext fun a => ?_)) (congrArg w (funext fun a => ?_))
  · match a with
    | ⟨0, _⟩ => exact Fin.ext rfl
    | ⟨1, _⟩ =>
      exact Fin.ext ((DotDims.lhsIdx_val_of_single dot_S65536x16_S16x1_S65536x1_1_0_0_1_n_n rfl (ix2 i j) _).trans
        (contrEquiv1_symm_val dot_S65536x16_S16x1_S65536x1_1_0_0_1_n_n 16 rfl rfl c))
  · match a with
    | ⟨0, _⟩ =>
      exact Fin.ext ((DotDims.rhsIdx_val_of_single dot_S65536x16_S16x1_S65536x1_1_0_0_1_n_n rfl (ix2 i j) _).trans
        (contrEquiv1_symm_val dot_S65536x16_S16x1_S65536x1_1_0_0_1_n_n 16 rfl rfl c))
    | ⟨1, _⟩ => exact Fin.ext rfl

/-! ## The stretch's stages as functions of their inputs -/

/-- The variance offset in every column. -/
def epsVec : FVec Ideal S256 .f32 :=
  broadcastInDim S256 ![] bcast_S_S256 (constant (F := Ideal) S_ .f32 0x3727C5AC#32)

/-- A vector of 256 columns laid out as one row and copied down all 65536 rows. -/
def down256 (v : FVec Ideal S256 .f32) : FVec Ideal S65536x256 .f32 :=
  broadcastInDim S65536x256 ![0, 1] bcast_S1x256_S65536x256_0_1 (broadcastInDim S1x256 ![1] bcast_S256_S1x256_1 v)

/-- The normalisation with its affine map. -/
def normedOf (x : FVec Ideal S65536x256 .f32) (mean var gamma beta : FVec Ideal S256 .f32) : FVec Ideal S65536x256 .f32 :=
  addf (mulf (mulf (subf x (down256 mean)) (down256 (Host.rsqrt (F := Ideal) (addf var epsVec)))) (down256 gamma)) (down256 beta)

/-- The second layer: contraction with the transposed weight, bias, rectifier. -/
def lay2Of (hn : FVec Ideal S65536x256 .f32) (w : FVec Ideal S64x256 .f32) (b : FVec Ideal S64 .f32) : FVec Ideal S65536x64 .f32 :=
  maximumf
    (addf (Host.dotGeneral (F := Ideal) (φ₂ := .f32) dot_S65536x256_S256x64_S65536x64_1_0_0_1_n_n none hn (wT2 w))
      (broadcastInDim S65536x64 ![0, 1] bcast_S1x64_S65536x64_0_1 (broadcastInDim S1x64 ![1] bcast_S64_S1x64_1 b)))
    (broadcastInDim S65536x64 ![] bcast_S_S65536x64 (constant (F := Ideal) S_ .f32 0x00000000#32))

/-- The third layer: contraction with the transposed weight, bias, rectifier. -/
def lay3Of (h2 : FVec Ideal S65536x64 .f32) (w : FVec Ideal S16x64 .f32) (b : FVec Ideal S16 .f32) : FVec Ideal S65536x16 .f32 :=
  maximumf
    (addf (Host.dotGeneral (F := Ideal) (φ₂ := .f32) dot_S65536x64_S64x16_S65536x16_1_0_0_1_n_n none h2 (wT3 w))
      (broadcastInDim S65536x16 ![0, 1] bcast_S1x16_S65536x16_0_1 (broadcastInDim S1x16 ![1] bcast_S16_S1x16_1 b)))
    (broadcastInDim S65536x16 ![] bcast_S_S65536x16 (constant (F := Ideal) S_ .f32 0x00000000#32))

/-- The last layer as a one-column matrix: contraction with the transposed weight, bias. -/
def lay4Of (h3 : FVec Ideal S65536x16 .f32) (w : FVec Ideal S1x16 .f32) (b : FVec Ideal S1 .f32) : FVec Ideal S65536x1 .f32 :=
  addf (Host.dotGeneral (F := Ideal) (φ₂ := .f32) dot_S65536x16_S16x1_S65536x1_1_0_0_1_n_n none h3 (wT4 w))
    (broadcastInDim S65536x1 ![0, 1] bcast_S1x1_S65536x1_0_1 (broadcastInDim S1x1 ![1] bcast_S1_S1x1_1 b))

/-- The whole stretch: the normalisation, the three layers, the unit column dropped. -/
def outOf (x : FVec Ideal S65536x256 .f32) (mean var gamma beta : FVec Ideal S256 .f32)
    (w2 : FVec Ideal S64x256 .f32) (b2 : FVec Ideal S64 .f32) (w3 : FVec Ideal S16x64 .f32) (b3 : FVec Ideal S16 .f32)
    (w4 : FVec Ideal S1x16 .f32) (b4 : FVec Ideal S1 .f32) : FVec Ideal S65536 .f32 :=
  shapeCast S65536 (lay4Of (lay3Of (lay2Of (normedOf x mean var gamma beta) w2 b2) w3 b3) w4 b4) shapeCasts_S65536x1_S65536

/-! ## Each stage at an index -/

/-- The offset vector reads the offset literal at every column. -/
theorem epsVec_apply (c : Fin 256) : epsVec (ix1 c) = Spec.eps :=
  broadcastInDim_scalar_apply bcast_S_S256 _ (ix1 c)

/-- The normalised array at (r, c). -/
theorem normedOf_apply (x : FVec Ideal S65536x256 .f32) (mean var gamma beta : FVec Ideal S256 .f32) (r : Fin 65536) (c : Fin 256) :
    normedOf x mean var gamma beta (ix2 r c)
      = Spec.normed (Spec.cur2 (n0 := 65536) (n1 := 256) x) (Spec.cur1 (n := 256) mean) (Spec.cur1 (n := 256) var)
          (Spec.cur1 (n := 256) gamma) (Spec.cur1 (n := 256) beta) r c := by
  show ((x (ix2 r c) - down256 mean (ix2 r c)) * down256 (Host.rsqrt (F := Ideal) (addf var epsVec)) (ix2 r c))
      * down256 gamma (ix2 r c) + down256 beta (ix2 r c) = _
  unfold down256
  rw [downRows_apply, downRows_apply, downRows_apply, downRows_apply]
  show ((x (ix2 r c) - mean (ix1 c)) * Ideal.rsqrt (var (ix1 c) + epsVec (ix1 c))) * gamma (ix1 c) + beta (ix1 c) = _
  rw [epsVec_apply]
  rfl

/-- The second layer at (r, j). -/
theorem lay2Of_apply (hn : FVec Ideal S65536x256 .f32) (w : FVec Ideal S64x256 .f32) (b : FVec Ideal S64 .f32) (r : Fin 65536) (j : Fin 64) :
    lay2Of hn w b (ix2 r j)
      = Spec.layer2 (Spec.cur2 (n0 := 65536) (n1 := 256) hn) (Spec.cur2 (n0 := 256) (n1 := 64) (wT2 w)) (Spec.cur1 (n := 64) b) r j := by
  show max (Host.dotGeneral (F := Ideal) (φ₂ := .f32) dot_S65536x256_S256x64_S65536x64_1_0_0_1_n_n none hn (wT2 w) (ix2 r j)
        + broadcastInDim S65536x64 ![0, 1] bcast_S1x64_S65536x64_0_1 (broadcastInDim S1x64 ![1] bcast_S64_S1x64_1 b) (ix2 r j))
      (broadcastInDim S65536x64 ![] bcast_S_S65536x64 (constant (F := Ideal) S_ .f32 0x00000000#32) (ix2 r j)) = _
  rw [dot2_apply, downRows_apply, zeroSplat_apply]
  rfl

/-- The third layer at (r, k). -/
theorem lay3Of_apply (h2 : FVec Ideal S65536x64 .f32) (w : FVec Ideal S16x64 .f32) (b : FVec Ideal S16 .f32) (r : Fin 65536) (k : Fin 16) :
    lay3Of h2 w b (ix2 r k)
      = Spec.layer3 (Spec.cur2 (n0 := 65536) (n1 := 64) h2) (Spec.cur2 (n0 := 64) (n1 := 16) (wT3 w)) (Spec.cur1 (n := 16) b) r k := by
  show max (Host.dotGeneral (F := Ideal) (φ₂ := .f32) dot_S65536x64_S64x16_S65536x16_1_0_0_1_n_n none h2 (wT3 w) (ix2 r k)
        + broadcastInDim S65536x16 ![0, 1] bcast_S1x16_S65536x16_0_1 (broadcastInDim S1x16 ![1] bcast_S16_S1x16_1 b) (ix2 r k))
      (broadcastInDim S65536x16 ![] bcast_S_S65536x16 (constant (F := Ideal) S_ .f32 0x00000000#32) (ix2 r k)) = _
  rw [dot3_apply, downRows_apply, zeroSplat_apply]
  rfl

/-- The last layer at (r, 0). -/
theorem lay4Of_apply (h3 : FVec Ideal S65536x16 .f32) (w : FVec Ideal S1x16 .f32) (b : FVec Ideal S1 .f32) (r : Fin 65536) :
    lay4Of h3 w b (ix2 r (0 : Fin 1))
      = Spec.layer4 (Spec.cur2 (n0 := 65536) (n1 := 16) h3) (Spec.cur2 (n0 := 16) (n1 := 1) (wT4 w)) (Spec.cur1 (n := 1) b) r := by
  show Host.dotGeneral (F := Ideal) (φ₂ := .f32) dot_S65536x16_S16x1_S65536x1_1_0_0_1_n_n none h3 (wT4 w) (ix2 r (0 : Fin 1))
      + broadcastInDim S65536x1 ![0, 1] bcast_S1x1_S65536x1_0_1 (broadcastInDim S1x1 ![1] bcast_S1_S1x1_1 b) (ix2 r (0 : Fin 1)) = _
  rw [dot4_apply, downRows_apply]
  rfl

/-- The whole stretch at row `r`: the layers of the specification composed. -/
theorem outOf_apply (x : FVec Ideal S65536x256 .f32) (mean var gamma beta : FVec Ideal S256 .f32)
    (w2 : FVec Ideal S64x256 .f32) (b2 : FVec Ideal S64 .f32) (w3 : FVec Ideal S16x64 .f32) (b3 : FVec Ideal S16 .f32)
    (w4 : FVec Ideal S1x16 .f32) (b4 : FVec Ideal S1 .f32) (r : Fin 65536) :
    outOf x mean var gamma beta w2 b2 w3 b3 w4 b4 (ix1 r)
      = Spec.mlpTail
          (Spec.normed (Spec.cur2 (n0 := 65536) (n1 := 256) x) (Spec.cur1 (n := 256) mean) (Spec.cur1 (n := 256) var)
            (Spec.cur1 (n := 256) gamma) (Spec.cur1 (n := 256) beta))
          (Spec.cur2 (n0 := 256) (n1 := 64) (wT2 w2)) (Spec.cur1 (n := 64) b2)
          (Spec.cur2 (n0 := 64) (n1 := 16) (wT3 w3)) (Spec.cur1 (n := 16) b3)
          (Spec.cur2 (n0 := 16) (n1 := 1) (wT4 w4)) (Spec.cur1 (n := 1) b4) r := by
  have e1 : Spec.cur2 (n0 := 65536) (n1 := 256) (normedOf x mean var gamma beta)
      = Spec.normed (Spec.cur2 (n0 := 65536) (n1 := 256) x) (Spec.cur1 (n := 256) mean) (Spec.cur1 (n := 256) var)
          (Spec.cur1 (n := 256) gamma) (Spec.cur1 (n := 256) beta) :=
    funext fun r => funext fun c => normedOf_apply x mean var gamma beta r c
  have e2 : ∀ hn : FVec Ideal S65536x256 .f32, Spec.cur2 (n0 := 65536) (n1 := 64) (lay2Of hn w2 b2)
      = Spec.layer2 (Spec.cur2 (n0 := 65536) (n1 := 256) hn) (Spec.cur2 (n0 := 256) (n1 := 64) (wT2 w2)) (Spec.cur1 (n := 64) b2) :=
    fun hn => funext fun r => funext fun j => lay2Of_apply hn w2 b2 r j
  have e3 : ∀ h2 : FVec Ideal S65536x64 .f32, Spec.cur2 (n0 := 65536) (n1 := 16) (lay3Of h2 w3 b3)
      = Spec.layer3 (Spec.cur2 (n0 := 65536) (n1 := 64) h2) (Spec.cur2 (n0 := 64) (n1 := 16) (wT3 w3)) (Spec.cur1 (n := 16) b3) :=
    fun h2 => funext fun r => funext fun k => lay3Of_apply h2 w3 b3 r k
  unfold outOf Spec.mlpTail
  rw [dropCol_apply, lay4Of_apply, e3, e2, e1]

/-! ## The stretch over a valuation -/

variable (U : Valuation τ sig (Elt Ideal))

/-- The result's buffer after the stretch holds the stretch's function of the buffers it reads. -/
theorem opsC_v71 : (after opsC U (Proc.devRef .tc main_v71) : FVec Ideal S65536 .f32)
    = outOf (U (Proc.devRef .tc main_v28)) (U (Proc.devRef .tc main_v31)) (U (Proc.devRef .tc main_v38))
        (U (Proc.devRef .tc main_arg8)) (U (Proc.devRef .tc main_arg9)) (U (Proc.devRef .tc main_arg10))
        (U (Proc.devRef .tc main_arg11)) (U (Proc.devRef .tc main_arg12)) (U (Proc.devRef .tc main_arg13))
        (U (Proc.devRef .tc main_arg14)) (U (Proc.devRef .tc main_arg15)) := by
  after_results_simp
  simp only [TRef.toBuf, TRef.ofBuf, cast_eq, id]
  rfl

/-- The result at row `r`. -/
theorem out_apply (r : Fin 65536) : (after opsC U (Proc.devRef .tc main_v71) : S65536.Idx → EReal) (ix1 r)
    = Spec.mlpTail
        (Spec.normed (Spec.cur2 (n0 := 65536) (n1 := 256) (U (Proc.devRef .tc main_v28))) (Spec.cur1 (n := 256) (U (Proc.devRef .tc main_v31)))
          (Spec.cur1 (n := 256) (U (Proc.devRef .tc main_v38))) (Spec.cur1 (n := 256) (U (Proc.devRef .tc main_arg8))) (Spec.cur1 (n := 256) (U (Proc.devRef .tc main_arg9))))
        (Spec.cur2 (n0 := 256) (n1 := 64) (wT2 (U (Proc.devRef .tc main_arg10)))) (Spec.cur1 (n := 64) (U (Proc.devRef .tc main_arg11)))
        (Spec.cur2 (n0 := 64) (n1 := 16) (wT3 (U (Proc.devRef .tc main_arg12)))) (Spec.cur1 (n := 16) (U (Proc.devRef .tc main_arg13)))
        (Spec.cur2 (n0 := 16) (n1 := 1) (wT4 (U (Proc.devRef .tc main_arg14)))) (Spec.cur1 (n := 1) (U (Proc.devRef .tc main_arg15))) r :=
  (congrFun (opsC_v71 U) (ix1 r)).trans (outOf_apply _ _ _ _ _ _ _ _ _ _ _ r)

end Cert.ReferenceIdeal.RefReadTail

end
-- ==== Proof.RValue.lean ====
/-
  The idealized reference's result as one function of its arguments, and its run with the result named. The program is
  its three stretches run one after the other: the first leaves the first layer's output (all 440 features contracted
  at once), the second its column means and biased variances over all rows, the third the normalised rows pushed
  through the remaining layers. Substituting each into the next gives the plain spelling of the network at the
  gathered features and the transposed weights. No operation writes an argument, so the arguments end as launched.
-/
import proofs.«107007_j80882824118683_2_alg».proof.Proof.RefRun
import proofs.«107007_j80882824118683_2_alg».proof.Proof.RefReadA
import proofs.«107007_j80882824118683_2_alg».proof.Proof.RefReadB
import proofs.«107007_j80882824118683_2_alg».proof.Proof.RefReadC
import Idealize.ShloMosaic.Lib.Pipeline.Frame

set_option maxRecDepth 16384

noncomputable section

namespace Cert.ReferenceIdeal.Value

open Cert.ReferenceIdeal Cert.ReferenceIdeal.Gen Cert.ReferenceIdeal.RefRun
open Idealize.ShloMosaic Idealize.ShloMosaic.TcCoe Idealize.ShloMosaic.ValueIdx Idealize.SL.Sem Idealize.ShloMosaic.StableHlo
open scoped BigOperators

variable (V : Valuation τ sig (Elt Ideal))

/-- The network in the plain spelling at the arguments held by `V`: the gathered features, the transposed weights,
    the bias and affine rows. -/
def out (r : Fin 65536) : EReal :=
  Spec.outR (Spec.cur2 (n0 := 65536) (n1 := 32) (RefRead.featS (V (Proc.devRef .tc main_arg0)) (V (Proc.devRef .tc main_arg4))))
    (Spec.cur2 (n0 := 65536) (n1 := 16) (RefRead.featC (V (Proc.devRef .tc main_arg1)) (V (Proc.devRef .tc main_arg5))))
    (Spec.cur2 (n0 := 65536) (n1 := 392) (RefRead.featX (V (Proc.devRef .tc main_arg2)) (V (Proc.devRef .tc main_arg3))))
    (Spec.cur2 (n0 := 440) (n1 := 256) (RefRead.wT1 (V (Proc.devRef .tc main_arg6)))) (Spec.cur1 (n := 256) (V (Proc.devRef .tc main_arg7)))
    (Spec.cur1 (n := 256) (V (Proc.devRef .tc main_arg8))) (Spec.cur1 (n := 256) (V (Proc.devRef .tc main_arg9)))
    (Spec.cur2 (n0 := 256) (n1 := 64) (RefReadTail.wT2 (V (Proc.devRef .tc main_arg10)))) (Spec.cur1 (n := 64) (V (Proc.devRef .tc main_arg11)))
    (Spec.cur2 (n0 := 64) (n1 := 16) (RefReadTail.wT3 (V (Proc.devRef .tc main_arg12)))) (Spec.cur1 (n := 16) (V (Proc.devRef .tc main_arg13)))
    (Spec.cur2 (n0 := 16) (n1 := 1) (RefReadTail.wT4 (V (Proc.devRef .tc main_arg14)))) (Spec.cur1 (n := 1) (V (Proc.devRef .tc main_arg15))) r

/-- The whole line is its three stretches in order. -/
theorem after_ops : after ops V = after opsC (after opsB (after opsA V)) := by
  show after (opsA ++ (opsB ++ opsC)) V = _
  rw [StableHlo.after_append, StableHlo.after_append]

/-- The first layer's output after the first stretch, as a function of row and column. -/
theorem h1_cur : Spec.cur2 (n0 := 65536) (n1 := 256) (after opsA V (Proc.devRef .tc main_v28))
    = Spec.lin1 (Spec.cat (Spec.cur2 (n0 := 65536) (n1 := 32) (RefRead.featS (V (Proc.devRef .tc main_arg0)) (V (Proc.devRef .tc main_arg4))))
          (Spec.cur2 (n0 := 65536) (n1 := 16) (RefRead.featC (V (Proc.devRef .tc main_arg1)) (V (Proc.devRef .tc main_arg5))))
          (Spec.cur2 (n0 := 65536) (n1 := 392) (RefRead.featX (V (Proc.devRef .tc main_arg2)) (V (Proc.devRef .tc main_arg3)))))
        (Spec.cur2 (n0 := 440) (n1 := 256) (RefRead.wT1 (V (Proc.devRef .tc main_arg6)))) (Spec.cur1 (n := 256) (V (Proc.devRef .tc main_arg7))) := by
  funext r j
  exact RefRead.h1_apply V r j

/-- The result at row `r`: the plain spelling of the network at the arguments. -/
theorem result_apply (r : Fin 65536) : (after ops V (Proc.devRef .tc main_v71) : S65536.Idx → EReal) (ix1 r) = out V r := by
  rw [after_ops V, RefReadTail.out_apply (after opsB (after opsA V)) r]
  have hm : Spec.cur1 (n := 256) (after opsB (after opsA V) (Proc.devRef .tc main_v31))
      = Spec.meanR (Spec.cur2 (n0 := 65536) (n1 := 256) (after opsA V (Proc.devRef .tc main_v28))) :=
    funext fun j => RefReadStats.mean_apply (after opsA V) j
  have hv : Spec.cur1 (n := 256) (after opsB (after opsA V) (Proc.devRef .tc main_v38))
      = Spec.varR (Spec.cur2 (n0 := 65536) (n1 := 256) (after opsA V (Proc.devRef .tc main_v28))) :=
    funext fun j => RefReadStats.var_apply (after opsA V) j
  rw [hm, hv, RefReadStats.opsB_v28 (after opsA V), h1_cur V,
    RefReadStats.opsB_arg8 (after opsA V), RefRead.opsA_arg8 V,
    RefReadStats.opsB_arg9 (after opsA V), RefRead.opsA_arg9 V,
    RefReadStats.opsB_arg10 (after opsA V), RefRead.opsA_arg10 V,
    RefReadStats.opsB_arg11 (after opsA V), RefRead.opsA_arg11 V,
    RefReadStats.opsB_arg12 (after opsA V), RefRead.opsA_arg12 V,
    RefReadStats.opsB_arg13 (after opsA V), RefRead.opsA_arg13 V,
    RefReadStats.opsB_arg14 (after opsA V), RefRead.opsA_arg14 V,
    RefReadStats.opsB_arg15 (after opsA V), RefRead.opsA_arg15 V]
  rfl

/-- The result array as a whole. -/
theorem result_eq : (after ops V (Proc.devRef .tc main_v71) : S65536.Idx → EReal) = fun i => out V (i 0) := by
  funext i
  obtain ⟨r, rfl⟩ : ∃ r : Fin 65536, i = ix1 r := ⟨i 0, eq_ix1 i⟩
  exact result_apply V r

/-! ## No stretch writes an argument -/

theorem keepA_arg0 (W : Valuation τ sig (Elt Ideal)) : after opsA W (Proc.devRef .tc main_arg0) = W (Proc.devRef .tc main_arg0) := by after_results_simp
theorem keepB_arg0 (W : Valuation τ sig (Elt Ideal)) : after opsB W (Proc.devRef .tc main_arg0) = W (Proc.devRef .tc main_arg0) := by after_results_simp
theorem keepC_arg0 (W : Valuation τ sig (Elt Ideal)) : after opsC W (Proc.devRef .tc main_arg0) = W (Proc.devRef .tc main_arg0) := by after_results_simp
theorem keep_arg0 : after ops V (Proc.devRef .tc main_arg0) = V (Proc.devRef .tc main_arg0) := by
  rw [after_ops V, keepC_arg0, keepB_arg0, keepA_arg0]
theorem keepA_arg1 (W : Valuation τ sig (Elt Ideal)) : after opsA W (Proc.devRef .tc main_arg1) = W (Proc.devRef .tc main_arg1) := by after_results_simp
theorem keepB_arg1 (W : Valuation τ sig (Elt Ideal)) : after opsB W (Proc.devRef .tc main_arg1) = W (Proc.devRef .tc main_arg1) := by after_results_simp
theorem keepC_arg1 (W : Valuation τ sig (Elt Ideal)) : after opsC W (Proc.devRef .tc main_arg1) = W (Proc.devRef .tc main_arg1) := by after_results_simp
theorem keep_arg1 : after ops V (Proc.devRef .tc main_arg1) = V (Proc.devRef .tc main_arg1) := by
  rw [after_ops V, keepC_arg1, keepB_arg1, keepA_arg1]
theorem keepA_arg2 (W : Valuation τ sig (Elt Ideal)) : after opsA W (Proc.devRef .tc main_arg2) = W (Proc.devRef .tc main_arg2) := by after_results_simp
theorem keepB_arg2 (W : Valuation τ sig (Elt Ideal)) : after opsB W (Proc.devRef .tc main_arg2) = W (Proc.devRef .tc main_arg2) := by after_results_simp
theorem keepC_arg2 (W : Valuation τ sig (Elt Ideal)) : after opsC W (Proc.devRef .tc main_arg2) = W (Proc.devRef .tc main_arg2) := by after_results_simp
theorem keep_arg2 : after ops V (Proc.devRef .tc main_arg2) = V (Proc.devRef .tc main_arg2) := by
  rw [after_ops V, keepC_arg2, keepB_arg2, keepA_arg2]
theorem keepA_arg3 (W : Valuation τ sig (Elt Ideal)) : after opsA W (Proc.devRef .tc main_arg3) = W (Proc.devRef .tc main_arg3) := by after_results_simp
theorem keepB_arg3 (W : Valuation τ sig (Elt Ideal)) : after opsB W (Proc.devRef .tc main_arg3) = W (Proc.devRef .tc main_arg3) := by after_results_simp
theorem keepC_arg3 (W : Valuation τ sig (Elt Ideal)) : after opsC W (Proc.devRef .tc main_arg3) = W (Proc.devRef .tc main_arg3) := by after_results_simp
theorem keep_arg3 : after ops V (Proc.devRef .tc main_arg3) = V (Proc.devRef .tc main_arg3) := by
  rw [after_ops V, keepC_arg3, keepB_arg3, keepA_arg3]
theorem keepA_arg4 (W : Valuation τ sig (Elt Ideal)) : after opsA W (Proc.devRef .tc main_arg4) = W (Proc.devRef .tc main_arg4) := by after_results_simp
theorem keepB_arg4 (W : Valuation τ sig (Elt Ideal)) : after opsB W (Proc.devRef .tc main_arg4) = W (Proc.devRef .tc main_arg4) := by after_results_simp
theorem keepC_arg4 (W : Valuation τ sig (Elt Ideal)) : after opsC W (Proc.devRef .tc main_arg4) = W (Proc.devRef .tc main_arg4) := by after_results_simp
theorem keep_arg4 : after ops V (Proc.devRef .tc main_arg4) = V (Proc.devRef .tc main_arg4) := by
  rw [after_ops V, keepC_arg4, keepB_arg4, keepA_arg4]
theorem keepA_arg5 (W : Valuation τ sig (Elt Ideal)) : after opsA W (Proc.devRef .tc main_arg5) = W (Proc.devRef .tc main_arg5) := by after_results_simp
theorem keepB_arg5 (W : Valuation τ sig (Elt Ideal)) : after opsB W (Proc.devRef .tc main_arg5) = W (Proc.devRef .tc main_arg5) := by after_results_simp
theorem keepC_arg5 (W : Valuation τ sig (Elt Ideal)) : after opsC W (Proc.devRef .tc main_arg5) = W (Proc.devRef .tc main_arg5) := by after_results_simp
theorem keep_arg5 : after ops V (Proc.devRef .tc main_arg5) = V (Proc.devRef .tc main_arg5) := by
  rw [after_ops V, keepC_arg5, keepB_arg5, keepA_arg5]
theorem keepA_arg6 (W : Valuation τ sig (Elt Ideal)) : after opsA W (Proc.devRef .tc main_arg6) = W (Proc.devRef .tc main_arg6) := by after_results_simp
theorem keepB_arg6 (W : Valuation τ sig (Elt Ideal)) : after opsB W (Proc.devRef .tc main_arg6) = W (Proc.devRef .tc main_arg6) := by after_results_simp
theorem keepC_arg6 (W : Valuation τ sig (Elt Ideal)) : after opsC W (Proc.devRef .tc main_arg6) = W (Proc.devRef .tc main_arg6) := by after_results_simp
theorem keep_arg6 : after ops V (Proc.devRef .tc main_arg6) = V (Proc.devRef .tc main_arg6) := by
  rw [after_ops V, keepC_arg6, keepB_arg6, keepA_arg6]
theorem keepA_arg7 (W : Valuation τ sig (Elt Ideal)) : after opsA W (Proc.devRef .tc main_arg7) = W (Proc.devRef .tc main_arg7) := by after_results_simp
theorem keepB_arg7 (W : Valuation τ sig (Elt Ideal)) : after opsB W (Proc.devRef .tc main_arg7) = W (Proc.devRef .tc main_arg7) := by after_results_simp
theorem keepC_arg7 (W : Valuation τ sig (Elt Ideal)) : after opsC W (Proc.devRef .tc main_arg7) = W (Proc.devRef .tc main_arg7) := by after_results_simp
theorem keep_arg7 : after ops V (Proc.devRef .tc main_arg7) = V (Proc.devRef .tc main_arg7) := by
  rw [after_ops V, keepC_arg7, keepB_arg7, keepA_arg7]
theorem keepA_arg8 (W : Valuation τ sig (Elt Ideal)) : after opsA W (Proc.devRef .tc main_arg8) = W (Proc.devRef .tc main_arg8) := by after_results_simp
theorem keepB_arg8 (W : Valuation τ sig (Elt Ideal)) : after opsB W (Proc.devRef .tc main_arg8) = W (Proc.devRef .tc main_arg8) := by after_results_simp
theorem keepC_arg8 (W : Valuation τ sig (Elt Ideal)) : after opsC W (Proc.devRef .tc main_arg8) = W (Proc.devRef .tc main_arg8) := by after_results_simp
theorem keep_arg8 : after ops V (Proc.devRef .tc main_arg8) = V (Proc.devRef .tc main_arg8) := by
  rw [after_ops V, keepC_arg8, keepB_arg8, keepA_arg8]
theorem keepA_arg9 (W : Valuation τ sig (Elt Ideal)) : after opsA W (Proc.devRef .tc main_arg9) = W (Proc.devRef .tc main_arg9) := by after_results_simp
theorem keepB_arg9 (W : Valuation τ sig (Elt Ideal)) : after opsB W (Proc.devRef .tc main_arg9) = W (Proc.devRef .tc main_arg9) := by after_results_simp
theorem keepC_arg9 (W : Valuation τ sig (Elt Ideal)) : after opsC W (Proc.devRef .tc main_arg9) = W (Proc.devRef .tc main_arg9) := by after_results_simp
theorem keep_arg9 : after ops V (Proc.devRef .tc main_arg9) = V (Proc.devRef .tc main_arg9) := by
  rw [after_ops V, keepC_arg9, keepB_arg9, keepA_arg9]
theorem keepA_arg10 (W : Valuation τ sig (Elt Ideal)) : after opsA W (Proc.devRef .tc main_arg10) = W (Proc.devRef .tc main_arg10) := by after_results_simp
theorem keepB_arg10 (W : Valuation τ sig (Elt Ideal)) : after opsB W (Proc.devRef .tc main_arg10) = W (Proc.devRef .tc main_arg10) := by after_results_simp
theorem keepC_arg10 (W : Valuation τ sig (Elt Ideal)) : after opsC W (Proc.devRef .tc main_arg10) = W (Proc.devRef .tc main_arg10) := by after_results_simp
theorem keep_arg10 : after ops V (Proc.devRef .tc main_arg10) = V (Proc.devRef .tc main_arg10) := by
  rw [after_ops V, keepC_arg10, keepB_arg10, keepA_arg10]
theorem keepA_arg11 (W : Valuation τ sig (Elt Ideal)) : after opsA W (Proc.devRef .tc main_arg11) = W (Proc.devRef .tc main_arg11) := by after_results_simp
theorem keepB_arg11 (W : Valuation τ sig (Elt Ideal)) : after opsB W (Proc.devRef .tc main_arg11) = W (Proc.devRef .tc main_arg11) := by after_results_simp
theorem keepC_arg11 (W : Valuation τ sig (Elt Ideal)) : after opsC W (Proc.devRef .tc main_arg11) = W (Proc.devRef .tc main_arg11) := by after_results_simp
theorem keep_arg11 : after ops V (Proc.devRef .tc main_arg11) = V (Proc.devRef .tc main_arg11) := by
  rw [after_ops V, keepC_arg11, keepB_arg11, keepA_arg11]
theorem keepA_arg12 (W : Valuation τ sig (Elt Ideal)) : after opsA W (Proc.devRef .tc main_arg12) = W (Proc.devRef .tc main_arg12) := by after_results_simp
theorem keepB_arg12 (W : Valuation τ sig (Elt Ideal)) : after opsB W (Proc.devRef .tc main_arg12) = W (Proc.devRef .tc main_arg12) := by after_results_simp
theorem keepC_arg12 (W : Valuation τ sig (Elt Ideal)) : after opsC W (Proc.devRef .tc main_arg12) = W (Proc.devRef .tc main_arg12) := by after_results_simp
theorem keep_arg12 : after ops V (Proc.devRef .tc main_arg12) = V (Proc.devRef .tc main_arg12) := by
  rw [after_ops V, keepC_arg12, keepB_arg12, keepA_arg12]
theorem keepA_arg13 (W : Valuation τ sig (Elt Ideal)) : after opsA W (Proc.devRef .tc main_arg13) = W (Proc.devRef .tc main_arg13) := by after_results_simp
theorem keepB_arg13 (W : Valuation τ sig (Elt Ideal)) : after opsB W (Proc.devRef .tc main_arg13) = W (Proc.devRef .tc main_arg13) := by after_results_simp
theorem keepC_arg13 (W : Valuation τ sig (Elt Ideal)) : after opsC W (Proc.devRef .tc main_arg13) = W (Proc.devRef .tc main_arg13) := by after_results_simp
theorem keep_arg13 : after ops V (Proc.devRef .tc main_arg13) = V (Proc.devRef .tc main_arg13) := by
  rw [after_ops V, keepC_arg13, keepB_arg13, keepA_arg13]
theorem keepA_arg14 (W : Valuation τ sig (Elt Ideal)) : after opsA W (Proc.devRef .tc main_arg14) = W (Proc.devRef .tc main_arg14) := by after_results_simp
theorem keepB_arg14 (W : Valuation τ sig (Elt Ideal)) : after opsB W (Proc.devRef .tc main_arg14) = W (Proc.devRef .tc main_arg14) := by after_results_simp
theorem keepC_arg14 (W : Valuation τ sig (Elt Ideal)) : after opsC W (Proc.devRef .tc main_arg14) = W (Proc.devRef .tc main_arg14) := by after_results_simp
theorem keep_arg14 : after ops V (Proc.devRef .tc main_arg14) = V (Proc.devRef .tc main_arg14) := by
  rw [after_ops V, keepC_arg14, keepB_arg14, keepA_arg14]
theorem keepA_arg15 (W : Valuation τ sig (Elt Ideal)) : after opsA W (Proc.devRef .tc main_arg15) = W (Proc.devRef .tc main_arg15) := by after_results_simp
theorem keepB_arg15 (W : Valuation τ sig (Elt Ideal)) : after opsB W (Proc.devRef .tc main_arg15) = W (Proc.devRef .tc main_arg15) := by after_results_simp
theorem keepC_arg15 (W : Valuation τ sig (Elt Ideal)) : after opsC W (Proc.devRef .tc main_arg15) = W (Proc.devRef .tc main_arg15) := by after_results_simp
theorem keep_arg15 : after ops V (Proc.devRef .tc main_arg15) = V (Proc.devRef .tc main_arg15) := by
  rw [after_ops V, keepC_arg15, keepB_arg15, keepA_arg15]

/-! ## The run -/

/-- Every weakly fair execution of the reference terminates, nothing faulting, with the result buffer at the plain
    spelling of the network at the launch arguments and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = (fun i => out (launchContents m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    ⟨(h c main_v71).trans (result_eq (launchContents m c)),
     (h c main_arg0).trans (keep_arg0 (launchContents m c)),
     (h c main_arg1).trans (keep_arg1 (launchContents m c)),
     (h c main_arg2).trans (keep_arg2 (launchContents m c)),
     (h c main_arg3).trans (keep_arg3 (launchContents m c)),
     (h c main_arg4).trans (keep_arg4 (launchContents m c)),
     (h c main_arg5).trans (keep_arg5 (launchContents m c)),
     (h c main_arg6).trans (keep_arg6 (launchContents m c)),
     (h c main_arg7).trans (keep_arg7 (launchContents m c)),
     (h c main_arg8).trans (keep_arg8 (launchContents m c)),
     (h c main_arg9).trans (keep_arg9 (launchContents m c)),
     (h c main_arg10).trans (keep_arg10 (launchContents m c)),
     (h c main_arg11).trans (keep_arg11 (launchContents m c)),
     (h c main_arg12).trans (keep_arg12 (launchContents m c)),
     (h c main_arg13).trans (keep_arg13 (launchContents m c)),
     (h c main_arg14).trans (keep_arg14 (launchContents m c)),
     (h c main_arg15).trans (keep_arg15 (launchContents m c))⟩)
    (RefRun.run m ρ)

end Cert.ReferenceIdeal.Value

end
-- ==== Proof.SpecLaws.lean ====
/-
  The two spellings of the network agree on finite inputs. Contracting the three feature groups separately is
  contracting their concatenation (a sum over 440 split at 32 and 48). Summing a column tile by tile, core by core, is
  summing it over all rows (65536 = 2 · 8 · 4096 re-indexed). With every first-layer output a real number, the mean of
  squares minus the squared mean is the mean of the squared deviations, which is a sum of squares over a positive
  number and so is not changed by clamping at 0. The rest of the network is the same function of the first layer's
  output, the mean and the variance on both sides.
-/
import proofs.«107007_j80882824118683_2_alg».proof.Proof.Spec

noncomputable section

namespace Cert.Spec

open Idealize.ShloMosaic
open scoped BigOperators

/-! ### Finite extended reals are real numbers -/

/-- A finite extended real is the image of a real number. -/
theorem IsFin.exists_real {a : EReal} (h : IsFin a) : ∃ x : ℝ, a = (x : EReal) :=
  ⟨a.toReal, (EReal.coe_toReal h.2 h.1).symm⟩

/-- The image of a real number is finite. -/
theorem isFin_coe (x : ℝ) : IsFin (x : EReal) := ⟨EReal.coe_ne_bot x, EReal.coe_ne_top x⟩

/-- The inclusion of the reals commutes with finite sums. -/
theorem coe_sum {ι : Type*} (s : Finset ι) (g : ι → ℝ) :
    ∑ i ∈ s, (g i : EReal) = ((∑ i ∈ s, g i : ℝ) : EReal) := by
  classical
  induction s using Finset.induction_on with
  | empty => simp only [Finset.sum_empty, EReal.coe_zero]
  | insert a s ha ih => rw [Finset.sum_insert ha, Finset.sum_insert ha, ih, EReal.coe_add]

/-- The batch size literal is the real number 65536. -/
theorem nB_eq : nB = ((65536 : ℝ) : EReal) := by
  unfold nB
  simp [Ideal.ofBits, Ideal.ieee, -EReal.coe_mul]
  norm_num

/-! ### The first layer: three contractions are one -/

/-- A sum over the 440 feature columns, split into the three groups' columns. -/
theorem sum_440 {M : Type*} [AddCommMonoid M] (g : Fin 440 → M) :
    ∑ k : Fin 440, g k
      = ((∑ k : Fin 32, g (colS k)) + (∑ k : Fin 16, g (colC k))) + (∑ k : Fin 392, g (colX k)) := by
  have e1 : ∑ k : Fin 440, g k
      = (∑ k : Fin 32, g (Fin.castAdd 408 k)) + ∑ k : Fin 408, g (Fin.natAdd 32 k) :=
    Fin.sum_univ_add (a := 32) (b := 408) g
  have e2 : ∑ k : Fin 408, g (Fin.natAdd 32 k)
      = (∑ k : Fin 16, g (Fin.natAdd 32 (Fin.castAdd 392 k)))
        + ∑ k : Fin 392, g (Fin.natAdd 32 (Fin.natAdd 16 k)) :=
    Fin.sum_univ_add (a := 16) (b := 392) (fun k => g (Fin.natAdd 32 k))
  rw [e1, e2, ← add_assoc]
  have h3 : ∀ k : Fin 392, (Fin.natAdd 32 (Fin.natAdd 16 k) : Fin (32 + (16 + 392))) = colX k := fun k =>
    Fin.ext (by simp only [Fin.val_natAdd]; omega)
  simp only [h3]
  rfl

/-- The concatenated row at a state column. -/
theorem cat_colS (fs : Fin 65536 → Fin 32 → EReal) (fc : Fin 65536 → Fin 16 → EReal) (fx : Fin 65536 → Fin 392 → EReal)
    (r : Fin 65536) (k : Fin 32) : cat fs fc fx r (colS k) = fs r k := by
  unfold cat
  rw [dif_pos (show (colS k).val < 32 from k.isLt)]

/-- The concatenated row at a counts column. -/
theorem cat_colC (fs : Fin 65536 → Fin 32 → EReal) (fc : Fin 65536 → Fin 16 → EReal) (fx : Fin 65536 → Fin 392 → EReal)
    (r : Fin 65536) (k : Fin 16) : cat fs fc fx r (colC k) = fc r k := by
  unfold cat
  rw [dif_neg (show ¬ (colC k).val < 32 from by simp only []; omega),
    dif_pos (show (colC k).val < 48 from by simp only []; omega)]
  exact congrArg (fc r) (Fin.ext (by simp only []; omega))

/-- The concatenated row at an embedding column. -/
theorem cat_colX (fs : Fin 65536 → Fin 32 → EReal) (fc : Fin 65536 → Fin 16 → EReal) (fx : Fin 65536 → Fin 392 → EReal)
    (r : Fin 65536) (k : Fin 392) : cat fs fc fx r (colX k) = fx r k := by
  unfold cat
  rw [dif_neg (show ¬ (colX k).val < 32 from by simp only []; omega),
    dif_neg (show ¬ (colX k).val < 48 from by simp only []; omega)]
  exact congrArg (fx r) (Fin.ext (by simp only []; omega))

/-- Contracting the three groups separately is contracting their concatenation. -/
theorem lin1Split_eq (fs : Fin 65536 → Fin 32 → EReal) (fc : Fin 65536 → Fin 16 → EReal) (fx : Fin 65536 → Fin 392 → EReal)
    (W1T : Fin 440 → Fin 256 → EReal) (b1 : Fin 256 → EReal) :
    lin1Split fs fc fx W1T b1 = lin1 (cat fs fc fx) W1T b1 := by
  funext r c
  unfold lin1Split lin1
  rw [sum_440 (fun k => cat fs fc fx r k * W1T k c)]
  simp only [cat_colS, cat_colC, cat_colX]

/-! ### The column sum: tile by tile is all at once -/

/-- A sum over `m * n` indices is the sum over `m` blocks of the sums over each block's `n` indices. -/
theorem sum_fin_mul {M : Type*} [AddCommMonoid M] (m n : ℕ) (f : Fin (m * n) → M)
    (hlt : ∀ (a : Fin m) (b : Fin n), a.val * n + b.val < m * n) :
    ∑ i : Fin (m * n), f i = ∑ a : Fin m, ∑ b : Fin n, f ⟨a.val * n + b.val, hlt a b⟩ := by
  rw [← Equiv.sum_comp finProdFinEquiv f, Fintype.sum_prod_type]
  refine Finset.sum_congr rfl fun a _ => Finset.sum_congr rfl fun b _ => congrArg f (Fin.ext ?_)
  rw [finProdFinEquiv_apply_val, Nat.add_comm, Nat.mul_comm]

/-- Summing a column tile by tile within each core and then over the two cores is summing it over all rows. -/
theorem colSumTiled_eq (h : Fin 65536 → Fin 256 → EReal) (c : Fin 256) : colSumTiled h c = colSum h c := by
  unfold colSumTiled colSum coreSum
  refine congrArg (fun x => (0 : EReal) + x) ?_
  have e1 : ∑ r : Fin 65536, h r c = ∑ t : Fin 16, ∑ p : Fin 4096, h (tileRow t p) c :=
    sum_fin_mul 16 4096 (fun r => h r c) (fun a b => by omega)
  have e2 : ∑ t : Fin 16, ∑ p : Fin 4096, h (tileRow t p) c
      = ∑ core : Fin 2, ∑ j : Fin 8, ∑ p : Fin 4096, h (tileRow (coreTile core j) p) c :=
    sum_fin_mul 2 8 (fun t => ∑ p : Fin 4096, h (tileRow t p) c) (fun a b => by omega)
  exact (e1.trans e2).symm

/-- The tiled mean is the plain mean. -/
theorem meanK_eq (h : Fin 65536 → Fin 256 → EReal) : meanK h = meanR h := by
  funext c
  unfold meanK meanR
  rw [colSumTiled_eq]

/-! ### Real first-layer outputs: the two variances agree -/

/-- The first layer of finite inputs takes real values. -/
theorem lin1_real (X : Fin 65536 → Fin 440 → EReal) (W1T : Fin 440 → Fin 256 → EReal) (b1 : Fin 256 → EReal)
    (hX : ∀ r k, IsFin (X r k)) (hW : ∀ k c, IsFin (W1T k c)) (hb : ∀ c, IsFin (b1 c)) :
    ∃ g : Fin 65536 → Fin 256 → ℝ, lin1 X W1T b1 = fun r c => (g r c : EReal) := by
  choose x hx using fun r k => (hX r k).exists_real
  choose w hw using fun k c => (hW k c).exists_real
  choose b hb' using fun c => (hb c).exists_real
  refine ⟨fun r c => (∑ k, x r k * w k c) + b c, ?_⟩
  funext r c
  unfold lin1
  simp only [hx, hw, hb', ← EReal.coe_mul, coe_sum, ← EReal.coe_add]

/-- The concatenation of finite groups is finite. -/
theorem cat_isFin (fs : Fin 65536 → Fin 32 → EReal) (fc : Fin 65536 → Fin 16 → EReal) (fx : Fin 65536 → Fin 392 → EReal)
    (hs : ∀ r k, IsFin (fs r k)) (hc : ∀ r k, IsFin (fc r k)) (hx : ∀ r k, IsFin (fx r k))
    (r : Fin 65536) (k : Fin 440) : IsFin (cat fs fc fx r k) := by
  unfold cat
  split
  · exact hs _ _
  · split
    · exact hc _ _
    · exact hx _ _

/-- Over the reals, the mean of the squared deviations is the mean of the squares minus the squared mean. -/
theorem real_var {ι : Type*} [Fintype ι] (g : ι → ℝ) (N : ℝ) (hN : N = (Fintype.card ι : ℝ)) (hN0 : N ≠ 0) :
    (∑ r, (g r - (∑ r, g r) * (1 / N)) * (g r - (∑ r, g r) * (1 / N))) * (1 / N)
      = (∑ r, g r * g r) * (1 / N) - ((∑ r, g r) * (1 / N)) * ((∑ r, g r) * (1 / N)) := by
  generalize hm : (∑ r, g r) * (1 / N) = m
  have hS : ∑ r, g r = m * N := by rw [← hm]; field_simp
  have e : ∑ r, (g r - m) * (g r - m) = (∑ r, g r * g r) - 2 * m * (∑ r, g r) + N * (m * m) := by
    rw [Finset.mul_sum, hN, ← nsmul_eq_mul, ← Finset.card_univ, ← Finset.sum_const, ← Finset.sum_sub_distrib,
      ← Finset.sum_add_distrib]
    exact Finset.sum_congr rfl fun r _ => by ring
  rw [e, hS]
  field_simp
  ring

/-- The column sum of real values is the real sum. -/
theorem colSum_coe (g : Fin 65536 → Fin 256 → ℝ) (c : Fin 256) :
    colSum (fun r c => (g r c : EReal)) c = ((∑ r, g r c : ℝ) : EReal) := by
  unfold colSum
  rw [zero_add, coe_sum]

/-- The plain mean of real values is the real mean. -/
theorem meanR_coe (g : Fin 65536 → Fin 256 → ℝ) (c : Fin 256) :
    meanR (fun r c => (g r c : EReal)) c = (((∑ r, g r c) * (1 / 65536) : ℝ) : EReal) := by
  unfold meanR
  rw [colSum_coe, nB_eq, Ideal.div_coe (by norm_num), ← EReal.coe_mul]

/-- The plain variance of real values is the real mean of squared deviations. -/
theorem varR_coe (g : Fin 65536 → Fin 256 → ℝ) (c : Fin 256) :
    varR (fun r c => (g r c : EReal)) c
      = (((∑ r, (g r c - (∑ r, g r c) * (1 / 65536)) * (g r c - (∑ r, g r c) * (1 / 65536))) * (1 / 65536) : ℝ) : EReal) := by
  unfold varR
  simp only [meanR_coe, ← EReal.coe_sub, ← EReal.coe_mul]
  rw [colSum_coe (fun r c => (g r c - (∑ r, g r c) * (1 / 65536)) * (g r c - (∑ r, g r c) * (1 / 65536))) c,
    nB_eq, Ideal.div_coe (by norm_num), ← EReal.coe_mul]

/-- The unclamped tiled variance of real values is the real mean of squares minus the squared mean. -/
theorem varRawK_coe (g : Fin 65536 → Fin 256 → ℝ) (c : Fin 256) :
    varRawK (fun r c => (g r c : EReal)) c
      = (((∑ r, g r c * g r c) * (1 / 65536)
          - ((∑ r, g r c) * (1 / 65536)) * ((∑ r, g r c) * (1 / 65536)) : ℝ) : EReal) := by
  unfold varRawK
  rw [meanK_eq, colSumTiled_eq, meanR_coe]
  simp only [← EReal.coe_mul]
  rw [colSum_coe (fun r c => g r c * g r c) c, nB_eq, Ideal.div_coe (by norm_num), ← EReal.coe_mul, ← EReal.coe_sub]

/-- On real values the tiled variance, clamps included, is the plain variance. -/
theorem varK_eq_of_real (g : Fin 65536 → Fin 256 → ℝ) :
    varK (fun r c => (g r c : EReal)) = varR (fun r c => (g r c : EReal)) := by
  funext c
  unfold varK
  have hcard : (65536 : ℝ) = (Fintype.card (Fin 65536) : ℝ) := by rw [Fintype.card_fin]; norm_num
  have hid := real_var (fun r => g r c) 65536 hcard (by norm_num)
  rw [varRawK_coe, varR_coe, ← hid]
  have hnn : (0 : ℝ) ≤ (∑ r, (g r c - (∑ r, g r c) * (1 / 65536)) * (g r c - (∑ r, g r c) * (1 / 65536))) * (1 / 65536) :=
    mul_nonneg (Finset.sum_nonneg fun r _ => mul_self_nonneg _) (by norm_num)
  have hnn' : (0 : EReal) ≤ (((∑ r, (g r c - (∑ r, g r c) * (1 / 65536)) * (g r c - (∑ r, g r c) * (1 / 65536))) * (1 / 65536) : ℝ) : EReal) := by
    exact_mod_cast hnn
  rw [max_eq_left hnn', max_eq_left hnn']

/-- On finite features, first weight and first bias the tiled and the plain spelling of the network agree. -/
theorem outK_eq_outR (fs : Fin 65536 → Fin 32 → EReal) (fc : Fin 65536 → Fin 16 → EReal) (fx : Fin 65536 → Fin 392 → EReal)
    (W1T : Fin 440 → Fin 256 → EReal) (b1 gamma beta : Fin 256 → EReal)
    (W2T : Fin 256 → Fin 64 → EReal) (b2 : Fin 64 → EReal) (W3T : Fin 64 → Fin 16 → EReal) (b3 : Fin 16 → EReal)
    (W4T : Fin 16 → Fin 1 → EReal) (b4 : Fin 1 → EReal)
    (hs : ∀ r k, IsFin (fs r k)) (hc : ∀ r k, IsFin (fc r k)) (hx : ∀ r k, IsFin (fx r k))
    (hW : ∀ k c, IsFin (W1T k c)) (hb : ∀ c, IsFin (b1 c)) (r : Fin 65536) :
    outK fs fc fx W1T b1 gamma beta W2T b2 W3T b3 W4T b4 r = outR fs fc fx W1T b1 gamma beta W2T b2 W3T b3 W4T b4 r := by
  unfold outK outR
  rw [lin1Split_eq]
  obtain ⟨g, hg⟩ := lin1_real (cat fs fc fx) W1T b1 (cat_isFin fs fc fx hs hc hx) hW hb
  rw [hg, meanK_eq, varK_eq_of_real]

end Cert.Spec

end
-- ==== Proof.Finite.lean ====
/-
  What the precondition says, entry by entry: it is the conjunction, over the thirteen float inputs, of "every entry's
  absolute value is below plus infinity", so under it every entry of every float argument is a real number. Stated here
  for the five arguments the variance identity needs: the three tables the features are gathered from, the first weight
  and the first bias.
-/
import proofs.«107007_j80882824118683_2_alg».proof.Defs
import proofs.«107007_j80882824118683_2_alg».proof.Proof.Gen.Pre_finite_inputs
import proofs.«107007_j80882824118683_2_alg».proof.Proof.Spec
import Idealize.ShloMosaic.Lib.ReduceAll
import Idealize.ShloMosaic.Lib.ValueIdx

noncomputable section

namespace Cert.Finite

open Idealize.ShloMosaic Idealize.ShloMosaic.ValueIdx Idealize.SL.Sem

/-- The rank-0 shape has one index. -/
instance : Subsingleton Cert.Pre_finite_inputs.S_.Idx := ⟨fun a b => funext fun d => d.elim0⟩

/-- The float pattern the comparison is made against is plus infinity. -/
theorem inf_eq_top : Ideal.ofBits .f32 0x7F800000#32 = (⊤ : EReal) := by simp [Ideal.ofBits, Ideal.ieee]

/-- An extended real whose absolute value max x (-x) is below plus infinity is neither infinity. -/
theorem isFin_of_abs_lt (x : EReal) (h : Ideal.cmp .olt (max x (-x)) (Ideal.ofBits .f32 0x7F800000#32) = 1#1) :
    Cert.Spec.IsFin x := by
  rw [inf_eq_top] at h
  unfold Ideal.cmp at h
  induction x using EReal.rec with
  | bot => simp at h
  | top => simp at h
  | coe r => exact ⟨EReal.coe_ne_bot r, EReal.coe_ne_top r⟩

/-- One conjunct of the precondition read back: if the all-reduce by "and" of the entrywise test |x| < +inf is 1,
    every entry of x is finite. -/
theorem all_fin {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] bc (constant (F := Ideal) Cert.Pre_finite_inputs.S_ .f32 0x7F800000#32)))
          (constantI Cert.Pre_finite_inputs.S_ 1 1#1) hr hu ix0 = 1#1) (i : s.Idx) :
    Cert.Spec.IsFin (x i) :=
  isFin_of_abs_lt (x i) (Host.reduce_andi_all _ _ hr hu ix0 e i)

variable (hP : Cert.Pre_finite_inputs.Facts)
variable (m : (ℓ : Loc Cert.KernelIdeal.nD Cert.KernelIdeal.τ Cert.KernelIdeal.sig) → Buf (Elt Ideal) ℓ)

/-- The precondition at one device, split: the value at the one index of the rank-0 result is the "and" of thirteen
    all-reduces, nested to the left in argument order; the first five are kept, each as "every entry is finite". -/
theorem first_five (h : Cert.Pre_KernelIdeal (hPre_finite_inputs := hP) m) (c : Dev Cert.KernelIdeal.nD) :
    (∀ i, Cert.Spec.IsFin (((m ((c.tc : Thread Cert.KernelIdeal.nD Cert.KernelIdeal.τ).loc Cert.KernelIdeal.main_arg3)) : Cert.KernelIdeal.S16777216x8.Idx → EReal) i))
    ∧ (∀ i, Cert.Spec.IsFin (((m ((c.tc : Thread Cert.KernelIdeal.nD Cert.KernelIdeal.τ).loc Cert.KernelIdeal.main_arg4)) : Cert.KernelIdeal.S4x32.Idx → EReal) i))
    ∧ (∀ i, Cert.Spec.IsFin (((m ((c.tc : Thread Cert.KernelIdeal.nD Cert.KernelIdeal.τ).loc Cert.KernelIdeal.main_arg5)) : Cert.KernelIdeal.S200x16.Idx → EReal) i))
    ∧ (∀ i, Cert.Spec.IsFin (((m ((c.tc : Thread Cert.KernelIdeal.nD Cert.KernelIdeal.τ).loc Cert.KernelIdeal.main_arg6)) : Cert.KernelIdeal.S256x440.Idx → EReal) i))
    ∧ (∀ i, Cert.Spec.IsFin (((m ((c.tc : Thread Cert.KernelIdeal.nD Cert.KernelIdeal.τ).loc Cert.KernelIdeal.main_arg7)) : Cert.KernelIdeal.S256.Idx → EReal) i)) := by
  have e := congrFun (h c) ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨⟨⟨e3, e4⟩, e5⟩, e6⟩, e7⟩, -⟩, -⟩, -⟩, -⟩, -⟩, -⟩, -⟩, -⟩ := e
  exact ⟨all_fin _ _ _ _ e3, all_fin _ _ _ _ e4, all_fin _ _ _ _ e5, all_fin _ _ _ _ e6, all_fin _ _ _ _ e7⟩

theorem arg3 (h : Cert.Pre_KernelIdeal (hPre_finite_inputs := hP) m) (c : Dev Cert.KernelIdeal.nD) (i : Cert.KernelIdeal.S16777216x8.Idx) :
    Cert.Spec.IsFin (((m ((c.tc : Thread Cert.KernelIdeal.nD Cert.KernelIdeal.τ).loc Cert.KernelIdeal.main_arg3)) : Cert.KernelIdeal.S16777216x8.Idx → EReal) i) :=
  (first_five hP m h c).1 i
theorem arg4 (h : Cert.Pre_KernelIdeal (hPre_finite_inputs := hP) m) (c : Dev Cert.KernelIdeal.nD) (i : Cert.KernelIdeal.S4x32.Idx) :
    Cert.Spec.IsFin (((m ((c.tc : Thread Cert.KernelIdeal.nD Cert.KernelIdeal.τ).loc Cert.KernelIdeal.main_arg4)) : Cert.KernelIdeal.S4x32.Idx → EReal) i) :=
  (first_five hP m h c).2.1 i
theorem arg5 (h : Cert.Pre_KernelIdeal (hPre_finite_inputs := hP) m) (c : Dev Cert.KernelIdeal.nD) (i : Cert.KernelIdeal.S200x16.Idx) :
    Cert.Spec.IsFin (((m ((c.tc : Thread Cert.KernelIdeal.nD Cert.KernelIdeal.τ).loc Cert.KernelIdeal.main_arg5)) : Cert.KernelIdeal.S200x16.Idx → EReal) i) :=
  (first_five hP m h c).2.2.1 i
theorem arg6 (h : Cert.Pre_KernelIdeal (hPre_finite_inputs := hP) m) (c : Dev Cert.KernelIdeal.nD) (i : Cert.KernelIdeal.S256x440.Idx) :
    Cert.Spec.IsFin (((m ((c.tc : Thread Cert.KernelIdeal.nD Cert.KernelIdeal.τ).loc Cert.KernelIdeal.main_arg6)) : Cert.KernelIdeal.S256x440.Idx → EReal) i) :=
  (first_five hP m h c).2.2.2.1 i
theorem arg7 (h : Cert.Pre_KernelIdeal (hPre_finite_inputs := hP) m) (c : Dev Cert.KernelIdeal.nD) (i : Cert.KernelIdeal.S256.Idx) :
    Cert.Spec.IsFin (((m ((c.tc : Thread Cert.KernelIdeal.nD Cert.KernelIdeal.τ).loc Cert.KernelIdeal.main_arg7)) : Cert.KernelIdeal.S256.Idx → EReal) i) :=
  (first_five hP m h c).2.2.2.2 i

end Cert.Finite

end
-- ==== Proof.Bridge.lean ====
/-
  The two programs compute one function. Their host front ends are the same operations on the same arguments, so the
  gathered features and the transposed weights are the same arrays; under the precondition the three tables, the first
  weight and the first bias hold real numbers, hence so do the features (a gathered entry is a table entry); and on
  real features the tiled and the plain spelling of the network agree (Proof/SpecLaws.lean).
-/
import proofs.«107007_j80882824118683_2_alg».proof.Proof.KValue
import proofs.«107007_j80882824118683_2_alg».proof.Proof.RValue
import proofs.«107007_j80882824118683_2_alg».proof.Proof.SpecLaws
import proofs.«107007_j80882824118683_2_alg».proof.Proof.Finite

set_option maxRecDepth 16384

noncomputable section

namespace Cert.Bridge

open Idealize.ShloMosaic Idealize.ShloMosaic.TcCoe Idealize.ShloMosaic.ValueIdx Idealize.SL.Sem Idealize.ShloMosaic.StableHlo

/-! ## The front ends are the same operations

Both programs print the same gathers over the same index arithmetic (a negative index wrapped by the table's height;
the embedding indices first reduced modulo the vocabulary by the floored remainder); the shapes and the gathers'
dimension records are each program's own copies of the same literals, so the two feature terms unfold to one. -/

theorem featS_eq (a0 : Cert.KernelIdeal.S65536.Idx → BitVec 32) (t : Cert.KernelIdeal.S4x32.Idx → EReal) :
    Cert.ReferenceIdeal.RefRead.featS a0 t = Cert.KernelIdeal.Host.featS a0 t := by
  unfold Cert.ReferenceIdeal.RefRead.featS Cert.KernelIdeal.Host.featS
  rfl
theorem featC_eq (a1 : Cert.KernelIdeal.S65536.Idx → BitVec 32) (t : Cert.KernelIdeal.S200x16.Idx → EReal) :
    Cert.ReferenceIdeal.RefRead.featC a1 t = Cert.KernelIdeal.Host.featC a1 t := by
  unfold Cert.ReferenceIdeal.RefRead.featC Cert.KernelIdeal.Host.featC
  rfl
theorem featX_eq (a2 : Cert.KernelIdeal.S65536x7x7.Idx → BitVec 32) (t : Cert.KernelIdeal.S16777216x8.Idx → EReal) :
    Cert.ReferenceIdeal.RefRead.featX a2 t = Cert.KernelIdeal.Host.featX a2 t := by
  unfold Cert.ReferenceIdeal.RefRead.featX Cert.KernelIdeal.Host.featX Cert.KernelIdeal.Host.remIdx Cert.KernelIdeal.Host.remRaw
    Cert.KernelIdeal.Host.remDiv
  rfl
theorem wT1_eq (w : Cert.KernelIdeal.S256x440.Idx → EReal) : Cert.ReferenceIdeal.RefRead.wT1 w = Cert.KernelIdeal.Host.wT1 w := rfl
theorem wT2_eq (w : Cert.KernelIdeal.S64x256.Idx → EReal) : Cert.ReferenceIdeal.RefReadTail.wT2 w = Cert.KernelIdeal.Host.wT2 w := rfl
theorem wT3_eq (w : Cert.KernelIdeal.S16x64.Idx → EReal) : Cert.ReferenceIdeal.RefReadTail.wT3 w = Cert.KernelIdeal.Host.wT3 w := rfl
theorem wT4_eq (w : Cert.KernelIdeal.S1x16.Idx → EReal) : Cert.ReferenceIdeal.RefReadTail.wT4 w = Cert.KernelIdeal.Host.wT4 w := rfl

/-! ## One function -/

/-- From memories agreeing on the arguments, under the precondition, the kernel's tiled network and the reference's
    plain network take the same value at every row. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (r : Fin 65536) :
    Cert.ReferenceIdeal.Value.out (launchContents m' c) r = Cert.KernelIdeal.Value.out m c r := by
  unfold Cert.ReferenceIdeal.Value.out Cert.KernelIdeal.Value.out
  rw [show launchContents m' c (Proc.devRef .tc Cert.ReferenceIdeal.main_arg0) = (m ((c.tc : Thread Cert.KernelIdeal.nD Cert.KernelIdeal.τ).loc Cert.KernelIdeal.main_arg0)) from h0]
  rw [show launchContents m' c (Proc.devRef .tc Cert.ReferenceIdeal.main_arg1) = (m ((c.tc : Thread Cert.KernelIdeal.nD Cert.KernelIdeal.τ).loc Cert.KernelIdeal.main_arg1)) from h1]
  rw [show launchContents m' c (Proc.devRef .tc Cert.ReferenceIdeal.main_arg2) = (m ((c.tc : Thread Cert.KernelIdeal.nD Cert.KernelIdeal.τ).loc Cert.KernelIdeal.main_arg2)) from h2]
  rw [show launchContents m' c (Proc.devRef .tc Cert.ReferenceIdeal.main_arg3) = (m ((c.tc : Thread Cert.KernelIdeal.nD Cert.KernelIdeal.τ).loc Cert.KernelIdeal.main_arg3)) from h3]
  rw [show launchContents m' c (Proc.devRef .tc Cert.ReferenceIdeal.main_arg4) = (m ((c.tc : Thread Cert.KernelIdeal.nD Cert.KernelIdeal.τ).loc Cert.KernelIdeal.main_arg4)) from h4]
  rw [show launchContents m' c (Proc.devRef .tc Cert.ReferenceIdeal.main_arg5) = (m ((c.tc : Thread Cert.KernelIdeal.nD Cert.KernelIdeal.τ).loc Cert.KernelIdeal.main_arg5)) from h5]
  rw [show launchContents m' c (Proc.devRef .tc Cert.ReferenceIdeal.main_arg6) = (m ((c.tc : Thread Cert.KernelIdeal.nD Cert.KernelIdeal.τ).loc Cert.KernelIdeal.main_arg6)) from h6]
  rw [show launchContents m' c (Proc.devRef .tc Cert.ReferenceIdeal.main_arg7) = (m ((c.tc : Thread Cert.KernelIdeal.nD Cert.KernelIdeal.τ).loc Cert.KernelIdeal.main_arg7)) from h7]
  rw [show launchContents m' c (Proc.devRef .tc Cert.ReferenceIdeal.main_arg8) = (m ((c.tc : Thread Cert.KernelIdeal.nD Cert.KernelIdeal.τ).loc Cert.KernelIdeal.main_arg8)) from h8]
  rw [show launchContents m' c (Proc.devRef .tc Cert.ReferenceIdeal.main_arg9) = (m ((c.tc : Thread Cert.KernelIdeal.nD Cert.KernelIdeal.τ).loc Cert.KernelIdeal.main_arg9)) from h9]
  rw [show launchContents m' c (Proc.devRef .tc Cert.ReferenceIdeal.main_arg10) = (m ((c.tc : Thread Cert.KernelIdeal.nD Cert.KernelIdeal.τ).loc Cert.KernelIdeal.main_arg10)) from h10]
  rw [show launchContents m' c (Proc.devRef .tc Cert.ReferenceIdeal.main_arg11) = (m ((c.tc : Thread Cert.KernelIdeal.nD Cert.KernelIdeal.τ).loc Cert.KernelIdeal.main_arg11)) from h11]
  rw [show launchContents m' c (Proc.devRef .tc Cert.ReferenceIdeal.main_arg12) = (m ((c.tc : Thread Cert.KernelIdeal.nD Cert.KernelIdeal.τ).loc Cert.KernelIdeal.main_arg12)) from h12]
  rw [show launchContents m' c (Proc.devRef .tc Cert.ReferenceIdeal.main_arg13) = (m ((c.tc : Thread Cert.KernelIdeal.nD Cert.KernelIdeal.τ).loc Cert.KernelIdeal.main_arg13)) from h13]
  rw [show launchContents m' c (Proc.devRef .tc Cert.ReferenceIdeal.main_arg14) = (m ((c.tc : Thread Cert.KernelIdeal.nD Cert.KernelIdeal.τ).loc Cert.KernelIdeal.main_arg14)) from h14]
  rw [show launchContents m' c (Proc.devRef .tc Cert.ReferenceIdeal.main_arg15) = (m ((c.tc : Thread Cert.KernelIdeal.nD Cert.KernelIdeal.τ).loc Cert.KernelIdeal.main_arg15)) from h15]
  rw [featS_eq, featC_eq, featX_eq, wT1_eq, wT2_eq, wT3_eq, wT4_eq]
  refine (Cert.Spec.outK_eq_outR _ _ _ _ _ _ _ _ _ _ _ _ _ ?_ ?_ ?_ ?_ ?_ r).symm
  · exact fun r k => Cert.KernelIdeal.Host.featS_fin _ _ (fun i => Cert.Finite.arg4 Cert.Pre_finite_inputs.Gen.facts m hpre c i) (ix2 r k)
  · exact fun r k => Cert.KernelIdeal.Host.featC_fin _ _ (fun i => Cert.Finite.arg5 Cert.Pre_finite_inputs.Gen.facts m hpre c i) (ix2 r k)
  · exact fun r k => Cert.KernelIdeal.Host.featX_fin _ _ (fun i => Cert.Finite.arg3 Cert.Pre_finite_inputs.Gen.facts m hpre c i) (ix2 r k)
  · exact fun k j => Cert.KernelIdeal.Host.wT1_fin _ (fun i => Cert.Finite.arg6 Cert.Pre_finite_inputs.Gen.facts m hpre c i) (ix2 k j)
  · exact fun j => Cert.Finite.arg7 Cert.Pre_finite_inputs.Gen.facts m hpre c (ix1 j)

end Cert.Bridge

end
-- ==== Proof.lean ====
/-
  The certificate of a batch-normalised embedding network. The kernel runs it as two pallas_calls — the first linear
  layer with per-core column sums of the output and of its squares, then, after the host has formed the batch mean and
  the variance as E[h²] − E[h]², the normalisation and the three remaining layers tile by tile — and the reference runs
  it as plain array operations with the variance as E[(h − E[h])²]. At the ideal instance, where floats are extended
  reals and a change of float format is the identity, both end with the same result on every finite input: the two
  front ends are the same gathers, sums are regrouped freely, and the two variance formulas agree on real numbers
  (there the precondition is used). The three frames are the generated frame certificates of the kernel and its
  idealization and the reference's straight-line run; the idealization rewrote no operation.
-/
import proofs.«107007_j80882824118683_2_alg».proof.Defs
import proofs.«107007_j80882824118683_2_alg».proof.Proof.Gen.Kernel
import proofs.«107007_j80882824118683_2_alg».proof.Proof.Gen.Kernel.Frame
import proofs.«107007_j80882824118683_2_alg».proof.Proof.Gen.KernelIdeal
import proofs.«107007_j80882824118683_2_alg».proof.Proof.Gen.KernelIdeal.Frame
import proofs.«107007_j80882824118683_2_alg».proof.Proof.Gen.ReferenceIdeal
import proofs.«107007_j80882824118683_2_alg».proof.Proof.Gen.Pre_finite_inputs
import proofs.«107007_j80882824118683_2_alg».proof.Proof.KernelRun
import proofs.«107007_j80882824118683_2_alg».proof.Proof.KValue
import proofs.«107007_j80882824118683_2_alg».proof.Proof.RValue
import proofs.«107007_j80882824118683_2_alg».proof.Proof.Bridge
import Idealize.ShloMosaic.Adequacy
import Idealize.ShloMosaic.Init

noncomputable section

namespace Cert.Proof

open Idealize.ShloMosaic Idealize.SL.Sem

/-- The word-level kernel's frame: the generated frame certificate. -/
theorem frame_k : Cert.frame_Kernel := fun m ρ _ => Cert.Kernel.Gen.frame m ρ

/-- The idealized kernel's frame: the generated frame certificate. -/
theorem frame_ki : Cert.frame_KernelIdeal := fun m ρ _ => Cert.KernelIdeal.Gen.frame m ρ

/-- The reference's frame: its straight-line run with the result dropped. -/
theorem frame_ri : Cert.frame_ReferenceIdeal := fun m ρ _ =>
  (θ_run Cert.ReferenceIdeal.defs _ _).mono (fun _ h c => (h c).2) (Cert.ReferenceIdeal.Value.run m ρ)

/-- The idealized kernel's run with its result named: the tiled spelling of the network at the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v58)
            = (fun i => Cert.KernelIdeal.Value.out m c (i 0))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run Cert.KernelIdeal.defs _ _).mono (fun _ h c => ⟨(h c).1.trans (Cert.KernelIdeal.Value.result_eq m ρ c), (h c).2⟩)
    (Cert.KernelIdeal.RunNamed.run (F := Ideal) m ρ)

/-- From memories agreeing on the arguments both idealized programs run, and end with the same result: the kernel's
    tiled network and the reference's plain network are one function under the precondition. -/
theorem algebraic : Cert.algebraic_KernelIdeal_ReferenceIdeal := by
  intro m ρ m' ρ' hpre hagree
  refine ⟨fun c => (fun i => Cert.KernelIdeal.Value.out m c (i 0)), kernel_run m ρ, ?_⟩
  refine (θ_run Cert.ReferenceIdeal.defs _ _).mono (fun _ h c => ⟨(h c).1.trans ?_, (h c).2⟩) (Cert.ReferenceIdeal.Value.run m' ρ')
  funext i
  exact Cert.Bridge.out_eq m m' hpre c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2 (i 0)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
